-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S256x64 : Shape := ⟨2, ![256, 64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_arg4 : FVec F S256x64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  main_v23

def fn {F : FTy → Type} [FloatOps F] (main_arg0 : FVec F S8192x512 .f32) (main_arg1 : FVec F S8192x8192 .f32) (main_arg2 : FVec F S512x256 .f32) (main_arg3 : FVec F S256x64 .f32) (main_arg4 : FVec F S256x64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S256x64 : Shape := ⟨2, ![256, 64]⟩
abbrev S8192x256 : Shape := ⟨2, ![8192, 256]⟩
abbrev S2048x512 : Shape := ⟨2, ![2048, 512]⟩
abbrev S2048x256 : Shape := ⟨2, ![2048, 256]⟩
abbrev S256x128 : Shape := ⟨2, ![256, 128]⟩
abbrev S8192x128 : Shape := ⟨2, ![8192, 128]⟩
abbrev S2048x1024 : Shape := ⟨2, ![2048, 1024]⟩
abbrev S2048x128 : Shape := ⟨2, ![2048, 128]⟩
abbrev S1024x256 : Shape := ⟨2, ![1024, 256]⟩
abbrev S1024x128 : Shape := ⟨2, ![1024, 128]⟩
abbrev S8192x64 : Shape := ⟨2, ![8192, 64]⟩
abbrev S2048x64 : Shape := ⟨2, ![2048, 64]⟩
abbrev S1024x64 : Shape := ⟨2, ![1024, 64]⟩

abbrev nBuf : Space → Nat
  | .hbm => 12
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256x64, .f32⟩
  | .hbm, ⟨4, _⟩ => ⟨S256x64, .f32⟩
  | .hbm, ⟨5, _⟩ => ⟨S8192x256, .bf16⟩
  | .hbm, ⟨6, _⟩ => ⟨S256x128, .f32⟩
  | .hbm, ⟨7, _⟩ => ⟨S8192x128, .bf16⟩
  | .hbm, ⟨8, _⟩ => ⟨S8192x128, .f32⟩
  | .hbm, ⟨9, _⟩ => ⟨S8192x64, .f32⟩
  | .hbm, ⟨10, _⟩ => ⟨S8192x64, .f32⟩
  | .hbm, ⟨11, _⟩ => ⟨S8192x8192, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S2048x256, .bf16⟩
  | .local _ .vmem, ⟨4, _⟩ => ⟨S2048x256, .bf16⟩
  | .local _ .vmem, ⟨5, _⟩ => ⟨S2048x1024, .f32⟩
  | .local _ .vmem, ⟨6, _⟩ => ⟨S2048x1024, .f32⟩
  | .local _ .vmem, ⟨7, _⟩ => ⟨S8192x256, .bf16⟩
  | .local _ .vmem, ⟨8, _⟩ => ⟨S256x128, .f32⟩
  | .local _ .vmem, ⟨9, _⟩ => ⟨S2048x128, .bf16⟩
  | .local _ .vmem, ⟨10, _⟩ => ⟨S2048x128, .bf16⟩
  | .local _ .vmem, ⟨11, _⟩ => ⟨S2048x256, .f32⟩
  | .local _ .vmem, ⟨12, _⟩ => ⟨S2048x1024, .f32⟩
  | .local _ .vmem, ⟨13, _⟩ => ⟨S2048x1024, .f32⟩
  | .local _ .vmem, ⟨14, _⟩ => ⟨S8192x128, .bf16⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x64, .f32⟩
  | .local _ .vmem, ⟨19, _⟩ => ⟨S2048x64, .f32⟩
  | .local _ .vmem, ⟨20, _⟩ => ⟨S1024x64, .f32⟩
  | .local _ .vmem, ⟨21, _⟩ => ⟨S1024x64, .f32⟩
  | .local _ .vmem, ⟨22, _⟩ => ⟨S2048x1024, .f32⟩
  | .local _ .vmem, ⟨23, _⟩ => ⟨S2048x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v7 : Index := Scalar.indexCast v4
  let c0_2 : Index := 0#32
  ![v7.toNat, 0]
def k1_cond2 (i : grid1.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 8], ![false, false]⟩

def k2_mult1 (i : grid2.Coords) : BitVec 32 :=
  let arg1 : BitVec 32 := BitVec.ofNat 32 (i 1).val
  let c1024_i32 : BitVec 32 := 1024#32
  let v3 : BitVec 32 := Scalar.muli arg1 c1024_i32
  v3
def k2_off1 (i : grid2.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v7 : Index := Scalar.indexCast v4
  let c0_2 : Index := 0#32
  ![v7.toNat, 0]
def k2_cond2 (i : grid2.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![4, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  concatenates_S256x64_S256x64_S256x128_d1 : Shape.Concatenates [S256x64, S256x64] S256x128 1
  shapeCasts_S2048x256_S2048x256 : S2048x256.ShapeCasts S2048x256
  inb_S2048x1024_S2048x1024_0_0 : ∀ a, (![0, 0] : Fin 2 → Nat) a + S2048x1024.size a ≤ S2048x1024.size a
  h_S2048x1024 : 0 < S2048x1024.numel
  h_S1024x256 : 0 < S1024x256.numel
  shapeCasts_S1024x256_S1024x256 : S1024x256.ShapeCasts S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  packedbf16_S2048x128_S2048x128_0_0 : (Rect.unit (s := S2048x128) ![0, 0] S2048x128.size inb_S2048x128_S2048x128_0_0).PackedRows (EltTy.packing .bf16)
  shapeCasts_S2048x128_S2048x128 : S2048x128.ShapeCasts S2048x128
  h_S1024x128 : 0 < S1024x128.numel
  shapeCasts_S1024x128_S1024x128 : S1024x128.ShapeCasts S1024x128
  slices_S8192x128_S8192x64_0_0 : S8192x128.Slices ![0, 0] S8192x64
  slices_S8192x128_S8192x64_0_64 : S8192x128.Slices ![0, 64] S8192x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  dot_S2048x512_S512x256_S2048x256_1_0_0_1_n_n_wf : DotDims.WF S2048x512 S512x256 S2048x256 [1] [0] [0] [1] [] []
  dot_S2048x1024_S1024x256_S2048x256_1_0_0_1_n_n_wf : DotDims.WF S2048x1024 S1024x256 S2048x256 [1] [0] [0] [1] [] []
  dot_S2048x256_S256x128_S2048x128_1_0_0_1_n_n_wf : DotDims.WF S2048x256 S256x128 S2048x128 [1] [0] [0] [1] [] []
  dot_S2048x1024_S1024x128_S2048x128_1_0_0_1_n_n_wf : DotDims.WF S2048x1024 S1024x128 S2048x128 [1] [0] [0] [1] [] []
  dot_S2048x64_S1024x64_S2048x1024_1_1_0_0_n_n_wf : DotDims.WF S2048x64 S1024x64 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .bf16 = 32 ∨ (Rect.block (s := S8192x256) S2048x256.size (cc0_transform_2 i) (hinb0_2 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S8192x128.size a
  hwx1_3 : ∀ i : grid1.Coords, EltTy.bits .bf16 = 32 ∨ (Rect.block (s := S8192x128) S2048x128.size (cc1_transform_3 i) (hinb1_3 i)).WholeWords (EltTy.packing .bf16)
  hrank2 : 0 < grid2.rank
  k2_mult1_dvd : ∀ i : grid2.Coords, 1024 ∣ (k2_mult1 i).toNat
  k2_off1_inb : ∀ i : grid2.Coords, ∀ a, (k2_off1 i) a + S1024x128.size a ≤ S8192x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x8192.size a
  hwx2_0 : ∀ i : grid2.Coords, EltTy.bits .f32 = 32 ∨ (Rect.block (s := S8192x8192) S2048x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S8192x128.size a
  hwx2_1 : ∀ i : grid2.Coords, EltTy.bits .bf16 = 32 ∨ (Rect.block (s := S8192x128) S8192x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S8192x128.size a
  hwx2_2 : ∀ i : grid2.Coords, EltTy.bits .f32 = 32 ∨ (Rect.block (s := S8192x128) S2048x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x64.size a ≤ S8192x64.size a
  hwx3_0 : ∀ i : grid3.Coords, EltTy.bits .f32 = 32 ∨ (Rect.block (s := S8192x64) S2048x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S8192x64.size a
  hwx3_1 : ∀ i : grid3.Coords, EltTy.bits .f32 = 32 ∨ (Rect.block (s := S8192x64) S1024x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1024.size a ≤ S8192x8192.size a
  hwx3_2 : ∀ i : grid3.Coords, EltTy.bits .f32 = 32 ∨ (Rect.block (s := S8192x8192) S2048x1024.size (cc3_transform_2 i) (hinb3_2 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg1) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S8192x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S2048x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v4) S2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S2048x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S256x64 : Shape := ⟨2, ![256, 64]⟩
abbrev S8192x256 : Shape := ⟨2, ![8192, 256]⟩
abbrev S_ : Shape := ⟨0, ![]⟩
abbrev S8192x64 : Shape := ⟨2, ![8192, 64]⟩
abbrev S64x8192 : Shape := ⟨2, ![64, 8192]⟩

abbrev nBuf : Space → Nat
  | .hbm => 16
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256x64, .f32⟩
  | .hbm, ⟨4, _⟩ => ⟨S256x64, .f32⟩
  | .hbm, ⟨5, _⟩ => ⟨S8192x256, .f32⟩
  | .hbm, ⟨6, _⟩ => ⟨S8192x256, .f32⟩
  | .hbm, ⟨7, _⟩ => ⟨S_, .f32⟩
  | .hbm, ⟨8, _⟩ => ⟨S8192x256, .f32⟩
  | .hbm, ⟨9, _⟩ => ⟨S8192x256, .f32⟩
  | .hbm, ⟨10, _⟩ => ⟨S8192x64, .f32⟩
  | .hbm, ⟨11, _⟩ => ⟨S8192x64, .f32⟩
  | .hbm, ⟨12, _⟩ => ⟨S8192x64, .f32⟩
  | .hbm, ⟨13, _⟩ => ⟨S8192x64, .f32⟩
  | .hbm, ⟨14, _⟩ => ⟨S64x8192, .f32⟩
  | .hbm, ⟨15, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  transposes_S8192x64_S64x8192_1_0 : S8192x64.Transposes [1, 0] S64x8192
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x64_S8192x64_1_0_0_1_n_n_wf : DotDims.WF S8192x256 S256x64 S8192x64 [1] [0] [0] [1] [] []
  dot_S8192x8192_S8192x64_S8192x64_1_0_0_1_n_n_wf : DotDims.WF S8192x8192 S8192x64 S8192x64 [1] [0] [0] [1] [] []
  dot_S8192x64_S64x8192_S8192x8192_1_0_0_1_n_n_wf : DotDims.WF S8192x64 S64x8192 S8192x8192 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KernelHand.Iface.lean ====
/-
  What the run of the whole program needs to know of a region whose body carries an accumulator between grid points:
  proof data over ANY contents of the buffers at the region's entry, reading its arrays off those contents, every
  array held whole and nothing owed, the body's obligation at every point, and the carried invariant entered from and
  returned to the plain one (every scoped buffer that is no staging buffer at anything, the generator register at some
  state). The run is written against these two records; the regions' own modules provide them.
-/
import proofs.«114752_j31224412242681_2_alg».proof.Proof.Gen.Kernel.Launch
import proofs.«114752_j31224412242681_2_alg».proof.Proof.Gen.Kernel.Skeleton
import proofs.«114752_j31224412242681_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The second region's (adjacency times first support, rectified, times the packed weights) interface to the run. -/
structure Region1Data (F : FTy → Type) [FloatOps F] where
  dat : ((c : Dev nD) → (b : Ref sig .tc) → Buf (Elt F) ((c : Thread nD τ).loc b)) → (c : Dev nD) → Dat τ (Elt F) Unit ℕ (UR sig nD τ) ℕ cfg1 c
  A_eq : ∀ V c w, (dat V c).A w = V c (Pipeline.arrRef spec1 w)
  q_full : ∀ V c w, (dat V c).q w = fullShare
  owed_zero : ∀ V c t, (dat V c).owed t = 0
  recorded_univ : ∀ V c t, (dat V c).recorded t = Set.univ
  body : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

/-- The third region's (adjacency times second support) interface to the run. -/
structure Region2Data (F : FTy → Type) [FloatOps F] where
  dat : ((c : Dev nD) → (b : Ref sig .tc) → Buf (Elt F) ((c : Thread nD τ).loc b)) → (c : Dev nD) → Dat τ (Elt F) Unit ℕ (UR sig nD τ) ℕ cfg2 c
  A_eq : ∀ V c w, (dat V c).A w = V c (Pipeline.arrRef spec2 w)
  q_full : ∀ V c w, (dat V c).q w = fullShare
  owed_zero : ∀ V c t, (dat V c).owed t = 0
  recorded_univ : ∀ V c t, (dat V c).recorded t = Set.univ
  body : ∀ V c, BodyObligation (dat V c) (defs₀ (F := F)) Variants.none () Set.univ
  hin : ∀ V c, (Pipeline.ΦA spec2 c : sProp (MT nD τ sig Unit (Elt F) ℕ (UR sig nD τ) ℕ)) ⊢ (dat V c).Φ 0
  hout : ∀ V c, (dat V c).Φ (Fin.last cfg2.N) ⊢ (Pipeline.ΦA spec2 c : sProp (MT nD τ sig Unit (Elt F) ℕ (UR sig nD τ) ℕ))

end Cert.Kernel.Hand

end
-- ==== Proof.KernelHand.Region0.lean ====
/-
  The first product, features times first-layer weights, one block of 2048 rows per grid point.

  At grid point t the body reads the point's block of 2048 rows of the features and the whole weight matrix, multiplies
  them into a zero accumulator and stores the 2048 x 256 result, narrowed, into the output's block: so after the body
  the output's staging buffer holds one function of the two input blocks, whatever it held before. Stated at any
  contents V of the buffers when the region is entered, at any float instance.
-/
import proofs.«114752_j31224412242681_2_alg».proof.Proof.Gen.Kernel.Launch
import proofs.«114752_j31224412242681_2_alg».proof.Proof.Gen.Kernel.Skeleton
import proofs.«114752_j31224412242681_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' staging buffer holds the point's block at every point, for any proof data over V's arrays whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weights' staging buffer holds the whole weight matrix at every point: fetched once, its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer read or written whole -/

abbrev r0_x : Rect S2048x512 := Rect.unit (s := S2048x512) ![0, 0] S2048x512.size inb_S2048x512_S2048x512_0_0
abbrev r0_w : Rect S512x256 := Rect.unit (s := S512x256) ![0, 0] S512x256.size inb_S512x256_S512x256_0_0
abbrev r0_o : Rect S2048x256 := Rect.unit (s := S2048x256) ![0, 0] S2048x256.size inb_S2048x256_S2048x256_0_0

/-- What the body leaves in the output's staging buffer, from the two input blocks: its one store. -/
def out0_2 (x0 : Vec F S2048x512 .f32) (x1 : Vec F S512x256 .f32) : Vec F S2048x256 .bf16 :=
  View.canon [⟨r0_o, k0_pay1 (View.ld x0 r0_x) (View.ld x1 r0_w)⟩]

/-- The one store covers the buffer. -/
theorem cover0_2 (p0 : Vec F S2048x256 .bf16) (y : S2048x256.Idx) :
    ∃ pc ∈ ([⟨r0_o, p0⟩] : List (View.Piece (Elt F) S2048x256 .bf16)), y ∈ pc.1.set :=
  View.cover_of_tiled [⟨r0_o, p0⟩] S2048x256.size (by rfl) y

/-! ## The body's triple -/

set_option maxHeartbeats 1000000 in
/-- On whole staging memrefs, the inputs' at contents x0 and x1 and the output's at anything, the body runs to the
    continuation holding the inputs' as they were and the output's at out0_2 of them. -/
theorem sound_kernel0 (c : Dev nD) (E : Set ℕ) (i : grid0.Coords) (arg1 : Memref sig .tc .vmem S2048x512 .f32) (harg1 : arg1.IsWhole) (arg2 : Memref sig .tc .vmem S512x256 .f32) (harg2 : arg2.IsWhole) (arg3 : Memref sig .tc .vmem S2048x256 .bf16) (harg3 : arg3.IsWhole)
    (x0 : Vec F S2048x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__support1_kernel i arg1 harg1 arg2 harg2 arg3 harg3) K := by
  simp only [cc0__support1_kernel_eq_skeleton]; unfold cc0__support1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first product's pipeline on core c: the arrays as the region finds them; after the body at
    point t each input's buffer at its block and the output's at out0_2 of the two blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelHand.Region3.lean ====
/-
  The decoder's Gram matrix, one 2048 x 1024 tile per grid point.

  At grid point (i, j) the body reads a block of 2048 rows and a block of 1024 rows of ONE array (the latent means,
  handed to the kernel twice), multiplies the first by the transpose of the second into a zero accumulator and stores the
  2048 x 1024 tile. After the body the output's staging buffer holds one function of the two input blocks. The shared
  array's ownership is dealt between its two windows, half each; the output window owns its array whole. Stated at any
  contents V of the buffers when the region is entered, at any float instance.
-/
import proofs.«114752_j31224412242681_2_alg».proof.Proof.Gen.Kernel.Launch
import proofs.«114752_j31224412242681_2_alg».proof.Proof.Gen.Kernel.Skeleton
import proofs.«114752_j31224412242681_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block's staging buffer holds the point's block at every point (fetched when the row index moves). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The column block's staging buffer holds the point's block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer read or written whole -/

abbrev r3_a : Rect S2048x64 := Rect.unit (s := S2048x64) ![0, 0] S2048x64.size inb_S2048x64_S2048x64_0_0
abbrev r3_b : Rect S1024x64 := Rect.unit (s := S1024x64) ![0, 0] S1024x64.size inb_S1024x64_S1024x64_0_0
abbrev r3_o : Rect S2048x1024 := Rect.unit (s := S2048x1024) ![0, 0] S2048x1024.size inb_S2048x1024_S2048x1024_0_0

/-- What the body leaves in the output's staging buffer, from the two input blocks: its one store. -/
def out3_2 (x0 : Vec F S2048x64 .f32) (x1 : Vec F S1024x64 .f32) : Vec F S2048x1024 .f32 :=
  View.canon [⟨r3_o, k3_pay1 (View.ld x0 r3_a) (View.ld x1 r3_b)⟩]

/-- The one store covers the buffer. -/
theorem cover3_2 (p0 : Vec F S2048x1024 .f32) (y : S2048x1024.Idx) :
    ∃ pc ∈ ([⟨r3_o, p0⟩] : List (View.Piece (Elt F) S2048x1024 .f32)), y ∈ pc.1.set :=
  View.cover_of_tiled [⟨r3_o, p0⟩] S2048x1024.size (by rfl) y

/-! ## The body's triple -/

set_option maxHeartbeats 1000000 in
/-- On whole staging memrefs, the inputs' at contents x0 and x1 and the output's at anything, the body runs to the
    continuation holding the inputs' as they were and the output's at out3_2 of them. -/
theorem sound_kernel3 (c : Dev nD) (E : Set ℕ) (i : grid3.Coords) (arg2 : Memref sig .tc .vmem S2048x64 .f32) (harg2 : arg2.IsWhole) (arg3 : Memref sig .tc .vmem S1024x64 .f32) (harg3 : arg3.IsWhole) (arg4 : Memref sig .tc .vmem S2048x1024 .f32) (harg4 : arg4.IsWhole)
    (x0 : Vec F S2048x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3__recon_kernel i arg2 harg2 arg3 harg3 arg4 harg4) K := by
  simp only [cc3__recon_kernel_eq_skeleton]; unfold cc3__recon_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the Gram pipeline on core c: the arrays as the region finds them; after the body at point t each
    input's buffer at its block and the output's at out3_2 of the two blocks; the shared input array held half by each of
    its windows; nothing carried, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point t, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.LibSharedPair.lean ====
/-
  Dealing one array's full share between two input windows of a pipeline.

  A pipeline kernel that reads ONE array through two input windows (two block specifications over the same
  operand) and writes one output array cannot be handed the shared array twice at the full share. At the
  region's entry the two distinct buffers behind the three windows' arrays are each held whole at the full
  share; the shared one is split along a decomposition of the full share into the two windows' shares, and
  the output's buffer goes to its window undivided. This is the entry split of such a kernel: three windows,
  two arrays.
-/
import Idealize.ShloMosaic.Lib.Pipeline.Frame

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open scoped PCS
open TcCoe

namespace Pipeline

open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- THE ENTRY SPLIT for three windows on two arrays. Windows `w0` and `w1` read one array (`h01`), `w2` has an array
    of its own, distinct from it (`hrefs`), and there is no other window (`huniv`, `hnd`). The shared array's full
    share is the composite of its two windows' shares (`hq`), and `w2` holds its array at the full share. Then the two
    buffers, whole at the full share at `V`, are the pipeline's arrays at `F`, where `F` reads `V` at each window's
    array (`hF`): a points-to splits along its share. -/
theorem arrays_split_pair (cfgs : P → Cfg sig Λ₀)
    (dats : (p : P) → (c : Dev nD) → Dat τ Val Unit ℕ (UR sig nD τ) ℕ (cfgs p) c) (p : P) (c : Dev nD)
    (harr : ∀ w, ((cfgs p).spec w).arr.IsWhole)
    (w0 w1 w2 : Fin (cfgs p).W)
    (huniv : (Finset.univ : Finset (Fin (cfgs p).W)) = [w0, w1, w2].toFinset)
    (hnd : [w0, w1, w2].Nodup)
    (h01 : arrRef (cfgs p).spec w1 = arrRef (cfgs p).spec w0)
    (hrefs : [arrRef (cfgs p).spec w0, arrRef (cfgs p).spec w2].Nodup)
    (q₁ q₂ : PosShare TreeShare) (hq : fullShare ∈ q₁ ·? q₂)
    (hs0 : (dats p c).share w0 = q₁) (hs1 : (dats p c).share w1 = q₂) (hs2 : (dats p c).share w2 = fullShare)
    (V : (b : Ref sig .tc) → Buf Val ((c.tc : Thread nD τ).loc b))
    (F : (w : Fin (cfgs p).W) → Buf Val (((cfgs p).spec w).arr.view.loc (c.tc : Thread nD τ)))
    (hF : ∀ w, F w = V (arrRef (cfgs p).spec w)) :
    (arrBufs (cfgs p).spec c V : sProp 𝕄) ⊢ (dats p c).arrays F := by
  classical
  -- a buffer whole at share `q` at `V`
  let Pt : PosShare TreeShare → Ref sig .tc → sProp 𝕄 := fun q b => ((c.tc : Thread nD τ).loc b) ↦{q} V b
  -- each window's points-to is its array's buffer at the window's share
  have hΦ : ∀ w : Fin (cfgs p).W,
      ((((cfgs p).spec w).arr.view.loc (c.tc : Thread nD τ) ↦[((cfgs p).spec w).arr.view.set]{(dats p c).share w} F w : sProp 𝕄))
        = Pt ((dats p c).share w) (arrRef (cfgs p).spec w) := fun w => by
    rw [(harr w).set_eq_univ, hF w]
  -- the buffers behind the arrays are the two
  have himg : Finset.univ.image (arrRef (cfgs p).spec)
      = [arrRef (cfgs p).spec w0, arrRef (cfgs p).spec w2].toFinset := by
    rw [huniv]
    simp only [List.toFinset_cons, List.toFinset_nil, Finset.image_insert, Finset.image_empty, h01, Finset.insert_idem]
  unfold Dat.arrays arrBufs
  rw [bigSep_congr (fun w _ => hΦ w), BI.bigSep_eq_bigSepL_of_eq _ huniv hnd, BI.bigSep_eq_bigSepL_of_eq _ himg hrefs]
  show iprop(Pt fullShare (arrRef (cfgs p).spec w0) ∗ Pt fullShare (arrRef (cfgs p).spec w2))
    ⊢ iprop(Pt ((dats p c).share w0) (arrRef (cfgs p).spec w0) ∗ Pt ((dats p c).share w1) (arrRef (cfgs p).spec w1)
        ∗ Pt ((dats p c).share w2) (arrRef (cfgs p).spec w2))
  rw [hs0, hs1, hs2, h01]
  iintro ⟨H0, H2⟩
  ihave H0' := (pointsTo_share hq).1 $$ H0
  icases H0' with ⟨H0a, H0b⟩
  isplitl [H0a]; · iexact H0a
  isplitl [H0b]; · iexact H0b
  iexact H2

end Pipeline

end Idealize.ShloMosaic

end
-- ==== Proof.LibSharedJoin.lean ====
/-
  Giving one array's two half shares back as the whole.

  A pipeline kernel that reads ONE array through two input windows and writes one output array holds, at the region's
  exit, the shared array once per window at that window's share and the output's array at the full share. When the two
  windows' shares compose to the full share and both windows hold the same contents, the two pieces join into the
  buffer held whole: the two distinct buffers behind the three windows' arrays, each whole at the full share. This is
  the exit counterpart of dealing the shared array's full share between its two windows at the entry.
-/
import Idealize.ShloMosaic.Lib.Pipeline.Frame

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open scoped PCS
open TcCoe

namespace Pipeline

open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- THE EXIT JOIN for three windows on two arrays. Windows w0 and w1 read one array, w2 has an array of its own,
    distinct from it, and there is no other window. The shared array's full share is the composite of its two windows'
    shares, and w2 holds its array at the full share. If each window's contents F w are the valuation V read at the
    window's array, the pipeline's arrays at F are the two buffers, each whole at the full share at V. -/
theorem arrays_join_pair (cfgs : P → Cfg sig Λ₀)
    (dats : (p : P) → (c : Dev nD) → Dat τ Val Unit ℕ (UR sig nD τ) ℕ (cfgs p) c) (p : P) (c : Dev nD)
    (harr : ∀ w, ((cfgs p).spec w).arr.IsWhole)
    (w0 w1 w2 : Fin (cfgs p).W)
    (huniv : (Finset.univ : Finset (Fin (cfgs p).W)) = [w0, w1, w2].toFinset)
    (hnd : [w0, w1, w2].Nodup)
    (h01 : arrRef (cfgs p).spec w1 = arrRef (cfgs p).spec w0)
    (hrefs : [arrRef (cfgs p).spec w0, arrRef (cfgs p).spec w2].Nodup)
    (q₁ q₂ : PosShare TreeShare) (hq : fullShare ∈ q₁ ·? q₂)
    (hs0 : (dats p c).share w0 = q₁) (hs1 : (dats p c).share w1 = q₂) (hs2 : (dats p c).share w2 = fullShare)
    (V : (b : Ref sig .tc) → Buf Val ((c.tc : Thread nD τ).loc b))
    (F : (w : Fin (cfgs p).W) → Buf Val (((cfgs p).spec w).arr.view.loc (c.tc : Thread nD τ)))
    (hF : ∀ w, F w = V (arrRef (cfgs p).spec w)) :
    (dats p c).arrays F ⊢ (arrBufs (cfgs p).spec c V : sProp 𝕄) := by
  classical
  let Pt : PosShare TreeShare → Ref sig .tc → sProp 𝕄 := fun q b => ((c.tc : Thread nD τ).loc b) ↦{q} V b
  have hΦ : ∀ w : Fin (cfgs p).W,
      ((((cfgs p).spec w).arr.view.loc (c.tc : Thread nD τ) ↦[((cfgs p).spec w).arr.view.set]{(dats p c).share w} F w : sProp 𝕄))
        = Pt ((dats p c).share w) (arrRef (cfgs p).spec w) := fun w => by
    rw [(harr w).set_eq_univ, hF w]
  have himg : Finset.univ.image (arrRef (cfgs p).spec)
      = [arrRef (cfgs p).spec w0, arrRef (cfgs p).spec w2].toFinset := by
    rw [huniv]
    simp only [List.toFinset_cons, List.toFinset_nil, Finset.image_insert, Finset.image_empty, h01, Finset.insert_idem]
  unfold Dat.arrays arrBufs
  rw [bigSep_congr (fun w _ => hΦ w), BI.bigSep_eq_bigSepL_of_eq _ huniv hnd, BI.bigSep_eq_bigSepL_of_eq _ himg hrefs]
  show iprop(Pt ((dats p c).share w0) (arrRef (cfgs p).spec w0) ∗ Pt ((dats p c).share w1) (arrRef (cfgs p).spec w1)
        ∗ Pt ((dats p c).share w2) (arrRef (cfgs p).spec w2))
    ⊢ iprop(Pt fullShare (arrRef (cfgs p).spec w0) ∗ Pt fullShare (arrRef (cfgs p).spec w2))
  rw [hs0, hs1, hs2, h01]
  iintro ⟨H0a, H0b, H2⟩
  isplitl [H0a H0b]
  · iapply (pointsTo_share hq).2
    isplitl [H0a]; · iexact H0a
    iexact H0b
  iexact H2

end Pipeline

end Idealize.ShloMosaic

end
-- ==== Proof.KernelHand.Run.lean ====
/-
  The run of the whole program: four kernel regions among two stretches of host operations.

  The contents of the core's buffers at each boundary between items are a fold from the launch memory: a region leaves
  its arrays at what its write-backs make of them and every other buffer as it found it; a host stretch applies its
  operations. Each region is entered from "every unscoped buffer at the boundary's contents, the generator register at
  some state, nothing owed" and left at the same with the next boundary's contents. The conclusion pins every unscoped
  buffer at the end to the last boundary's contents, from which both the frame (no item writes an argument) and the
  results' values are read. The two regions that carry an accumulator enter through their interface records.
-/
import proofs.«114752_j31224412242681_2_alg».proof.Proof.Gen.Kernel.Launch
import proofs.«114752_j31224412242681_2_alg».proof.Proof.Gen.Kernel.Skeleton
import proofs.«114752_j31224412242681_2_alg».proof.Proof.Gen.Kernel.Points
import proofs.«114752_j31224412242681_2_alg».proof.Proof.KernelHand.Iface
import proofs.«114752_j31224412242681_2_alg».proof.Proof.KernelHand.Region0
import proofs.«114752_j31224412242681_2_alg».proof.Proof.KernelHand.Region3
import proofs.«114752_j31224412242681_2_alg».proof.Proof.LibSharedPair
import proofs.«114752_j31224412242681_2_alg».proof.Proof.LibSharedJoin
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (R1 : Region1Data F) (R2 : Region2Data F)
variable (m : (ℓ : Loc nD τ sig) → Buf (Elt F) ℓ) (ρ : Dev nD → PrngReg)

/-! ## The buffer contents at each boundary: a fold through the program -/

/-- Core c's buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first product: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the weights are packed side by side (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (R1.dat (V2 m ρ) c).arrAt w cfg1.N
theorem W3_arr (c : Dev nD) (w : Fin cfg1.W) :
    W3 R1 m ρ c (Proc.devRef .tc (Pipeline.arrRef spec1 w)) = (R1.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 R1 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 R1 m ρ c b
theorem hF1 (c : Dev nD) (w : Fin cfg1.W) : (R1.dat (V2 m ρ) c).arrAt w cfg1.N = V3 R1 m ρ c (Pipeline.arrRef spec1 w) :=
  (W3_arr R1 m ρ c w).symm
theorem hrest1 (c : Dev nD) : ∀ b, b ∉ Finset.univ.image (Pipeline.arrRef spec1) → V3 R1 m ρ c b = V2 m ρ c b :=
  fun b hb => W3_of_ne R1 m ρ c b fun w e => hb (Finset.mem_image.mpr ⟨w, Finset.mem_univ _, e⟩)

/-- After the third region. -/
def W4 (c : Dev nD) : Valuation τ sig (Elt F) :=
  Pipeline.withArrays spec2 c (W3 R1 m ρ c) fun w => (R2.dat (V3 R1 m ρ) c).arrAt w cfg2.N
theorem W4_arr (c : Dev nD) (w : Fin cfg2.W) :
    W4 R1 R2 m ρ c (Proc.devRef .tc (Pipeline.arrRef spec2 w)) = (R2.dat (V3 R1 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 R1 R2 m ρ c (Proc.devRef .tc b) = W3 R1 m ρ c (Proc.devRef .tc b) := by
  unfold W4; exact Pipeline.withArrays_of_ne spec2 c _ _ b hb
abbrev V4 : (c : Dev nD) → (b : Ref sig .tc) → Buf (Elt F) ((c : Thread nD τ).loc b) := fun c b => W4 R1 R2 m ρ c b
theorem hF2 (c : Dev nD) (w : Fin cfg2.W) : (R2.dat (V3 R1 m ρ) c).arrAt w cfg2.N = V4 R1 R2 m ρ c (Pipeline.arrRef spec2 w) :=
  (W4_arr R1 R2 m ρ c w).symm
theorem hrest2 (c : Dev nD) : ∀ b, b ∉ Finset.univ.image (Pipeline.arrRef spec2) → V4 R1 R2 m ρ c b = V3 R1 m ρ c b :=
  fun b hb => W4_of_ne R1 R2 m ρ c b fun w e => hb (Finset.mem_image.mpr ⟨w, Finset.mem_univ _, e⟩)

/-- After the two column halves are sliced out (the last region's entry). -/
abbrev W5 : Dev nD → Valuation τ sig (Elt F) := fun c => StableHlo.after hostOps3 (W4 R1 R2 m ρ c)
abbrev V5 : (c : Dev nD) → (b : Ref sig .tc) → Buf (Elt F) ((c : Thread nD τ).loc b) := fun c b => W5 R1 R2 m ρ c b
/-- After the last region: its output array at what the pipeline leaves, every other buffer as entered (its two input
    windows read one array, which it leaves alone). -/
def W6 (c : Dev nD) : Valuation τ sig (Elt F) :=
  Function.update (W5 R1 R2 m ρ c) (Proc.devRef .tc main_v6) ((dat3 (V5 R1 R2 m ρ) c).arrAt 2 cfg3.N)
abbrev V6 : (c : Dev nD) → (b : Ref sig .tc) → Buf (Elt F) ((c : Thread nD τ).loc b) := fun c b => W6 R1 R2 m ρ c b

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => R1.dat (V2 m ρ) c
  | ⟨2, _⟩ => fun c => R2.dat (V3 R1 m ρ) c
  | ⟨3, _⟩ => fun c => dat3 (V5 R1 R2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator
    register at some state. -/
abbrev Tₙ (c : Dev nD) : sProp 𝕄 := iprop(StableHlo.held (c : Thread nD τ) (Pipeline.ucRefs τ sig) (W6 R1 R2 m ρ c) ∗ ∃ r, prngReg c r)

/-! ## The regions as segments -/

set_option backward.isDefEq.respectTransparency.types false in
/-- Region 0 over the thread state: entered from every unscoped buffer at W0, left at W1. Its arrays are split
    out of the unscoped buffers and put back at the exit contents; the generator register goes into the region's invariant
    and comes out; nothing owed; no semaphore of the kernel's own. -/
def reg0 : Pipeline.RegionSeg (pcfgs (F := F)) adm (pdats R1 R2 m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun c t => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats R1 R2 m ρ) launch0.win launch0.arr_whole c
      ((pdats R1 R2 m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats R1 R2 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats R1 R2 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R1 R2 m ρ) ((pdats R1 R2 m ρ 0 c).share_full fun _ => rfl)
      (V0 m ρ c) (V1 m ρ c) ((pdats R1 R2 m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3. Its arrays are split
    out of the unscoped buffers and put back at the exit contents; the generator register goes into the region's invariant
    and comes out; nothing owed; no semaphore of the kernel's own. -/
def reg1 : Pipeline.RegionSeg (pcfgs (F := F)) adm (pdats R1 R2 m ρ) () defs₀ 𝒱₀ L lv 1 where
  win := launch1.win.to₀
  block_pos := launch1.block_pos
  stage_whole := launch1.stage_whole
  K := PEmpty
  osem k := k.elim
  ho := Pipeline.OwnSemFacts.none _
  hbody c := (R1.body (V2 m ρ) c).loose
  hwaits := Pipeline.hwaits_of_owed_zero _ _ _ _ L lv 1 fun c t => R1.owed_zero _ c t
  pre c := iprop(StableHlo.held (c : Thread nD τ) (Pipeline.ucRefs τ sig) (W2 m ρ c) ∗ R c)
  post c := iprop(StableHlo.held (c : Thread nD τ) (Pipeline.ucRefs τ sig) (W3 R1 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    unfold Pipeline.Dat.owesAt Pipeline.owesWithin
    rw [show (pdats R1 R2 m ρ 1 c).owed 0 = 0 from R1.owed_zero (V2 m ρ) c 0]
    have hsplit := Pipeline.arrays_of_unscopedBufs (p := 1) (pcfgs (F := F)) adm (pdats R1 R2 m ρ) launch1.win launch1.arr_whole c
      ((pdats R1 R2 m ρ 1 c).share_full fun w => R1.q_full _ c w) (V2 m ρ c) fun w => R1.A_eq _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl ((Set.ext_iff.mp (R1.recorded_univ (V2 m ρ) c 0) _).mpr (Set.mem_univ _))
      iexact HO
    isplitl [Hp]; · iexact Hp
    iexact Hrest
  hin c := by
    refine (show _ ⊢ (Pipeline.ΦA spec1 c : sProp 𝕄) from ?_).trans (R1.hin (V2 m ρ) c)
    unfold Pipeline.ΦA
    iintro ⟨Hp, -, Hr⟩
    isplitl [Hr]; · iexact Hr
    iexact Hp
  hout c := by
    rw [Pipeline.ownSems0_none]
    refine (R1.hout (V2 m ρ) c).trans ?_
    unfold Pipeline.ΦA
    iintro ⟨Hr, Hp⟩
    isplitl [Hp]; · iexact Hp
    isplitr; · iempintro
    iexact Hr
  hexit c := by
    unfold Pipeline.Dat.owesAt Pipeline.owesWithin
    rw [show (pdats R1 R2 m ρ 1 c).owed (Fin.last _) = 0 from R1.owed_zero (V2 m ρ) c _]
    have hjoin := Pipeline.unscopedBufs_of_arrays (p := 1) (pcfgs (F := F)) adm (Ix := Unit) (Name := ℕ) (U := UR sig nD τ) (Lvl := ℕ)
      launch1.win launch1.arr_whole c (pdats R1 R2 m ρ) ((pdats R1 R2 m ρ 1 c).share_full fun w => R1.q_full _ c w)
      (V2 m ρ c) (V3 R1 m ρ c) ((pdats R1 R2 m ρ 1 c).arrAt · cfg1.N) (hF1 R1 m ρ c) (hrest1 R1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

set_option backward.isDefEq.respectTransparency.types false in
/-- Region 2 over the thread state: entered from every unscoped buffer at W3, left at W4. Its arrays are split
    out of the unscoped buffers and put back at the exit contents; the generator register goes into the region's invariant
    and comes out; nothing owed; no semaphore of the kernel's own. -/
def reg2 : Pipeline.RegionSeg (pcfgs (F := F)) adm (pdats R1 R2 m ρ) () defs₀ 𝒱₀ L lv 2 where
  win := launch2.win.to₀
  block_pos := launch2.block_pos
  stage_whole := launch2.stage_whole
  K := PEmpty
  osem k := k.elim
  ho := Pipeline.OwnSemFacts.none _
  hbody c := (R2.body (V3 R1 m ρ) c).loose
  hwaits := Pipeline.hwaits_of_owed_zero _ _ _ _ L lv 2 fun c t => R2.owed_zero _ c t
  pre c := iprop(StableHlo.held (c : Thread nD τ) (Pipeline.ucRefs τ sig) (W3 R1 m ρ c) ∗ R c)
  post c := iprop(StableHlo.held (c : Thread nD τ) (Pipeline.ucRefs τ sig) (W4 R1 R2 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 R1 m ρ c)
  hentry c := by
    rw [Pipeline.ownSems0_none]
    unfold Pipeline.Dat.owesAt Pipeline.owesWithin
    rw [show (pdats R1 R2 m ρ 2 c).owed 0 = 0 from R2.owed_zero (V3 R1 m ρ) c 0]
    have hsplit := Pipeline.arrays_of_unscopedBufs (p := 2) (pcfgs (F := F)) adm (pdats R1 R2 m ρ) launch2.win launch2.arr_whole c
      ((pdats R1 R2 m ρ 2 c).share_full fun w => R2.q_full _ c w) (V3 R1 m ρ c) fun w => R2.A_eq _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl ((Set.ext_iff.mp (R2.recorded_univ (V3 R1 m ρ) c 0) _).mpr (Set.mem_univ _))
      iexact HO
    isplitl [Hp]; · iexact Hp
    iexact Hrest
  hin c := by
    refine (show _ ⊢ (Pipeline.ΦA spec2 c : sProp 𝕄) from ?_).trans (R2.hin (V3 R1 m ρ) c)
    unfold Pipeline.ΦA
    iintro ⟨Hp, -, Hr⟩
    isplitl [Hr]; · iexact Hr
    iexact Hp
  hout c := by
    rw [Pipeline.ownSems0_none]
    refine (R2.hout (V3 R1 m ρ) c).trans ?_
    unfold Pipeline.ΦA
    iintro ⟨Hr, Hp⟩
    isplitl [Hp]; · iexact Hp
    isplitr; · iempintro
    iexact Hr
  hexit c := by
    unfold Pipeline.Dat.owesAt Pipeline.owesWithin
    rw [show (pdats R1 R2 m ρ 2 c).owed (Fin.last _) = 0 from R2.owed_zero (V3 R1 m ρ) c _]
    have hjoin := Pipeline.unscopedBufs_of_arrays (p := 2) (pcfgs (F := F)) adm (Ix := Unit) (Name := ℕ) (U := UR sig nD τ) (Lvl := ℕ)
      launch2.win launch2.arr_whole c (pdats R1 R2 m ρ) ((pdats R1 R2 m ρ 2 c).share_full fun w => R2.q_full _ c w)
      (V3 R1 m ρ c) (V4 R1 R2 m ρ c) ((pdats R1 R2 m ρ 2 c).arrAt · cfg2.N) (hF2 R1 R2 m ρ c) (hrest2 R1 R2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

/-! ## The last region: one array behind two windows -/

theorem W6_v6 (c : Dev nD) : W6 R1 R2 m ρ c (Proc.devRef .tc main_v6) = (dat3 (V5 R1 R2 m ρ) c).arrAt 2 cfg3.N := by
  unfold W6; exact Function.update_self _ _ _
theorem W6_of_ne (c : Dev nD) (b : Ref sig .tc) (hb : b ≠ main_v6) :
    W6 R1 R2 m ρ c (Proc.devRef .tc b) = W5 R1 R2 m ρ c (Proc.devRef .tc b) := by
  unfold W6; exact Function.update_of_ne (StableHlo.devRef_ne_of_ne hb) _ _

/-- At the last region's exit each window's array holds what the pipeline leaves: the two input windows' shared array
    what it held at entry, the output's array its write-backs folded. -/
theorem hF3 (c : Dev nD) (w : Fin cfg3.W) : (dat3 (V5 R1 R2 m ρ) c).arrAt w cfg3.N = V6 R1 R2 m ρ c (Pipeline.arrRef spec3 w) := by
  match w with
  | ⟨0, _⟩ => exact (((dat3 (V5 R1 R2 m ρ) c).arrAt_in 0 rfl _).trans (A_eq3 (V5 R1 R2 m ρ) c 0)).trans (W6_of_ne R1 R2 m ρ c _ (by decide)).symm
  | ⟨1, _⟩ => exact (((dat3 (V5 R1 R2 m ρ) c).arrAt_in 1 rfl _).trans (A_eq3 (V5 R1 R2 m ρ) c 1)).trans (W6_of_ne R1 R2 m ρ c _ (by decide)).symm
  | ⟨2, _⟩ => exact (W6_v6 R1 R2 m ρ c).symm
theorem hrest3 (c : Dev nD) : ∀ b, b ∉ Finset.univ.image (Pipeline.arrRef spec3) → V6 R1 R2 m ρ c b = V5 R1 R2 m ρ c b :=
  fun b hb => W6_of_ne R1 R2 m ρ c b fun e => hb (Finset.mem_image.mpr ⟨2, Finset.mem_univ _, e.symm⟩)

set_option backward.isDefEq.respectTransparency.types false in
/-- The last region over the thread state: entered from every unscoped buffer at W5, left at W6. The shared input array's
    buffer is dealt half to each of its two windows at the entry and joined again at the exit; the output's buffer goes to
    its window whole. -/
def reg3 : Pipeline.RegionSeg (pcfgs (F := F)) adm (pdats R1 R2 m ρ) () defs₀ 𝒱₀ L lv 3 where
  win := winFacts₀3
  block_pos := block_pos3
  stage_whole := stage_whole3
  K := PEmpty
  osem k := k.elim
  ho := Pipeline.OwnSemFacts.none _
  hbody c := (body_obligation3 (V5 R1 R2 m ρ) c).loose
  hwaits := Pipeline.hwaits_of_owed_zero _ _ _ _ L lv 3 fun _ _ => rfl
  pre c := iprop(StableHlo.held (c : Thread nD τ) (Pipeline.ucRefs τ sig) (W5 R1 R2 m ρ c) ∗ R c)
  post c := iprop(Tₙ R1 R2 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 R1 R2 m ρ c)
  hentry c := by
    rw [Pipeline.ownSems0_none]
    have hsp := Pipeline.unscopedBufs_split₀ (Ix := Unit) (Name := ℕ) (U := UR sig nD τ) (Lvl := ℕ) (Pipeline.pin (pcfgs (F := F)) adm) 3 winFacts₀3.arr_unscoped c (V5 R1 R2 m ρ c)
    rw [Pipeline.unscopedBufs_held] at hsp
    have hdeal := Pipeline.arrays_split_pair (Pipeline.pin (pcfgs (F := F)) adm) (pdats R1 R2 m ρ) 3 c arr_whole3 0 1 2
      (by decide : (Finset.univ : Finset (Fin 3)) = [0, 1, 2].toFinset) (by decide : ([0, 1, 2] : List (Fin 3)).Nodup)
      (by decide : Pipeline.arrRef spec3 1 = Pipeline.arrRef spec3 0) (by decide : [Pipeline.arrRef spec3 0, Pipeline.arrRef spec3 2].Nodup)
      fullShare.left fullShare.right (Idealize.SL.RA.PosShare.mem_left_op_right fullShare) rfl rfl rfl
      (V5 R1 R2 m ρ c) ((pdats R1 R2 m ρ 3 c).arrAt · 0) (fun w => A_eq3 (V5 R1 R2 m ρ) c w)
    rw [hsp]
    iintro ⟨⟨⟨Hab, Hrest⟩, Hp, HO⟩, -, -⟩
    ihave Ha := hdeal $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats R1 R2 m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats R1 R2 m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Pipeline.pin (pcfgs (F := F)) adm) 3 winFacts₀3.arr_unscoped c (V6 R1 R2 m ρ c)
    rw [Pipeline.unscopedBufs_held] at hsp
    have hjoin := Pipeline.arrays_join_pair (Pipeline.pin (pcfgs (F := F)) adm) (pdats R1 R2 m ρ) 3 c arr_whole3 0 1 2
      (by decide : (Finset.univ : Finset (Fin 3)) = [0, 1, 2].toFinset) (by decide : ([0, 1, 2] : List (Fin 3)).Nodup)
      (by decide : Pipeline.arrRef spec3 1 = Pipeline.arrRef spec3 0) (by decide : [Pipeline.arrRef spec3 0, Pipeline.arrRef spec3 2].Nodup)
      fullShare.left fullShare.right (Idealize.SL.RA.PosShare.mem_left_op_right fullShare) rfl rfl rfl
      (V6 R1 R2 m ρ c) ((pdats R1 R2 m ρ 3 c).arrAt · cfg3.N) (hF3 R1 R2 m ρ c)
    have hrest : (Pipeline.unscopedRest (Ix := Unit) (Name := ℕ) (U := UR sig nD τ) (Lvl := ℕ) (Pipeline.pin (pcfgs (F := F)) adm 3).spec c (V6 R1 R2 m ρ c) : sProp 𝕄)
        = Pipeline.unscopedRest spec3 c (V5 R1 R2 m ρ c) := by
      unfold Pipeline.unscopedRest
      exact bigSep_congr fun b hb => by rw [hrest3 R1 R2 m ρ c b (Finset.mem_sdiff.mp hb).2]
    unfold Tₙ
    rw [hsp, hrest]
    iintro ⟨Ha, HO, HY, Hrest⟩
    imodintro
    isplitl [Ha Hrest HY]
    · isplitl [Ha Hrest]
      · isplitl [Ha]
        · iapply hjoin; iexact Ha
        iexact Hrest
      iexact HY
    unfold Pipeline.Dat.owesAt Pipeline.owesWithin
    icases HO with ⟨%W, -, HO⟩; iexists W; iexact HO

/-! ## The program as segments, and the launch -/

theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-- The program's six items in order. -/
abbrev segs : List (Pipeline.Seg (pcfgs (F := F)) adm (pdats R1 R2 m ρ) () defs₀ 𝒱₀ L lv) :=
  [ .region (reg0 R1 R2 m ρ),
    .host (hseg hostOps1 hostOps1_sub hostOps1_fresh (W1 m ρ)),
    .region (reg1 R1 R2 m ρ),
    .region (reg2 R1 R2 m ρ),
    .host (hseg hostOps3 hostOps3_sub hostOps3_fresh (W4 R1 R2 m ρ)),
    .region (reg3 R1 R2 m ρ) ]
theorem main_run (c : Dev nD) : main (F := F) c = Pipeline.Seg.run (segs R1 R2 m ρ) := (main_chain c).trans (by chain_rfl)

set_option backward.isDefEq.respectTransparency.types false in
/-- THE RUN: from any memory with zero counters every weakly fair execution of the program terminates, nothing faulting,
    and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 R1 R2 m ρ c b) :=
  Pipeline.θ_run_regions_kit (pcfgs (F := F)) adm (pdats R1 R2 m ρ) () cellOf_inj emb₁ defs₀ 𝒱₀ L lv m ρ main (segs R1 R2 m ρ)
    (fun c Q => by rw [main_run R1 R2 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ R1 R2 m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 R1 R2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 R1 R2 m ρ c) s')
      isplitl [Hh] <;> iassumption)
    (hQ := fun s h c => h c)

end Cert.Kernel.Hand

end
-- ==== Proof.KernelHand.Reads.lean ====
/-
  Reading the last boundary's contents back through the program.

  No item writes an argument: a region reads it through an input window or passes it by, and neither host stretch names
  it as a result; so at the end every argument holds its launch contents. The results unwind the other way: the Gram
  matrix is what the last region leaves of the low column half; the two column halves are slices of what the third
  region leaves; that region was entered with the adjacency matrix as launched and with what the second region left;
  the second with the first product and the two weight matrices side by side. Stated at any float instance.
-/
import proofs.«114752_j31224412242681_2_alg».proof.Proof.Gen.Kernel.Launch
import proofs.«114752_j31224412242681_2_alg».proof.Proof.Gen.Kernel.Skeleton
import proofs.«114752_j31224412242681_2_alg».proof.Proof.Gen.Kernel.Points
import proofs.«114752_j31224412242681_2_alg».proof.Proof.KernelHand.Run
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (R1 : Region1Data F) (R2 : Region2Data F)
variable (m : (ℓ : Loc nD τ sig) → Buf (Elt F) ℓ) (ρ : Dev nD → PrngReg)

/-! ## What the host stretches leave alone -/

theorem W2_keep (c : Dev nD) (b : Ref sig .tc) (hb : b ≠ main_v1) : W2 m ρ c (Proc.devRef .tc b) = W1 m ρ c (Proc.devRef .tc b) :=
  StableHlo.after_of_forall_not_mem (b := Proc.devRef .tc b) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne hb))
theorem W5_keep (c : Dev nD) (b : Ref sig .tc) (hb4 : b ≠ main_v4) (hb5 : b ≠ main_v5) :
    W5 R1 R2 m ρ c (Proc.devRef .tc b) = W4 R1 R2 m ρ c (Proc.devRef .tc b) :=
  StableHlo.after_of_forall_not_mem (b := Proc.devRef .tc b) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      exact ⟨StableHlo.devRef_ne_of_ne hb4, StableHlo.devRef_ne_of_ne hb5⟩))

/-! ## The arguments end as launched -/

theorem W6_main_arg0 (c : Dev nD) : W6 R1 R2 m ρ c (Proc.devRef .tc main_arg0) = m ((c : Thread nD τ).loc main_arg0) :=
  calc W6 R1 R2 m ρ c (Proc.devRef .tc main_arg0)
    _ = W5 R1 R2 m ρ c (Proc.devRef .tc main_arg0) := W6_of_ne R1 R2 m ρ c main_arg0 (by decide)
    _ = W4 R1 R2 m ρ c (Proc.devRef .tc main_arg0) := W5_keep R1 R2 m ρ c main_arg0 (by decide) (by decide)
    _ = W3 R1 m ρ c (Proc.devRef .tc main_arg0) := W4_of_ne R1 R2 m ρ c main_arg0 (by decide)
    _ = W2 m ρ c (Proc.devRef .tc main_arg0) := W3_of_ne R1 m ρ c main_arg0 (by decide)
    _ = W1 m ρ c (Proc.devRef .tc main_arg0) := W2_keep m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_keep m ρ c main_arg1 (by decide)
    _ = W0 m ρ c (Proc.devRef .tc main_arg1) := W1_of_ne m ρ c main_arg1 (by decide)
    _ = m ((c : Thread nD τ).loc main_arg1) := rfl
theorem W3_main_arg1 (c : Dev nD) : W3 R1 m ρ c (Proc.devRef .tc main_arg1) = m ((c : Thread nD τ).loc main_arg1) :=
  ((W3_arr R1 m ρ c 0).trans (((R1.dat (V2 m ρ) c).arrAt_in 0 rfl _).trans (R1.A_eq (V2 m ρ) c 0))).trans (W2_main_arg1 m ρ c)
theorem W4_main_arg1 (c : Dev nD) : W4 R1 R2 m ρ c (Proc.devRef .tc main_arg1) = m ((c : Thread nD τ).loc main_arg1) :=
  ((W4_arr R1 R2 m ρ c 0).trans (((R2.dat (V3 R1 m ρ) c).arrAt_in 0 rfl _).trans (R2.A_eq (V3 R1 m ρ) c 0))).trans (W3_main_arg1 R1 m ρ c)
theorem W6_main_arg1 (c : Dev nD) : W6 R1 R2 m ρ c (Proc.devRef .tc main_arg1) = m ((c : Thread nD τ).loc main_arg1) :=
  calc W6 R1 R2 m ρ c (Proc.devRef .tc main_arg1)
    _ = W5 R1 R2 m ρ c (Proc.devRef .tc main_arg1) := W6_of_ne R1 R2 m ρ c main_arg1 (by decide)
    _ = W4 R1 R2 m ρ c (Proc.devRef .tc main_arg1) := W5_keep R1 R2 m ρ c main_arg1 (by decide) (by decide)
    _ = m ((c : Thread nD τ).loc main_arg1) := W4_main_arg1 R1 R2 m ρ c
theorem W6_main_arg2 (c : Dev nD) : W6 R1 R2 m ρ c (Proc.devRef .tc main_arg2) = m ((c : Thread nD τ).loc main_arg2) :=
  calc W6 R1 R2 m ρ c (Proc.devRef .tc main_arg2)
    _ = W5 R1 R2 m ρ c (Proc.devRef .tc main_arg2) := W6_of_ne R1 R2 m ρ c main_arg2 (by decide)
    _ = W4 R1 R2 m ρ c (Proc.devRef .tc main_arg2) := W5_keep R1 R2 m ρ c main_arg2 (by decide) (by decide)
    _ = W3 R1 m ρ c (Proc.devRef .tc main_arg2) := W4_of_ne R1 R2 m ρ c main_arg2 (by decide)
    _ = W2 m ρ c (Proc.devRef .tc main_arg2) := W3_of_ne R1 m ρ c main_arg2 (by decide)
    _ = W1 m ρ c (Proc.devRef .tc main_arg2) := W2_keep m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W1_main_arg3 (c : Dev nD) : W1 m ρ c (Proc.devRef .tc main_arg3) = m ((c : Thread nD τ).loc main_arg3) :=
  (W1_of_ne m ρ c main_arg3 (by decide)).trans rfl
theorem W1_main_arg4 (c : Dev nD) : W1 m ρ c (Proc.devRef .tc main_arg4) = m ((c : Thread nD τ).loc main_arg4) :=
  (W1_of_ne m ρ c main_arg4 (by decide)).trans rfl
theorem W6_main_arg3 (c : Dev nD) : W6 R1 R2 m ρ c (Proc.devRef .tc main_arg3) = m ((c : Thread nD τ).loc main_arg3) :=
  calc W6 R1 R2 m ρ c (Proc.devRef .tc main_arg3)
    _ = W5 R1 R2 m ρ c (Proc.devRef .tc main_arg3) := W6_of_ne R1 R2 m ρ c main_arg3 (by decide)
    _ = W4 R1 R2 m ρ c (Proc.devRef .tc main_arg3) := W5_keep R1 R2 m ρ c main_arg3 (by decide) (by decide)
    _ = W3 R1 m ρ c (Proc.devRef .tc main_arg3) := W4_of_ne R1 R2 m ρ c main_arg3 (by decide)
    _ = W2 m ρ c (Proc.devRef .tc main_arg3) := W3_of_ne R1 m ρ c main_arg3 (by decide)
    _ = W1 m ρ c (Proc.devRef .tc main_arg3) := W2_keep m ρ c main_arg3 (by decide)
    _ = m ((c : Thread nD τ).loc main_arg3) := W1_main_arg3 m ρ c
theorem W6_main_arg4 (c : Dev nD) : W6 R1 R2 m ρ c (Proc.devRef .tc main_arg4) = m ((c : Thread nD τ).loc main_arg4) :=
  calc W6 R1 R2 m ρ c (Proc.devRef .tc main_arg4)
    _ = W5 R1 R2 m ρ c (Proc.devRef .tc main_arg4) := W6_of_ne R1 R2 m ρ c main_arg4 (by decide)
    _ = W4 R1 R2 m ρ c (Proc.devRef .tc main_arg4) := W5_keep R1 R2 m ρ c main_arg4 (by decide) (by decide)
    _ = W3 R1 m ρ c (Proc.devRef .tc main_arg4) := W4_of_ne R1 R2 m ρ c main_arg4 (by decide)
    _ = W2 m ρ c (Proc.devRef .tc main_arg4) := W3_of_ne R1 m ρ c main_arg4 (by decide)
    _ = W1 m ρ c (Proc.devRef .tc main_arg4) := W2_keep m ρ c main_arg4 (by decide)
    _ = m ((c : Thread nD τ).loc main_arg4) := W1_main_arg4 m ρ c

/-! ## The frame -/

include R1 R2 in
/-- Every weakly fair execution terminates, nothing faulting, and every argument ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W6_main_arg0 R1 R2 m ρ c),
     (h c _ (mem_uc main_arg1 (by decide))).trans (W6_main_arg1 R1 R2 m ρ c),
     (h c _ (mem_uc main_arg2 (by decide))).trans (W6_main_arg2 R1 R2 m ρ c),
     (h c _ (mem_uc main_arg3 (by decide))).trans (W6_main_arg3 R1 R2 m ρ c),
     (h c _ (mem_uc main_arg4 (by decide))).trans (W6_main_arg4 R1 R2 m ρ c)⟩) (run_all R1 R2 m ρ)

/-! ## The results and the intermediate arrays, unwound -/

/-- The first product's array after the first region, still there when the second region is entered. -/
theorem W2_main_v0 (c : Dev nD) : W2 m ρ c (Proc.devRef .tc main_v0) = (dat0 (V0 m ρ) c).arrAt 2 cfg0.N :=
  (W2_keep m ρ c main_v0 (by decide)).trans (W1_arr m ρ c 2)
/-- The packed weights: the two weight matrices as launched, side by side. -/
theorem W2_main_v1 (c : Dev nD) : W2 m ρ c (Proc.devRef .tc main_v1)
    = concatenate S256x128 1 [⟨S256x64, m ((c : Thread nD τ).loc main_arg3)⟩, ⟨S256x64, m ((c : Thread nD τ).loc main_arg4)⟩] concatenates_S256x64_S256x64_S256x128_d1 := by
  rw [← W1_main_arg3 m ρ c, ← W1_main_arg4 m ρ c]
  show StableHlo.after hostOps1 _ (Proc.devRef .tc main_v1) = _
  after_results
/-- What the second region leaves in its output array, seen at the third region's entry. -/
theorem W3_main_v2 (c : Dev nD) : W3 R1 m ρ c (Proc.devRef .tc main_v2) = (R1.dat (V2 m ρ) c).arrAt 3 cfg1.N :=
  W3_arr R1 m ρ c 3
/-- What the third region leaves in its output array. -/
theorem W4_main_v3 (c : Dev nD) : W4 R1 R2 m ρ c (Proc.devRef .tc main_v3) = (R2.dat (V3 R1 m ρ) c).arrAt 2 cfg2.N :=
  W4_arr R1 R2 m ρ c 2
/-- The low column half, as the last region finds it and as the program returns it. -/
theorem W5_main_v4 (c : Dev nD) : W5 R1 R2 m ρ c (Proc.devRef .tc main_v4)
    = extractStridedSlice S8192x64 ![0, 0] ((R2.dat (V3 R1 m ρ) c).arrAt 2 cfg2.N) slices_S8192x128_S8192x64_0_0 := by
  rw [← W4_main_v3 R1 R2 m ρ c]
  show StableHlo.after hostOps3 _ (Proc.devRef .tc main_v4) = _
  after_results
/-- The high column half. -/
theorem W5_main_v5 (c : Dev nD) : W5 R1 R2 m ρ c (Proc.devRef .tc main_v5)
    = extractStridedSlice S8192x64 ![0, 64] ((R2.dat (V3 R1 m ρ) c).arrAt 2 cfg2.N) slices_S8192x128_S8192x64_0_64 := by
  rw [← W4_main_v3 R1 R2 m ρ c]
  show StableHlo.after hostOps3 _ (Proc.devRef .tc main_v5) = _
  after_results
theorem W6_main_v4 (c : Dev nD) : W6 R1 R2 m ρ c (Proc.devRef .tc main_v4) = W5 R1 R2 m ρ c (Proc.devRef .tc main_v4) :=
  W6_of_ne R1 R2 m ρ c main_v4 (by decide)
theorem W6_main_v5 (c : Dev nD) : W6 R1 R2 m ρ c (Proc.devRef .tc main_v5) = W5 R1 R2 m ρ c (Proc.devRef .tc main_v5) :=
  W6_of_ne R1 R2 m ρ c main_v5 (by decide)

end Cert.Kernel.Hand

end
-- ==== Proof.KernelHand.Region1.Runs.lean ====
/- Region 1 of @main (the second pallas_call: the accumulated product, then the rectified product with the
   concatenated weights): what the three control cases of its body share. The blocks of the windows read off
   the entry contents, the two branch conditions in closed form over the grid, where the output window is idle,
   the staging and scratch memrefs, and the region invariant split at the carried scratch. -/
import proofs.«114752_j31224412242681_2_alg».proof.Proof.Gen.Kernel.Launch
import proofs.«114752_j31224412242681_2_alg».proof.Proof.Gen.Kernel.Skeleton
import proofs.«114752_j31224412242681_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional: the reduction coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional: the reduction coordinate is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S2048x128 .bf16 := (Memref.whole cc1_stg3_0 : Memref sig .tc .vmem S2048x128 .bf16).view
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .bf16 := win1_3.stage (cfg1.slots t 3)
abbrev hs1_3 (t : Fin cfg1.N) : (ms1_3 t).IsWhole := hstage1_3 ((cfg1.slots t 3).cast nbuf1_3)
/-- The scratch operand: a whole scoped buffer of the kernel's own, carried between points. -/
abbrev scM1_0 : Memref sig .tc .vmem S2048x256 .f32 := Memref.whole cc1_scratch0
abbrev VS1_0 : View sig .tc .vmem S2048x256 .f32 := scM1_0.view

/-- The core's scoped buffers that are neither a staging buffer of this call nor its scratch, at some contents each:
    carried along unopened. -/
abbrev rest1 (c : Dev nD) : sProp 𝕄 :=
  Pipeline.scopedRestBut (Ix := Unit) (Name := ℕ) (U := UR sig nD τ) (Lvl := ℕ) (Val := Elt F) spec1 c [cc1_scratch0]

/-- The region invariant split at the call's own scratch. -/
theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA
  rw [Pipeline.scopedRest_split_of_list spec1 c [cc1_scratch0] (by decide) (by decide)]
  simp only [scM1_0, owns_whole, bigSepL_singleton]; try rfl

end Cert.Kernel.Hand

end
-- ==== Proof.KernelHand.Region1.RunA.lean ====
/- Region 1's body run whole in case A: the first reduction step of a row block (the scratch zeroed, then the first partial product added). The pieces each buffer ends with are the witness the run finds. -/
import proofs.«114752_j31224412242681_2_alg».proof.Proof.KernelHand.Region1.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body in case A, on whole memrefs: the inputs at their contents, the output block (idle here) at contents handed back untouched,
    the scratch at anything; it runs to the continuation holding the inputs as they were, the output block as it was and
    the scratch with its pieces written. -/
noncomputable def kernelRun1_A (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : cond1_0 i) (hc1 : ¬cond1_1 i)
    (x0 : Vec F S2048x1024 .f32) (x1 : Vec F S8192x256 .bf16) (x2 : Vec F S256x128 .f32) :
    Σ' (L3 : List (View.Piece (Elt F) S2048x128 .bf16)), { LS0 : List (View.Piece (Elt F) S2048x256 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__hidden_support2_kernel i arg2 harg2 arg3 harg3 arg4 harg4 arg5 harg5 arg6 harg6) K } := by
  refine ⟨[], ?_, fun xi3 E K => ?run⟩
  case run =>
    simp only [cc1__hidden_support2_kernel_eq_skeleton]; unfold cc1__hidden_support2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KernelHand.Region1.RunB.lean ====
/- Region 1's body run whole in case B: a middle reduction step (one more partial product added to the scratch). The pieces each buffer ends with are the witness the run finds. -/
import proofs.«114752_j31224412242681_2_alg».proof.Proof.KernelHand.Region1.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body in case B, on whole memrefs: the inputs at their contents, the output block (idle here) at contents handed back untouched,
    the scratch at what the point before left; it runs to the continuation holding the inputs as they were, the output block as it was and
    the scratch with its pieces written. -/
noncomputable def kernelRun1_B (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : ¬cond1_0 i) (hc1 : ¬cond1_1 i)
    (x0 : Vec F S2048x1024 .f32) (x1 : Vec F S8192x256 .bf16) (x2 : Vec F S256x128 .f32) (xs0 : Vec F S2048x256 .f32) :
    Σ' (L3 : List (View.Piece (Elt F) S2048x128 .bf16)), { LS0 : List (View.Piece (Elt F) S2048x256 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__hidden_support2_kernel i arg2 harg2 arg3 harg3 arg4 harg4 arg5 harg5 arg6 harg6) K } := by
  refine ⟨[], ?_, fun xi3 E K => ?run⟩
  case run =>
    simp only [cc1__hidden_support2_kernel_eq_skeleton]; unfold cc1__hidden_support2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KernelHand.Region1.RunC.lean ====
/- Region 1's body run whole in case C: the last reduction step (the last partial product added, then the rectified sum times the weights stored into the output block). The pieces each buffer ends with are the witness the run finds. -/
import proofs.«114752_j31224412242681_2_alg».proof.Proof.KernelHand.Region1.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body in case C, on whole memrefs: the inputs at their contents, the output block at anything,
    the scratch at what the point before left; it runs to the continuation holding the inputs as they were, the output block with its pieces written and
    the scratch with its pieces written. -/
noncomputable def kernelRun1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : ¬cond1_0 i) (hc1 : cond1_1 i)
    (x0 : Vec F S2048x1024 .f32) (x1 : Vec F S8192x256 .bf16) (x2 : Vec F S256x128 .f32) (xs0 : Vec F S2048x256 .f32) :
    Σ' (L3 : List (View.Piece (Elt F) S2048x128 .bf16)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__hidden_support2_kernel i arg2 harg2 arg3 harg3 arg4 harg4 arg5 harg5 arg6 harg6) K } := by
  refine ⟨?_, ?_, fun E K => ?run⟩
  case run =>
    simp only [cc1__hidden_support2_kernel_eq_skeleton]; unfold cc1__hidden_support2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KernelHand.Region1.lean ====
/- Region 1 of @main, its record for the assembled run: what the output block and the carried scratch hold after
   each grid point (case by case, then point by point), the proof data at a parameter `V` (the TensorCore's buffer
   contents when the region is entered), the invariant carrying the scratch from point to point, and the body
   obligation at every point. -/
import proofs.«114752_j31224412242681_2_alg».proof.Proof.KernelHand.Region1.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What case A leaves in the output's staging buffer: its pieces read back (none: a placeholder nothing consults, the window idle there). -/
def out1_A_3 (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : cond1_0 i) (hc1 : ¬cond1_1 i)
    (x0 : Vec F S2048x1024 .f32) (x1 : Vec F S8192x256 .bf16) (x2 : Vec F S256x128 .f32) : Vec F S2048x128 .bf16 :=
  VO1_3.read (Elt F) (VO1_3.writes (Elt F) VO1_3.junk (kernelRun1_A c i arg2 harg2 arg3 harg3 arg4 harg4 arg5 harg5 arg6 harg6 hc0 hc1 x0 x1 x2).1)

/-- Case A's pieces for the scratch cover it. -/
theorem scover1_A_0 (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : cond1_0 i) (hc1 : ¬cond1_1 i)
    (x0 : Vec F S2048x1024 .f32) (x1 : Vec F S8192x256 .bf16) (x2 : Vec F S256x128 .f32) (y : S2048x256.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x256.size (by sl_kernel_rfl) y

/-- What case A leaves in the scratch: its pieces read back. -/
def sout1_A_0 (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : cond1_0 i) (hc1 : ¬cond1_1 i)
    (x0 : Vec F S2048x1024 .f32) (x1 : Vec F S8192x256 .bf16) (x2 : Vec F S256x128 .f32) : Vec F S2048x256 .f32 :=
  VS1_0.read (Elt F) (VS1_0.writes (Elt F) VS1_0.junk (kernelRun1_A c i arg2 harg2 arg3 harg3 arg4 harg4 arg5 harg5 arg6 harg6 hc0 hc1 x0 x1 x2).2.1)

/-- What case B leaves in the output's staging buffer: its pieces read back (none: a placeholder nothing consults, the window idle there). -/
def out1_B_3 (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : ¬cond1_0 i) (hc1 : ¬cond1_1 i)
    (x0 : Vec F S2048x1024 .f32) (x1 : Vec F S8192x256 .bf16) (x2 : Vec F S256x128 .f32) (xs0 : Vec F S2048x256 .f32) : Vec F S2048x128 .bf16 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for the scratch cover it. -/
theorem scover1_B_0 (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : ¬cond1_0 i) (hc1 : ¬cond1_1 i)
    (x0 : Vec F S2048x1024 .f32) (x1 : Vec F S8192x256 .bf16) (x2 : Vec F S256x128 .f32) (xs0 : Vec F S2048x256 .f32) (y : S2048x256.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2048x256.size (by sl_kernel_rfl) y

/-- What case B leaves in the scratch: its pieces read back. -/
def sout1_B_0 (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : ¬cond1_0 i) (hc1 : ¬cond1_1 i)
    (x0 : Vec F S2048x1024 .f32) (x1 : Vec F S8192x256 .bf16) (x2 : Vec F S256x128 .f32) (xs0 : Vec F S2048x256 .f32) : Vec F S2048x256 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's pieces for the output block cover it. -/
theorem cover1_C_3 (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : ¬cond1_0 i) (hc1 : cond1_1 i)
    (x0 : Vec F S2048x1024 .f32) (x1 : Vec F S8192x256 .bf16) (x2 : Vec F S256x128 .f32) (xs0 : Vec F S2048x256 .f32) (y : S2048x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x128.size (by sl_kernel_rfl) y

/-- What case C leaves in the output's staging buffer: its pieces read back. -/
def out1_C_3 (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : ¬cond1_0 i) (hc1 : cond1_1 i)
    (x0 : Vec F S2048x1024 .f32) (x1 : Vec F S8192x256 .bf16) (x2 : Vec F S256x128 .f32) (xs0 : Vec F S2048x256 .f32) : Vec F S2048x128 .bf16 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for the scratch cover it. -/
theorem scover1_C_0 (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : ¬cond1_0 i) (hc1 : cond1_1 i)
    (x0 : Vec F S2048x1024 .f32) (x1 : Vec F S8192x256 .bf16) (x2 : Vec F S256x128 .f32) (xs0 : Vec F S2048x256 .f32) (y : S2048x256.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x256.size (by sl_kernel_rfl) y

/-- What case C leaves in the scratch: its pieces read back. -/
def sout1_C_0 (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : ¬cond1_0 i) (hc1 : cond1_1 i)
    (x0 : Vec F S2048x1024 .f32) (x1 : Vec F S8192x256 .bf16) (x2 : Vec F S256x128 .f32) (xs0 : Vec F S2048x256 .f32) : Vec F S2048x256 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output block and the scratch hold after each point -/

/-- After the body at position `n`: the output's staging buffer and the carried scratch (a pair), by the case the
    closed forms select at `n`, run at the point's memrefs and input blocks, the scratch at what `n - 1` left. -/
def outsAt1 (c : Dev nD) : (n : ℕ) → n < cfg1.N → Vec F S2048x128 .bf16 × Vec F S2048x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carrying the scratch -/

/-- Before position `n`: before the first point the class's invariant (every scoped buffer that is no staging buffer
    at anything); afterwards the carried scratch at what the point before left in it, the other scoped buffers at
    anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

/-! ## The proof data -/

/-- The proof data of pipeline 1 on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at a point of case A. -/
theorem sound_body1_A (c : Dev nD) (t : Fin cfg1.N) (h0 : t.val % 8 = 0) (h1 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
  rw [outsAt1_A V c t h0 h1]
  unfold sout1_A_0; (try dsimp only)
  by_cases hz : t.val = 0
  · rw [PhiS1_castSucc V c t, PhiS1_zero V c _ _ hz, PhiA1_eq]
    iintro ⟨⟨⟨HS0, Hr⟩, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover1_A_0 c _ _ _ _ _ _ _ _ _ _ _ _ _ _ _ _)
        iexact Hr
      iexact Hg
    isplitl [Ho]; · iexact Ho
    isplitl [H0]; · iexact H0
    isplitl [H1]; · iexact H1
    isplitl [H2]; · iexact H2
    iexists _; iexact H3
  · rw [PhiS1_castSucc V c t, PhiS1_pos V c _ _ hz]
    iintro ⟨⟨⟨HS0, Hr⟩, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS0]; · iexists _; iexact HS0
    iintro ⟨H0, H1, H2, H3, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover1_A_0 c _ _ _ _ _ _ _ _ _ _ _ _ _ _ _ _)
        iexact Hr
      iexact Hg
    isplitl [Ho]; · iexact Ho
    isplitl [H0]; · iexact H0
    isplitl [H1]; · iexact H1
    isplitl [H2]; · iexact H2
    iexists _; iexact H3

set_option maxHeartbeats 4800000 in
/-- The body at a point of case B. -/
theorem sound_body1_B (c : Dev nD) (t : Fin cfg1.N) (h0 : ¬t.val % 8 = 0) (h1 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
  rw [outsAt1_B V c t h0 h1]
  unfold sout1_B_0; (try dsimp only)
  have hz : t.val ≠ 0 := fun hz => h0 (by rw [hz])
  rw [PhiS1_castSucc V c t, PhiS1_pos V c _ _ hz]
  iintro ⟨⟨⟨HS0, Hr⟩, Hg⟩, Ho, ⟨%d0, H0⟩, ⟨%d1, H1⟩, ⟨%d2, H2⟩, ⟨%d3, H3⟩⟩
  iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
  isplitl [H0]; · iexact H0
  isplitl [H1]; · iexact H1
  isplitl [H2]; · iexact H2
  isplitl [H3]; · iexact H3
  isplitl [HS0]; · iexact HS0
  iintro ⟨H0, H1, H2, H3, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover1_B_0 c _ _ _ _ _ _ _ _ _ _ _ _ _ _ _ _ _)
      iexact Hr
    iexact Hg
  isplitl [Ho]; · iexact Ho
  isplitl [H0]; · iexact H0
  isplitl [H1]; · iexact H1
  isplitl [H2]; · iexact H2
  iexists _; iexact H3

set_option maxHeartbeats 4800000 in
/-- The body at a point of case C. -/
theorem sound_body1_C (c : Dev nD) (t : Fin cfg1.N) (h0 : ¬t.val % 8 = 0) (h1 : t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3_C t (fun h => h0 ((hcond1_0 t).mp h)) ((hcond1_1 t).mpr h1)], after1_3]
  rw [outsAt1_C V c t h0 h1]
  unfold out1_C_3 sout1_C_0; (try dsimp only)
  have hz : t.val ≠ 0 := fun hz => h0 (by rw [hz])
  rw [PhiS1_castSucc V c t, PhiS1_pos V c _ _ hz]
  iintro ⟨⟨⟨HS0, Hr⟩, Hg⟩, Ho, ⟨%d0, H0⟩, ⟨%d1, H1⟩, ⟨%d2, H2⟩, ⟨%d3, H3⟩⟩
  iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover1_C_0 c _ _ _ _ _ _ _ _ _ _ _ _ _ _ _ _ _)
      iexact Hr
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_C_3 c _ _ _ _ _ _ _ _ _ _ _ _ _ _ _ _ _)

/-- The body at any point: the inputs' memrefs hold their blocks; the closed forms say which case the point is in; the
    invariant hands the body the carried scratch at what the point before left (at anything before the first point, and
    at a row block's first step the contents are forgotten), the other scoped buffers and the generator register pass
    through, and the scratch is taken back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 8 = 0
  · exact sound_body1_A V c t h0 (by omega)
  · by_cases h1 : t.val % 8 = 7
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.KernelHand.Region2.Runs.lean ====
/- Region 2 of @main (the third pallas_call, the product adj · main_v2 accumulated over eight column blocks of adj):
   what the three control cases of its body share. The grid is 4 × 8; point t has coordinates (t / 8, t % 8) = (i, k).
   The body zeroes the carried accumulator when k = 0, adds the product of the adj block (i, k) with rows
   1024·k … 1024·k + 1023 of the resident operand at every point, and stores the accumulator into the output block
   when k = 7. -/
import proofs.«114752_j31224412242681_2_alg».proof.Proof.Gen.Kernel.Launch
import proofs.«114752_j31224412242681_2_alg».proof.Proof.Gen.Kernel.Skeleton
import proofs.«114752_j31224412242681_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the adj block) holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the resident operand, fetched once) holds the whole array at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's branch conditions -/

/-- The condition of the body's first conditional: the second grid coordinate is 0. -/
abbrev cond2_0 (i : grid2.Coords) : Prop := (Scalar.cmpi .ne (Scalar.extui (Scalar.cmpi .eq (BitVec.ofNat 32 (i 1).val) 0#32)) 0#32) = 1#1
/-- It holds at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)

/-- The condition of the body's second conditional: the second grid coordinate is 7. -/
abbrev cond2_1 (i : grid2.Coords) : Prop := k2_cond2 i = 1#1
/-- It holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Where the second conditional fails the output window is idle, -/
theorem idleAt2_2 : ∀ t : Fin cfg2.N, ¬cond2_1 (grid2.coords t) → cfg2.idle 2 (grid2.coords t) = true := by decide +kernel
/-- and its block is not written back there. -/
theorem noFlush2_2 : ∀ t : Fin cfg2.N, ¬cond2_1 (grid2.coords t) → (cfg2.win 2).flush t = false := by decide +kernel
/-- Where it holds the output window is live. -/
theorem liveAt2_2 : ∀ t : Fin cfg2.N, cond2_1 (grid2.coords t) → cfg2.idle 2 (grid2.coords t) = false := by decide +kernel

/-! ## The staging and scratch memrefs -/

/-- One staging buffer of the output window, through which its contents are stated. -/
abbrev VO2_2 : View sig .tc .vmem S2048x128 .f32 := (Memref.whole cc2_stg2_0 : Memref sig .tc .vmem S2048x128 .f32).view
abbrev ms2_0 (t : Fin cfg2.N) : Memref sig .tc .vmem S2048x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x128 .f32 := win2_2.stage (cfg2.slots t 2)
abbrev hs2_2 (t : Fin cfg2.N) : (ms2_2 t).IsWhole := hstage2_2 ((cfg2.slots t 2).cast nbuf2_2)
/-- The accumulator: a whole scoped buffer of the kernel's own, passed beside the windows. -/
abbrev scM2_0 : Memref sig .tc .vmem S2048x128 .f32 := Memref.whole cc2_scratch0
abbrev VS2_0 : View sig .tc .vmem S2048x128 .f32 := scM2_0.view

/-! ## The region invariant, with the accumulator named -/

/-- The core's scoped buffers other than this call's staging buffers and accumulator (the other calls' staging
    buffers and the other call's scratch), each at some contents, and the generator register at some state: what the
    body never touches. -/
def Rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ r, prngReg c r))

/-- The class's invariant hands out the accumulator at some contents and the rest, -/
theorem PhiA2_split (c : Dev nD) :
    (Pipeline.ΦA spec2 c : sProp 𝕄) ⊢ iprop((∃ d, owns (c : Thread nD τ) scM2_0 fullShare d) ∗ Rest2 (F := F) c) := by
  unfold Pipeline.ΦA Rest2; rw [scopedRest2_eq]; simp only [scM2_0, owns_whole]
  iintro ⟨⟨H0, H1, H2, H3, H4, H5, H6, H7, H8, H9, H10, H11, H12, H13, H14, H15, H16, H17, H18⟩, Hg⟩
  isplitl [H12]; · iexact H12
  iframe

/-- and takes them back. -/
theorem PhiA2_join (c : Dev nD) :
    iprop((∃ d, owns (c : Thread nD τ) scM2_0 fullShare d) ∗ Rest2 (F := F) c) ⊢ (Pipeline.ΦA spec2 c : sProp 𝕄) := by
  unfold Pipeline.ΦA Rest2; rw [scopedRest2_eq]; simp only [scM2_0, owns_whole]
  iintro ⟨H12, H0, H1, H2, H3, H4, H5, H6, H7, H8, H9, H10, H11, H13, H14, H15, H16, H17, H18, Hg⟩
  iframe

end Cert.Kernel.Hand

end
-- ==== Proof.KernelHand.Region2.RunA.lean ====
/- Region 2, the body's run at the points where the second grid coordinate is 0: the accumulator is zeroed, then
   the point's product is added; the output window is not stored. -/
import proofs.«114752_j31224412242681_2_alg».proof.Proof.KernelHand.Region2.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output window's buffer (none) and in the accumulator, with the proof that on
    whole memrefs — the inputs' at their contents, the output's at contents handed back untouched, the accumulator at
    anything — the body runs to the continuation holding the inputs and the output as they were and the accumulator
    with its pieces written. -/
noncomputable def kernelRun2_A (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : ¬cond2_1 i)
    (x0 : Vec F S2048x1024 .f32) (x1 : Vec F S8192x128 .bf16) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__z_kernel i arg2 harg2 arg3 harg3 arg4 harg4 arg5 harg5) K } := by
  refine ⟨[], ?_, fun xi2 E K => ?run⟩
  case run =>
    simp only [cc2__z_kernel_eq_skeleton]; unfold cc2__z_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KernelHand.Region2.RunB.lean ====
/- Region 2, the body's run at the points where the second grid coordinate is neither 0 nor 7: the point's product is
   added to the accumulator the point before left; the output window is not stored. -/
import proofs.«114752_j31224412242681_2_alg».proof.Proof.KernelHand.Region2.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output window's buffer (none) and in the accumulator, with the proof that on
    whole memrefs — the inputs' at their contents, the output's at contents handed back untouched, the accumulator at
    what the point before left (`xs0`) — the body runs to the continuation holding the inputs and the output as they
    were and the accumulator with its pieces written. -/
noncomputable def kernelRun2_B (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : ¬cond2_1 i)
    (x0 : Vec F S2048x1024 .f32) (x1 : Vec F S8192x128 .bf16) (xs0 : Vec F S2048x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__z_kernel i arg2 harg2 arg3 harg3 arg4 harg4 arg5 harg5) K } := by
  refine ⟨[], ?_, fun xi2 E K => ?run⟩
  case run =>
    simp only [cc2__z_kernel_eq_skeleton]; unfold cc2__z_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KernelHand.Region2.RunC.lean ====
/- Region 2, the body's run at the points where the second grid coordinate is 7: the point's product is added to the
   accumulator the point before left, and the accumulator is stored into the output window's buffer. -/
import proofs.«114752_j31224412242681_2_alg».proof.Proof.KernelHand.Region2.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output window's buffer and in the accumulator, with the proof that on whole
    memrefs — the inputs' at their contents, the output's at anything, the accumulator at what the point before left
    (`xs0`) — the body runs to the continuation holding the inputs as they were and the output's buffer and the
    accumulator with their pieces written. -/
noncomputable def kernelRun2_C (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i)
    (x0 : Vec F S2048x1024 .f32) (x1 : Vec F S8192x128 .bf16) (xs0 : Vec F S2048x128 .f32) :
    Σ' (L2 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__z_kernel i arg2 harg2 arg3 harg3 arg4 harg4 arg5 harg5) K } := by
  refine ⟨?_, ?_, fun E K => ?run⟩
  case run =>
    simp only [cc2__z_kernel_eq_skeleton]; unfold cc2__z_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KernelHand.Region2.lean ====
/- Region 2 of @main (the third pallas_call): the pieces its body leaves per control case, what the output
   window's buffer and the carried accumulator hold after each grid point, the proof data, and the body obligation.
   The grid is 4 × 8, point t = (t / 8, t % 8) = (i, k): at k = 0 the accumulator is zeroed and the point's product
   added (case A); at 0 < k < 7 the product is added onto what the point before left (case B); at k = 7 it is added
   and the accumulator stored into the output block (case C). -/
import proofs.«114752_j31224412242681_2_alg».proof.Proof.KernelHand.Region2.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A stores nothing into the output window: a placeholder nothing consults. -/
def out2_A_2 (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : ¬cond2_1 i)
    (x0 : Vec F S2048x1024 .f32) (x1 : Vec F S8192x128 .bf16) : Vec F S2048x128 .f32 :=
  VO2_2.read (Elt F) (VO2_2.writes (Elt F) VO2_2.junk (kernelRun2_A c i arg2 harg2 arg3 harg3 arg4 harg4 arg5 harg5 hc0 hc1 x0 x1).1)

/-- Case A's pieces for the accumulator cover it. -/
theorem scover2_A_0 (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : ¬cond2_1 i)
    (x0 : Vec F S2048x1024 .f32) (x1 : Vec F S8192x128 .bf16) (y : S2048x128.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S2048x128.size (by sl_kernel_rfl) y

/-- What case A leaves in the accumulator: its pieces read back. -/
def sout2_A_0 (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : ¬cond2_1 i)
    (x0 : Vec F S2048x1024 .f32) (x1 : Vec F S8192x128 .bf16) : Vec F S2048x128 .f32 :=
  VS2_0.read (Elt F) (VS2_0.writes (Elt F) VS2_0.junk (kernelRun2_A c i arg2 harg2 arg3 harg3 arg4 harg4 arg5 harg5 hc0 hc1 x0 x1).2.1)

/-- Case B stores nothing into the output window: a placeholder nothing consults. -/
def out2_B_2 (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : ¬cond2_1 i)
    (x0 : Vec F S2048x1024 .f32) (x1 : Vec F S8192x128 .bf16) (xs0 : Vec F S2048x128 .f32) : Vec F S2048x128 .f32 :=
  VO2_2.read (Elt F) (VO2_2.writes (Elt F) VO2_2.junk (kernelRun2_B c i arg2 harg2 arg3 harg3 arg4 harg4 arg5 harg5 hc0 hc1 x0 x1 xs0).1)

/-- Case B's pieces for the accumulator cover it. -/
theorem scover2_B_0 (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : ¬cond2_1 i)
    (x0 : Vec F S2048x1024 .f32) (x1 : Vec F S8192x128 .bf16) (xs0 : Vec F S2048x128 .f32) (y : S2048x128.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S2048x128.size (by sl_kernel_rfl) y

/-- What case B leaves in the accumulator: its pieces read back. -/
def sout2_B_0 (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : ¬cond2_1 i)
    (x0 : Vec F S2048x1024 .f32) (x1 : Vec F S8192x128 .bf16) (xs0 : Vec F S2048x128 .f32) : Vec F S2048x128 .f32 :=
  VS2_0.read (Elt F) (VS2_0.writes (Elt F) VS2_0.junk (kernelRun2_B c i arg2 harg2 arg3 harg3 arg4 harg4 arg5 harg5 hc0 hc1 x0 x1 xs0).2.1)

/-- Case C's pieces for the output window tile its block, so they cover it. -/
theorem cover2_C_2 (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i)
    (x0 : Vec F S2048x1024 .f32) (x1 : Vec F S8192x128 .bf16) (xs0 : Vec F S2048x128 .f32) (y : S2048x128.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S2048x128.size (by sl_kernel_rfl) y

/-- What case C leaves in the output window's buffer: its pieces read back. -/
def out2_C_2 (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i)
    (x0 : Vec F S2048x1024 .f32) (x1 : Vec F S8192x128 .bf16) (xs0 : Vec F S2048x128 .f32) : Vec F S2048x128 .f32 :=
  VO2_2.read (Elt F) (VO2_2.writes (Elt F) VO2_2.junk (kernelRun2_C c i arg2 harg2 arg3 harg3 arg4 harg4 arg5 harg5 hc0 hc1 x0 x1 xs0).1)

/-- Case C's pieces for the accumulator cover it. -/
theorem scover2_C_0 (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i)
    (x0 : Vec F S2048x1024 .f32) (x1 : Vec F S8192x128 .bf16) (xs0 : Vec F S2048x128 .f32) (y : S2048x128.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S2048x128.size (by sl_kernel_rfl) y

/-- What case C leaves in the accumulator: its pieces read back. -/
def sout2_C_0 (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i)
    (x0 : Vec F S2048x1024 .f32) (x1 : Vec F S8192x128 .bf16) (xs0 : Vec F S2048x128 .f32) : Vec F S2048x128 .f32 :=
  VS2_0.read (Elt F) (VS2_0.writes (Elt F) VS2_0.junk (kernelRun2_C c i arg2 harg2 arg3 harg3 arg4 harg4 arg5 harg5 hc0 hc1 x0 x1 xs0).2.1)

section Region2
variable (V : (c : Dev nD) → (b : Ref sig .tc) → Buf (Elt F) ((c : Thread nD τ).loc b))

/-! ## What the output's buffer and the accumulator hold after each point -/

/-- The pair (output window's buffer, accumulator) a point of case A leaves, at the point's memrefs and input blocks. -/
def outA2 (c : Dev nD) (t : Fin cfg2.N) (h0 : t.val % 8 = 0) (h1 : ¬t.val % 8 = 7) : Vec F S2048x128 .f32 × Vec F S2048x128 .f32 :=
  (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t),
   sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t))

/-- The pair a point of case B leaves, over the accumulator `xs` the point before left. -/
def outB2 (c : Dev nD) (t : Fin cfg2.N) (h0 : ¬t.val % 8 = 0) (h1 : ¬t.val % 8 = 7) (xs : Vec F S2048x128 .f32) : Vec F S2048x128 .f32 × Vec F S2048x128 .f32 :=
  (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) xs,
   sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) xs)

/-- The pair a point of case C leaves, over the accumulator `xs` the point before left. -/
def outC2 (c : Dev nD) (t : Fin cfg2.N) (h0 : ¬t.val % 8 = 0) (h1 : t.val % 8 = 7) (xs : Vec F S2048x128 .f32) : Vec F S2048x128 .f32 × Vec F S2048x128 .f32 :=
  (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) xs,
   sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) xs)

/-- THE ACCUMULATION. What the output window's buffer and the accumulator hold after the body at position `n`: the
    case the closed forms select at `n`, over the accumulator position `n - 1` left. -/
def outsAt2 (c : Dev nD) : (n : ℕ) → n < cfg2.N → Vec F S2048x128 .f32 × Vec F S2048x128 .f32
  | 0, hn => outA2 V c ⟨0, hn⟩ (Nat.zero_mod _) (by show ¬(0 % 8 = 7); decide)
  | n + 1, hn =>
    if h0 : (n + 1) % 8 = 0 then
      if h1 : (n + 1) % 8 = 7 then False.elim (by omega)
      else outA2 V c ⟨n + 1, hn⟩ h0 h1
    else
      if h1 : (n + 1) % 8 = 7 then outC2 V c ⟨n + 1, hn⟩ h0 h1 (outsAt2 c n (Nat.lt_of_succ_lt hn)).2
      else outB2 V c ⟨n + 1, hn⟩ h0 h1 (outsAt2 c n (Nat.lt_of_succ_lt hn)).2

/-- `outsAt2` at a point of case A. -/
theorem outsAt2_A (c : Dev nD) (t : Fin cfg2.N) (h0 : t.val % 8 = 0) (h1 : ¬t.val % 8 = 7) :
    outsAt2 V c t.val t.isLt = outA2 V c t h0 h1 := by
  obtain ⟨n, hn⟩ := t
  cases n with
  | zero => exact rfl
  | succ n => exact (dif_pos h0).trans ((dif_neg h1).trans rfl)

/-- `outsAt2` at a point of case B: over what the point before left. -/
theorem outsAt2_B (c : Dev nD) (t : Fin cfg2.N) (h0 : ¬t.val % 8 = 0) (h1 : ¬t.val % 8 = 7) :
    outsAt2 V c t.val t.isLt = outB2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: over what the point before left. -/
theorem outsAt2_C (c : Dev nD) (t : Fin cfg2.N) (h0 : ¬t.val % 8 = 0) (h1 : t.val % 8 = 7) :
    outsAt2 V c t.val t.isLt = outC2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: the accumulator at anything before the first point, afterwards at what the point before
    left in it; beside it the scoped buffers the body never touches and the generator register (`Rest2`). -/
def PhiS2 (c : Dev nD) : (n : ℕ) → n ≤ cfg2.N → sProp 𝕄
  | 0, _ => iprop((∃ d, owns (c : Thread nD τ) scM2_0 fullShare d) ∗ Rest2 (F := F) c)
  | n + 1, hn => iprop(owns (c : Thread nD τ) scM2_0 fullShare ((outsAt2 V c n hn).2) ∗ Rest2 (F := F) c)

theorem PhiS2_zero (c : Dev nD) (n : ℕ) (h : n ≤ cfg2.N) (hz : n = 0) :
    PhiS2 V c n h = iprop((∃ d, owns (c : Thread nD τ) scM2_0 fullShare d) ∗ Rest2 (F := F) c) := by
  subst hz; rfl

theorem PhiS2_succ (c : Dev nD) (n : ℕ) (hn : n < cfg2.N) :
    PhiS2 V c (n + 1) hn = iprop(owns (c : Thread nD τ) scM2_0 fullShare ((outsAt2 V c n hn).2) ∗ Rest2 (F := F) c) := rfl

theorem PhiS2_pos (c : Dev nD) (n : ℕ) (h : n ≤ cfg2.N) (hz : n ≠ 0) :
    PhiS2 V c n h = iprop(owns (c : Thread nD τ) scM2_0 fullShare ((outsAt2 V c (n - 1) (by omega)).2) ∗ Rest2 (F := F) c) := by
  cases n with
  | zero => exact absurd rfl hz
  | succ n => rfl

/-! ## The pipeline's proof data -/

/-- The proof data of region 2 on core `c`: the arrays as the region finds them; after the body at point `t` each
    input's buffer at its block and the output's at `outsAt2`'s first component; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the closed forms say which case the point is in; the
    invariant hands the body the accumulator at what the point before left (at anything before the first point) and
    takes it back at this point's contents; the rest is untouched; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 32 := lt_of_lt_of_eq t.isLt (show cfg2.N = 32 from N_2)
  by_cases h0 : t.val % 8 = 0
  · by_cases h1 : t.val % 8 = 7
    · exfalso; omega
    · rw [Dat.leavesExact_idle (dat2 V c) 2 t (idleAt2_2 t (fun h => h1 ((hcond2_1 t).mp h))) (noFlush2_2 t (fun h => h1 ((hcond2_1 t).mp h)))]
      rw [outsAt2_A V c t h0 h1]
      unfold outA2 sout2_A_0; (try dsimp only)
      by_cases hz : t.val = 0
      · rw [PhiS2_castSucc V c t, PhiS2_zero V c _ _ hz]
        iintro ⟨⟨HS0, HR⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR]
        · isplitl [HS0]
          · unfold owns; iexists _; isplitr
            swap; · iexact HS0
            ipureintro; exact View.read_writes_of_cover _ _ _ _ _ (scover2_A_0 c _ _ _ _ _ _ _ _ _ _ _ _ _)
          iexact HR
        isplitl [Ho]; · iexact Ho
        isplitl [H0]; · iexact H0
        isplitl [H1]; · iexact H1
        iexists _; iexact H2
      · rw [PhiS2_castSucc V c t, PhiS2_pos V c _ _ hz]
        iintro ⟨⟨HS0, HR⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR]
        · isplitl [HS0]
          · unfold owns; iexists _; isplitr
            swap; · iexact HS0
            ipureintro; exact View.read_writes_of_cover _ _ _ _ _ (scover2_A_0 c _ _ _ _ _ _ _ _ _ _ _ _ _)
          iexact HR
        isplitl [Ho]; · iexact Ho
        isplitl [H0]; · iexact H0
        isplitl [H1]; · iexact H1
        iexists _; iexact H2
  · have hz : t.val ≠ 0 := fun e => h0 (by rw [e])
    by_cases h1 : t.val % 8 = 7
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold outC2 out2_C_2 sout2_C_0; (try dsimp only)
      rw [PhiS2_castSucc V c t, PhiS2_pos V c _ _ hz]
      iintro ⟨⟨HS0, HR⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR]
      · isplitl [HS0]
        · unfold owns; iexists _; isplitr
          swap; · iexact HS0
          ipureintro; exact View.read_writes_of_cover _ _ _ _ _ (scover2_C_0 c _ _ _ _ _ _ _ _ _ _ _ _ _ _)
        iexact HR
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold outB2 sout2_B_0; (try dsimp only)
      rw [PhiS2_castSucc V c t, PhiS2_pos V c _ _ hz]
      iintro ⟨⟨HS0, HR⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR]
      · isplitl [HS0]
        · unfold owns; iexists _; isplitr
          swap; · iexact HS0
          ipureintro; exact View.read_writes_of_cover _ _ _ _ _ (scover2_B_0 c _ _ _ _ _ _ _ _ _ _ _ _ _ _)
        iexact HR
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point: the accumulator named beside the rest. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  exact PhiA2_split c

/-- After the last point the invariant gives the class's back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega)]
  iintro ⟨HS0, HR⟩
  iapply (PhiA2_join (F := F) c)
  isplitl [HS0]
  · iexists _; iexact HS0
  iexact HR

/-- Full shares and nothing owed, as the launch theorems ask. -/
theorem hshare2 (c : Dev nD) (w : Fin cfg2.W) : (dat2 V c).share w = fullShare := (dat2 V c).share_full (fun _ => rfl) w
theorem howed2 (c : Dev nD) (t : Fin (cfg2.N + 1)) : (dat2 V c).owed t = 0 := rfl

end Region2

end Cert.Kernel.Hand

end
-- ==== Proof.KernelHand.Inst.lean ====
/-
  The two accumulating regions' proof data, packaged for the run of the whole program: each region's own module gives
  proof data over any contents of the buffers at its entry, the body's obligation at every point, and its carried
  invariant entered from and returned to the plain one; here they are handed to the run as records.
-/
import proofs.«114752_j31224412242681_2_alg».proof.Proof.Gen.Kernel.Launch
import proofs.«114752_j31224412242681_2_alg».proof.Proof.Gen.Kernel.Skeleton
import proofs.«114752_j31224412242681_2_alg».proof.Proof.Gen.Kernel.Points
import proofs.«114752_j31224412242681_2_alg».proof.Proof.KernelHand.Iface
import proofs.«114752_j31224412242681_2_alg».proof.Proof.KernelHand.Region1
import proofs.«114752_j31224412242681_2_alg».proof.Proof.KernelHand.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second region (adjacency times first support, accumulated over eight column blocks, rectified, times the packed weights). -/
def region1Data : Region1Data F where
  dat := fun V c => dat1 V c
  A_eq := fun V c w => A_eq1 V c w
  q_full := fun _ _ _ => rfl
  owed_zero := fun _ _ _ => rfl
  recorded_univ := fun _ _ _ => rfl
  body := fun V c => body_obligation1 V c
  hin := fun V c => hin1 V c
  hout := fun V c => hout1 V c

/-- The third region (adjacency times second support, accumulated over eight column blocks). -/
def region2Data : Region2Data F where
  dat := fun V c => dat2 V c
  A_eq := fun V c w => A_eq2 V c w
  q_full := fun _ _ _ => rfl
  owed_zero := fun _ _ _ => rfl
  recorded_univ := fun _ _ _ => rfl
  body := fun V c => body_obligation2 V c
  hin := fun V c => hin2 V c
  hout := fun V c => hout2 V c

end Cert.Kernel.Hand

end
-- ==== Proof.KernelIdealHand.Iface.lean ====
/-
  What the run of the whole program needs to know of a region whose body carries an accumulator between grid points:
  proof data over ANY contents of the buffers at the region's entry, reading its arrays off those contents, every
  array held whole and nothing owed, the body's obligation at every point, and the carried invariant entered from and
  returned to the plain one (every scoped buffer that is no staging buffer at anything, the generator register at some
  state). The run is written against these two records; the regions' own modules provide them.
-/
import proofs.«114752_j31224412242681_2_alg».proof.Proof.Gen.KernelIdeal.Launch
import proofs.«114752_j31224412242681_2_alg».proof.Proof.Gen.KernelIdeal.Skeleton
import proofs.«114752_j31224412242681_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The second region's (adjacency times first support, rectified, times the packed weights) interface to the run. -/
structure Region1Data (F : FTy → Type) [FloatOps F] where
  dat : ((c : Dev nD) → (b : Ref sig .tc) → Buf (Elt F) ((c : Thread nD τ).loc b)) → (c : Dev nD) → Dat τ (Elt F) Unit ℕ (UR sig nD τ) ℕ cfg1 c
  A_eq : ∀ V c w, (dat V c).A w = V c (Pipeline.arrRef spec1 w)
  q_full : ∀ V c w, (dat V c).q w = fullShare
  owed_zero : ∀ V c t, (dat V c).owed t = 0
  recorded_univ : ∀ V c t, (dat V c).recorded t = Set.univ
  body : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

/-- The third region's (adjacency times second support) interface to the run. -/
structure Region2Data (F : FTy → Type) [FloatOps F] where
  dat : ((c : Dev nD) → (b : Ref sig .tc) → Buf (Elt F) ((c : Thread nD τ).loc b)) → (c : Dev nD) → Dat τ (Elt F) Unit ℕ (UR sig nD τ) ℕ cfg2 c
  A_eq : ∀ V c w, (dat V c).A w = V c (Pipeline.arrRef spec2 w)
  q_full : ∀ V c w, (dat V c).q w = fullShare
  owed_zero : ∀ V c t, (dat V c).owed t = 0
  recorded_univ : ∀ V c t, (dat V c).recorded t = Set.univ
  body : ∀ V c, BodyObligation (dat V c) (defs₀ (F := F)) Variants.none () Set.univ
  hin : ∀ V c, (Pipeline.ΦA spec2 c : sProp (MT nD τ sig Unit (Elt F) ℕ (UR sig nD τ) ℕ)) ⊢ (dat V c).Φ 0
  hout : ∀ V c, (dat V c).Φ (Fin.last cfg2.N) ⊢ (Pipeline.ΦA spec2 c : sProp (MT nD τ sig Unit (Elt F) ℕ (UR sig nD τ) ℕ))

end Cert.KernelIdeal.Hand

end
-- ==== Proof.KernelIdealHand.Region0.lean ====
/-
  The first product, features times first-layer weights, one block of 2048 rows per grid point.

  At grid point t the body reads the point's block of 2048 rows of the features and the whole weight matrix, multiplies
  them into a zero accumulator and stores the 2048 x 256 result, narrowed, into the output's block: so after the body
  the output's staging buffer holds one function of the two input blocks, whatever it held before. Stated at any
  contents V of the buffers when the region is entered, at any float instance.
-/
import proofs.«114752_j31224412242681_2_alg».proof.Proof.Gen.KernelIdeal.Launch
import proofs.«114752_j31224412242681_2_alg».proof.Proof.Gen.KernelIdeal.Skeleton
import proofs.«114752_j31224412242681_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' staging buffer holds the point's block at every point, for any proof data over V's arrays whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weights' staging buffer holds the whole weight matrix at every point: fetched once, its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer read or written whole -/

abbrev r0_x : Rect S2048x512 := Rect.unit (s := S2048x512) ![0, 0] S2048x512.size inb_S2048x512_S2048x512_0_0
abbrev r0_w : Rect S512x256 := Rect.unit (s := S512x256) ![0, 0] S512x256.size inb_S512x256_S512x256_0_0
abbrev r0_o : Rect S2048x256 := Rect.unit (s := S2048x256) ![0, 0] S2048x256.size inb_S2048x256_S2048x256_0_0

/-- What the body leaves in the output's staging buffer, from the two input blocks: its one store. -/
def out0_2 (x0 : Vec F S2048x512 .f32) (x1 : Vec F S512x256 .f32) : Vec F S2048x256 .bf16 :=
  View.canon [⟨r0_o, k0_pay1 (View.ld x0 r0_x) (View.ld x1 r0_w)⟩]

/-- The one store covers the buffer. -/
theorem cover0_2 (p0 : Vec F S2048x256 .bf16) (y : S2048x256.Idx) :
    ∃ pc ∈ ([⟨r0_o, p0⟩] : List (View.Piece (Elt F) S2048x256 .bf16)), y ∈ pc.1.set :=
  View.cover_of_tiled [⟨r0_o, p0⟩] S2048x256.size (by rfl) y

/-! ## The body's triple -/

set_option maxHeartbeats 1000000 in
/-- On whole staging memrefs, the inputs' at contents x0 and x1 and the output's at anything, the body runs to the
    continuation holding the inputs' as they were and the output's at out0_2 of them. -/
theorem sound_kernel0 (c : Dev nD) (E : Set ℕ) (i : grid0.Coords) (arg1 : Memref sig .tc .vmem S2048x512 .f32) (harg1 : arg1.IsWhole) (arg2 : Memref sig .tc .vmem S512x256 .f32) (harg2 : arg2.IsWhole) (arg3 : Memref sig .tc .vmem S2048x256 .bf16) (harg3 : arg3.IsWhole)
    (x0 : Vec F S2048x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__support1_kernel i arg1 harg1 arg2 harg2 arg3 harg3) K := by
  simp only [cc0__support1_kernel_eq_skeleton]; unfold cc0__support1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first product's pipeline on core c: the arrays as the region finds them; after the body at
    point t each input's buffer at its block and the output's at out0_2 of the two blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealHand.Region3.lean ====
/-
  The decoder's Gram matrix, one 2048 x 1024 tile per grid point.

  At grid point (i, j) the body reads a block of 2048 rows and a block of 1024 rows of ONE array (the latent means,
  handed to the kernel twice), multiplies the first by the transpose of the second into a zero accumulator and stores the
  2048 x 1024 tile. After the body the output's staging buffer holds one function of the two input blocks. The shared
  array's ownership is dealt between its two windows, half each; the output window owns its array whole. Stated at any
  contents V of the buffers when the region is entered, at any float instance.
-/
import proofs.«114752_j31224412242681_2_alg».proof.Proof.Gen.KernelIdeal.Launch
import proofs.«114752_j31224412242681_2_alg».proof.Proof.Gen.KernelIdeal.Skeleton
import proofs.«114752_j31224412242681_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block's staging buffer holds the point's block at every point (fetched when the row index moves). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The column block's staging buffer holds the point's block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer read or written whole -/

abbrev r3_a : Rect S2048x64 := Rect.unit (s := S2048x64) ![0, 0] S2048x64.size inb_S2048x64_S2048x64_0_0
abbrev r3_b : Rect S1024x64 := Rect.unit (s := S1024x64) ![0, 0] S1024x64.size inb_S1024x64_S1024x64_0_0
abbrev r3_o : Rect S2048x1024 := Rect.unit (s := S2048x1024) ![0, 0] S2048x1024.size inb_S2048x1024_S2048x1024_0_0

/-- What the body leaves in the output's staging buffer, from the two input blocks: its one store. -/
def out3_2 (x0 : Vec F S2048x64 .f32) (x1 : Vec F S1024x64 .f32) : Vec F S2048x1024 .f32 :=
  View.canon [⟨r3_o, k3_pay1 (View.ld x0 r3_a) (View.ld x1 r3_b)⟩]

/-- The one store covers the buffer. -/
theorem cover3_2 (p0 : Vec F S2048x1024 .f32) (y : S2048x1024.Idx) :
    ∃ pc ∈ ([⟨r3_o, p0⟩] : List (View.Piece (Elt F) S2048x1024 .f32)), y ∈ pc.1.set :=
  View.cover_of_tiled [⟨r3_o, p0⟩] S2048x1024.size (by rfl) y

/-! ## The body's triple -/

set_option maxHeartbeats 1000000 in
/-- On whole staging memrefs, the inputs' at contents x0 and x1 and the output's at anything, the body runs to the
    continuation holding the inputs' as they were and the output's at out3_2 of them. -/
theorem sound_kernel3 (c : Dev nD) (E : Set ℕ) (i : grid3.Coords) (arg2 : Memref sig .tc .vmem S2048x64 .f32) (harg2 : arg2.IsWhole) (arg3 : Memref sig .tc .vmem S1024x64 .f32) (harg3 : arg3.IsWhole) (arg4 : Memref sig .tc .vmem S2048x1024 .f32) (harg4 : arg4.IsWhole)
    (x0 : Vec F S2048x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3__recon_kernel i arg2 harg2 arg3 harg3 arg4 harg4) K := by
  simp only [cc3__recon_kernel_eq_skeleton]; unfold cc3__recon_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the Gram pipeline on core c: the arrays as the region finds them; after the body at point t each
    input's buffer at its block and the output's at out3_2 of the two blocks; the shared input array held half by each of
    its windows; nothing carried, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point t, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KernelIdealHand.Run.lean ====
/-
  The run of the whole program: four kernel regions among two stretches of host operations.

  The contents of the core's buffers at each boundary between items are a fold from the launch memory: a region leaves
  its arrays at what its write-backs make of them and every other buffer as it found it; a host stretch applies its
  operations. Each region is entered from "every unscoped buffer at the boundary's contents, the generator register at
  some state, nothing owed" and left at the same with the next boundary's contents. The conclusion pins every unscoped
  buffer at the end to the last boundary's contents, from which both the frame (no item writes an argument) and the
  results' values are read. The two regions that carry an accumulator enter through their interface records.
-/
import proofs.«114752_j31224412242681_2_alg».proof.Proof.Gen.KernelIdeal.Launch
import proofs.«114752_j31224412242681_2_alg».proof.Proof.Gen.KernelIdeal.Skeleton
import proofs.«114752_j31224412242681_2_alg».proof.Proof.Gen.KernelIdeal.Points
import proofs.«114752_j31224412242681_2_alg».proof.Proof.KernelIdealHand.Iface
import proofs.«114752_j31224412242681_2_alg».proof.Proof.KernelIdealHand.Region0
import proofs.«114752_j31224412242681_2_alg».proof.Proof.KernelIdealHand.Region3
import proofs.«114752_j31224412242681_2_alg».proof.Proof.LibSharedPair
import proofs.«114752_j31224412242681_2_alg».proof.Proof.LibSharedJoin
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (R1 : Region1Data F) (R2 : Region2Data F)
variable (m : (ℓ : Loc nD τ sig) → Buf (Elt F) ℓ) (ρ : Dev nD → PrngReg)

/-! ## The buffer contents at each boundary: a fold through the program -/

/-- Core c's buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first product: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the weights are packed side by side (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (R1.dat (V2 m ρ) c).arrAt w cfg1.N
theorem W3_arr (c : Dev nD) (w : Fin cfg1.W) :
    W3 R1 m ρ c (Proc.devRef .tc (Pipeline.arrRef spec1 w)) = (R1.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 R1 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 R1 m ρ c b
theorem hF1 (c : Dev nD) (w : Fin cfg1.W) : (R1.dat (V2 m ρ) c).arrAt w cfg1.N = V3 R1 m ρ c (Pipeline.arrRef spec1 w) :=
  (W3_arr R1 m ρ c w).symm
theorem hrest1 (c : Dev nD) : ∀ b, b ∉ Finset.univ.image (Pipeline.arrRef spec1) → V3 R1 m ρ c b = V2 m ρ c b :=
  fun b hb => W3_of_ne R1 m ρ c b fun w e => hb (Finset.mem_image.mpr ⟨w, Finset.mem_univ _, e⟩)

/-- After the third region. -/
def W4 (c : Dev nD) : Valuation τ sig (Elt F) :=
  Pipeline.withArrays spec2 c (W3 R1 m ρ c) fun w => (R2.dat (V3 R1 m ρ) c).arrAt w cfg2.N
theorem W4_arr (c : Dev nD) (w : Fin cfg2.W) :
    W4 R1 R2 m ρ c (Proc.devRef .tc (Pipeline.arrRef spec2 w)) = (R2.dat (V3 R1 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 R1 R2 m ρ c (Proc.devRef .tc b) = W3 R1 m ρ c (Proc.devRef .tc b) := by
  unfold W4; exact Pipeline.withArrays_of_ne spec2 c _ _ b hb
abbrev V4 : (c : Dev nD) → (b : Ref sig .tc) → Buf (Elt F) ((c : Thread nD τ).loc b) := fun c b => W4 R1 R2 m ρ c b
theorem hF2 (c : Dev nD) (w : Fin cfg2.W) : (R2.dat (V3 R1 m ρ) c).arrAt w cfg2.N = V4 R1 R2 m ρ c (Pipeline.arrRef spec2 w) :=
  (W4_arr R1 R2 m ρ c w).symm
theorem hrest2 (c : Dev nD) : ∀ b, b ∉ Finset.univ.image (Pipeline.arrRef spec2) → V4 R1 R2 m ρ c b = V3 R1 m ρ c b :=
  fun b hb => W4_of_ne R1 R2 m ρ c b fun w e => hb (Finset.mem_image.mpr ⟨w, Finset.mem_univ _, e⟩)

/-- After the two column halves are sliced out (the last region's entry). -/
abbrev W5 : Dev nD → Valuation τ sig (Elt F) := fun c => StableHlo.after hostOps3 (W4 R1 R2 m ρ c)
abbrev V5 : (c : Dev nD) → (b : Ref sig .tc) → Buf (Elt F) ((c : Thread nD τ).loc b) := fun c b => W5 R1 R2 m ρ c b
/-- After the last region: its output array at what the pipeline leaves, every other buffer as entered (its two input
    windows read one array, which it leaves alone). -/
def W6 (c : Dev nD) : Valuation τ sig (Elt F) :=
  Function.update (W5 R1 R2 m ρ c) (Proc.devRef .tc main_v6) ((dat3 (V5 R1 R2 m ρ) c).arrAt 2 cfg3.N)
abbrev V6 : (c : Dev nD) → (b : Ref sig .tc) → Buf (Elt F) ((c : Thread nD τ).loc b) := fun c b => W6 R1 R2 m ρ c b

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => R1.dat (V2 m ρ) c
  | ⟨2, _⟩ => fun c => R2.dat (V3 R1 m ρ) c
  | ⟨3, _⟩ => fun c => dat3 (V5 R1 R2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator
    register at some state. -/
abbrev Tₙ (c : Dev nD) : sProp 𝕄 := iprop(StableHlo.held (c : Thread nD τ) (Pipeline.ucRefs τ sig) (W6 R1 R2 m ρ c) ∗ ∃ r, prngReg c r)

/-! ## The regions as segments -/

set_option backward.isDefEq.respectTransparency.types false in
/-- Region 0 over the thread state: entered from every unscoped buffer at W0, left at W1. Its arrays are split
    out of the unscoped buffers and put back at the exit contents; the generator register goes into the region's invariant
    and comes out; nothing owed; no semaphore of the kernel's own. -/
def reg0 : Pipeline.RegionSeg (pcfgs (F := F)) adm (pdats R1 R2 m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun c t => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats R1 R2 m ρ) launch0.win launch0.arr_whole c
      ((pdats R1 R2 m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats R1 R2 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats R1 R2 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R1 R2 m ρ) ((pdats R1 R2 m ρ 0 c).share_full fun _ => rfl)
      (V0 m ρ c) (V1 m ρ c) ((pdats R1 R2 m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3. Its arrays are split
    out of the unscoped buffers and put back at the exit contents; the generator register goes into the region's invariant
    and comes out; nothing owed; no semaphore of the kernel's own. -/
def reg1 : Pipeline.RegionSeg (pcfgs (F := F)) adm (pdats R1 R2 m ρ) () defs₀ 𝒱₀ L lv 1 where
  win := launch1.win.to₀
  block_pos := launch1.block_pos
  stage_whole := launch1.stage_whole
  K := PEmpty
  osem k := k.elim
  ho := Pipeline.OwnSemFacts.none _
  hbody c := (R1.body (V2 m ρ) c).loose
  hwaits := Pipeline.hwaits_of_owed_zero _ _ _ _ L lv 1 fun c t => R1.owed_zero _ c t
  pre c := iprop(StableHlo.held (c : Thread nD τ) (Pipeline.ucRefs τ sig) (W2 m ρ c) ∗ R c)
  post c := iprop(StableHlo.held (c : Thread nD τ) (Pipeline.ucRefs τ sig) (W3 R1 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    unfold Pipeline.Dat.owesAt Pipeline.owesWithin
    rw [show (pdats R1 R2 m ρ 1 c).owed 0 = 0 from R1.owed_zero (V2 m ρ) c 0]
    have hsplit := Pipeline.arrays_of_unscopedBufs (p := 1) (pcfgs (F := F)) adm (pdats R1 R2 m ρ) launch1.win launch1.arr_whole c
      ((pdats R1 R2 m ρ 1 c).share_full fun w => R1.q_full _ c w) (V2 m ρ c) fun w => R1.A_eq _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl ((Set.ext_iff.mp (R1.recorded_univ (V2 m ρ) c 0) _).mpr (Set.mem_univ _))
      iexact HO
    isplitl [Hp]; · iexact Hp
    iexact Hrest
  hin c := by
    refine (show _ ⊢ (Pipeline.ΦA spec1 c : sProp 𝕄) from ?_).trans (R1.hin (V2 m ρ) c)
    unfold Pipeline.ΦA
    iintro ⟨Hp, -, Hr⟩
    isplitl [Hr]; · iexact Hr
    iexact Hp
  hout c := by
    rw [Pipeline.ownSems0_none]
    refine (R1.hout (V2 m ρ) c).trans ?_
    unfold Pipeline.ΦA
    iintro ⟨Hr, Hp⟩
    isplitl [Hp]; · iexact Hp
    isplitr; · iempintro
    iexact Hr
  hexit c := by
    unfold Pipeline.Dat.owesAt Pipeline.owesWithin
    rw [show (pdats R1 R2 m ρ 1 c).owed (Fin.last _) = 0 from R1.owed_zero (V2 m ρ) c _]
    have hjoin := Pipeline.unscopedBufs_of_arrays (p := 1) (pcfgs (F := F)) adm (Ix := Unit) (Name := ℕ) (U := UR sig nD τ) (Lvl := ℕ)
      launch1.win launch1.arr_whole c (pdats R1 R2 m ρ) ((pdats R1 R2 m ρ 1 c).share_full fun w => R1.q_full _ c w)
      (V2 m ρ c) (V3 R1 m ρ c) ((pdats R1 R2 m ρ 1 c).arrAt · cfg1.N) (hF1 R1 m ρ c) (hrest1 R1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

set_option backward.isDefEq.respectTransparency.types false in
/-- Region 2 over the thread state: entered from every unscoped buffer at W3, left at W4. Its arrays are split
    out of the unscoped buffers and put back at the exit contents; the generator register goes into the region's invariant
    and comes out; nothing owed; no semaphore of the kernel's own. -/
def reg2 : Pipeline.RegionSeg (pcfgs (F := F)) adm (pdats R1 R2 m ρ) () defs₀ 𝒱₀ L lv 2 where
  win := launch2.win.to₀
  block_pos := launch2.block_pos
  stage_whole := launch2.stage_whole
  K := PEmpty
  osem k := k.elim
  ho := Pipeline.OwnSemFacts.none _
  hbody c := (R2.body (V3 R1 m ρ) c).loose
  hwaits := Pipeline.hwaits_of_owed_zero _ _ _ _ L lv 2 fun c t => R2.owed_zero _ c t
  pre c := iprop(StableHlo.held (c : Thread nD τ) (Pipeline.ucRefs τ sig) (W3 R1 m ρ c) ∗ R c)
  post c := iprop(StableHlo.held (c : Thread nD τ) (Pipeline.ucRefs τ sig) (W4 R1 R2 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 R1 m ρ c)
  hentry c := by
    rw [Pipeline.ownSems0_none]
    unfold Pipeline.Dat.owesAt Pipeline.owesWithin
    rw [show (pdats R1 R2 m ρ 2 c).owed 0 = 0 from R2.owed_zero (V3 R1 m ρ) c 0]
    have hsplit := Pipeline.arrays_of_unscopedBufs (p := 2) (pcfgs (F := F)) adm (pdats R1 R2 m ρ) launch2.win launch2.arr_whole c
      ((pdats R1 R2 m ρ 2 c).share_full fun w => R2.q_full _ c w) (V3 R1 m ρ c) fun w => R2.A_eq _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl ((Set.ext_iff.mp (R2.recorded_univ (V3 R1 m ρ) c 0) _).mpr (Set.mem_univ _))
      iexact HO
    isplitl [Hp]; · iexact Hp
    iexact Hrest
  hin c := by
    refine (show _ ⊢ (Pipeline.ΦA spec2 c : sProp 𝕄) from ?_).trans (R2.hin (V3 R1 m ρ) c)
    unfold Pipeline.ΦA
    iintro ⟨Hp, -, Hr⟩
    isplitl [Hr]; · iexact Hr
    iexact Hp
  hout c := by
    rw [Pipeline.ownSems0_none]
    refine (R2.hout (V3 R1 m ρ) c).trans ?_
    unfold Pipeline.ΦA
    iintro ⟨Hr, Hp⟩
    isplitl [Hp]; · iexact Hp
    isplitr; · iempintro
    iexact Hr
  hexit c := by
    unfold Pipeline.Dat.owesAt Pipeline.owesWithin
    rw [show (pdats R1 R2 m ρ 2 c).owed (Fin.last _) = 0 from R2.owed_zero (V3 R1 m ρ) c _]
    have hjoin := Pipeline.unscopedBufs_of_arrays (p := 2) (pcfgs (F := F)) adm (Ix := Unit) (Name := ℕ) (U := UR sig nD τ) (Lvl := ℕ)
      launch2.win launch2.arr_whole c (pdats R1 R2 m ρ) ((pdats R1 R2 m ρ 2 c).share_full fun w => R2.q_full _ c w)
      (V3 R1 m ρ c) (V4 R1 R2 m ρ c) ((pdats R1 R2 m ρ 2 c).arrAt · cfg2.N) (hF2 R1 R2 m ρ c) (hrest2 R1 R2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

/-! ## The last region: one array behind two windows -/

theorem W6_v6 (c : Dev nD) : W6 R1 R2 m ρ c (Proc.devRef .tc main_v6) = (dat3 (V5 R1 R2 m ρ) c).arrAt 2 cfg3.N := by
  unfold W6; exact Function.update_self _ _ _
theorem W6_of_ne (c : Dev nD) (b : Ref sig .tc) (hb : b ≠ main_v6) :
    W6 R1 R2 m ρ c (Proc.devRef .tc b) = W5 R1 R2 m ρ c (Proc.devRef .tc b) := by
  unfold W6; exact Function.update_of_ne (StableHlo.devRef_ne_of_ne hb) _ _

/-- At the last region's exit each window's array holds what the pipeline leaves: the two input windows' shared array
    what it held at entry, the output's array its write-backs folded. -/
theorem hF3 (c : Dev nD) (w : Fin cfg3.W) : (dat3 (V5 R1 R2 m ρ) c).arrAt w cfg3.N = V6 R1 R2 m ρ c (Pipeline.arrRef spec3 w) := by
  match w with
  | ⟨0, _⟩ => exact (((dat3 (V5 R1 R2 m ρ) c).arrAt_in 0 rfl _).trans (A_eq3 (V5 R1 R2 m ρ) c 0)).trans (W6_of_ne R1 R2 m ρ c _ (by decide)).symm
  | ⟨1, _⟩ => exact (((dat3 (V5 R1 R2 m ρ) c).arrAt_in 1 rfl _).trans (A_eq3 (V5 R1 R2 m ρ) c 1)).trans (W6_of_ne R1 R2 m ρ c _ (by decide)).symm
  | ⟨2, _⟩ => exact (W6_v6 R1 R2 m ρ c).symm
theorem hrest3 (c : Dev nD) : ∀ b, b ∉ Finset.univ.image (Pipeline.arrRef spec3) → V6 R1 R2 m ρ c b = V5 R1 R2 m ρ c b :=
  fun b hb => W6_of_ne R1 R2 m ρ c b fun e => hb (Finset.mem_image.mpr ⟨2, Finset.mem_univ _, e.symm⟩)

set_option backward.isDefEq.respectTransparency.types false in
/-- The last region over the thread state: entered from every unscoped buffer at W5, left at W6. The shared input array's
    buffer is dealt half to each of its two windows at the entry and joined again at the exit; the output's buffer goes to
    its window whole. -/
def reg3 : Pipeline.RegionSeg (pcfgs (F := F)) adm (pdats R1 R2 m ρ) () defs₀ 𝒱₀ L lv 3 where
  win := winFacts₀3
  block_pos := block_pos3
  stage_whole := stage_whole3
  K := PEmpty
  osem k := k.elim
  ho := Pipeline.OwnSemFacts.none _
  hbody c := (body_obligation3 (V5 R1 R2 m ρ) c).loose
  hwaits := Pipeline.hwaits_of_owed_zero _ _ _ _ L lv 3 fun _ _ => rfl
  pre c := iprop(StableHlo.held (c : Thread nD τ) (Pipeline.ucRefs τ sig) (W5 R1 R2 m ρ c) ∗ R c)
  post c := iprop(Tₙ R1 R2 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 R1 R2 m ρ c)
  hentry c := by
    rw [Pipeline.ownSems0_none]
    have hsp := Pipeline.unscopedBufs_split₀ (Ix := Unit) (Name := ℕ) (U := UR sig nD τ) (Lvl := ℕ) (Pipeline.pin (pcfgs (F := F)) adm) 3 winFacts₀3.arr_unscoped c (V5 R1 R2 m ρ c)
    rw [Pipeline.unscopedBufs_held] at hsp
    have hdeal := Pipeline.arrays_split_pair (Pipeline.pin (pcfgs (F := F)) adm) (pdats R1 R2 m ρ) 3 c arr_whole3 0 1 2
      (by decide : (Finset.univ : Finset (Fin 3)) = [0, 1, 2].toFinset) (by decide : ([0, 1, 2] : List (Fin 3)).Nodup)
      (by decide : Pipeline.arrRef spec3 1 = Pipeline.arrRef spec3 0) (by decide : [Pipeline.arrRef spec3 0, Pipeline.arrRef spec3 2].Nodup)
      fullShare.left fullShare.right (Idealize.SL.RA.PosShare.mem_left_op_right fullShare) rfl rfl rfl
      (V5 R1 R2 m ρ c) ((pdats R1 R2 m ρ 3 c).arrAt · 0) (fun w => A_eq3 (V5 R1 R2 m ρ) c w)
    rw [hsp]
    iintro ⟨⟨⟨Hab, Hrest⟩, Hp, HO⟩, -, -⟩
    ihave Ha := hdeal $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats R1 R2 m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats R1 R2 m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Pipeline.pin (pcfgs (F := F)) adm) 3 winFacts₀3.arr_unscoped c (V6 R1 R2 m ρ c)
    rw [Pipeline.unscopedBufs_held] at hsp
    have hjoin := Pipeline.arrays_join_pair (Pipeline.pin (pcfgs (F := F)) adm) (pdats R1 R2 m ρ) 3 c arr_whole3 0 1 2
      (by decide : (Finset.univ : Finset (Fin 3)) = [0, 1, 2].toFinset) (by decide : ([0, 1, 2] : List (Fin 3)).Nodup)
      (by decide : Pipeline.arrRef spec3 1 = Pipeline.arrRef spec3 0) (by decide : [Pipeline.arrRef spec3 0, Pipeline.arrRef spec3 2].Nodup)
      fullShare.left fullShare.right (Idealize.SL.RA.PosShare.mem_left_op_right fullShare) rfl rfl rfl
      (V6 R1 R2 m ρ c) ((pdats R1 R2 m ρ 3 c).arrAt · cfg3.N) (hF3 R1 R2 m ρ c)
    have hrest : (Pipeline.unscopedRest (Ix := Unit) (Name := ℕ) (U := UR sig nD τ) (Lvl := ℕ) (Pipeline.pin (pcfgs (F := F)) adm 3).spec c (V6 R1 R2 m ρ c) : sProp 𝕄)
        = Pipeline.unscopedRest spec3 c (V5 R1 R2 m ρ c) := by
      unfold Pipeline.unscopedRest
      exact bigSep_congr fun b hb => by rw [hrest3 R1 R2 m ρ c b (Finset.mem_sdiff.mp hb).2]
    unfold Tₙ
    rw [hsp, hrest]
    iintro ⟨Ha, HO, HY, Hrest⟩
    imodintro
    isplitl [Ha Hrest HY]
    · isplitl [Ha Hrest]
      · isplitl [Ha]
        · iapply hjoin; iexact Ha
        iexact Hrest
      iexact HY
    unfold Pipeline.Dat.owesAt Pipeline.owesWithin
    icases HO with ⟨%W, -, HO⟩; iexists W; iexact HO

/-! ## The program as segments, and the launch -/

theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-- The program's six items in order. -/
abbrev segs : List (Pipeline.Seg (pcfgs (F := F)) adm (pdats R1 R2 m ρ) () defs₀ 𝒱₀ L lv) :=
  [ .region (reg0 R1 R2 m ρ),
    .host (hseg hostOps1 hostOps1_sub hostOps1_fresh (W1 m ρ)),
    .region (reg1 R1 R2 m ρ),
    .region (reg2 R1 R2 m ρ),
    .host (hseg hostOps3 hostOps3_sub hostOps3_fresh (W4 R1 R2 m ρ)),
    .region (reg3 R1 R2 m ρ) ]
theorem main_run (c : Dev nD) : main (F := F) c = Pipeline.Seg.run (segs R1 R2 m ρ) := (main_chain c).trans (by chain_rfl)

set_option backward.isDefEq.respectTransparency.types false in
/-- THE RUN: from any memory with zero counters every weakly fair execution of the program terminates, nothing faulting,
    and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 R1 R2 m ρ c b) :=
  Pipeline.θ_run_regions_kit (pcfgs (F := F)) adm (pdats R1 R2 m ρ) () cellOf_inj emb₁ defs₀ 𝒱₀ L lv m ρ main (segs R1 R2 m ρ)
    (fun c Q => by rw [main_run R1 R2 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ R1 R2 m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 R1 R2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 R1 R2 m ρ c) s')
      isplitl [Hh] <;> iassumption)
    (hQ := fun s h c => h c)

end Cert.KernelIdeal.Hand

end
-- ==== Proof.KernelIdealHand.Reads.lean ====
/-
  Reading the last boundary's contents back through the program.

  No item writes an argument: a region reads it through an input window or passes it by, and neither host stretch names
  it as a result; so at the end every argument holds its launch contents. The results unwind the other way: the Gram
  matrix is what the last region leaves of the low column half; the two column halves are slices of what the third
  region leaves; that region was entered with the adjacency matrix as launched and with what the second region left;
  the second with the first product and the two weight matrices side by side. Stated at any float instance.
-/
import proofs.«114752_j31224412242681_2_alg».proof.Proof.Gen.KernelIdeal.Launch
import proofs.«114752_j31224412242681_2_alg».proof.Proof.Gen.KernelIdeal.Skeleton
import proofs.«114752_j31224412242681_2_alg».proof.Proof.Gen.KernelIdeal.Points
import proofs.«114752_j31224412242681_2_alg».proof.Proof.KernelIdealHand.Run
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (R1 : Region1Data F) (R2 : Region2Data F)
variable (m : (ℓ : Loc nD τ sig) → Buf (Elt F) ℓ) (ρ : Dev nD → PrngReg)

/-! ## What the host stretches leave alone -/

theorem W2_keep (c : Dev nD) (b : Ref sig .tc) (hb : b ≠ main_v1) : W2 m ρ c (Proc.devRef .tc b) = W1 m ρ c (Proc.devRef .tc b) :=
  StableHlo.after_of_forall_not_mem (b := Proc.devRef .tc b) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne hb))
theorem W5_keep (c : Dev nD) (b : Ref sig .tc) (hb4 : b ≠ main_v4) (hb5 : b ≠ main_v5) :
    W5 R1 R2 m ρ c (Proc.devRef .tc b) = W4 R1 R2 m ρ c (Proc.devRef .tc b) :=
  StableHlo.after_of_forall_not_mem (b := Proc.devRef .tc b) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      exact ⟨StableHlo.devRef_ne_of_ne hb4, StableHlo.devRef_ne_of_ne hb5⟩))

/-! ## The arguments end as launched -/

theorem W6_main_arg0 (c : Dev nD) : W6 R1 R2 m ρ c (Proc.devRef .tc main_arg0) = m ((c : Thread nD τ).loc main_arg0) :=
  calc W6 R1 R2 m ρ c (Proc.devRef .tc main_arg0)
    _ = W5 R1 R2 m ρ c (Proc.devRef .tc main_arg0) := W6_of_ne R1 R2 m ρ c main_arg0 (by decide)
    _ = W4 R1 R2 m ρ c (Proc.devRef .tc main_arg0) := W5_keep R1 R2 m ρ c main_arg0 (by decide) (by decide)
    _ = W3 R1 m ρ c (Proc.devRef .tc main_arg0) := W4_of_ne R1 R2 m ρ c main_arg0 (by decide)
    _ = W2 m ρ c (Proc.devRef .tc main_arg0) := W3_of_ne R1 m ρ c main_arg0 (by decide)
    _ = W1 m ρ c (Proc.devRef .tc main_arg0) := W2_keep m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_keep m ρ c main_arg1 (by decide)
    _ = W0 m ρ c (Proc.devRef .tc main_arg1) := W1_of_ne m ρ c main_arg1 (by decide)
    _ = m ((c : Thread nD τ).loc main_arg1) := rfl
theorem W3_main_arg1 (c : Dev nD) : W3 R1 m ρ c (Proc.devRef .tc main_arg1) = m ((c : Thread nD τ).loc main_arg1) :=
  ((W3_arr R1 m ρ c 0).trans (((R1.dat (V2 m ρ) c).arrAt_in 0 rfl _).trans (R1.A_eq (V2 m ρ) c 0))).trans (W2_main_arg1 m ρ c)
theorem W4_main_arg1 (c : Dev nD) : W4 R1 R2 m ρ c (Proc.devRef .tc main_arg1) = m ((c : Thread nD τ).loc main_arg1) :=
  ((W4_arr R1 R2 m ρ c 0).trans (((R2.dat (V3 R1 m ρ) c).arrAt_in 0 rfl _).trans (R2.A_eq (V3 R1 m ρ) c 0))).trans (W3_main_arg1 R1 m ρ c)
theorem W6_main_arg1 (c : Dev nD) : W6 R1 R2 m ρ c (Proc.devRef .tc main_arg1) = m ((c : Thread nD τ).loc main_arg1) :=
  calc W6 R1 R2 m ρ c (Proc.devRef .tc main_arg1)
    _ = W5 R1 R2 m ρ c (Proc.devRef .tc main_arg1) := W6_of_ne R1 R2 m ρ c main_arg1 (by decide)
    _ = W4 R1 R2 m ρ c (Proc.devRef .tc main_arg1) := W5_keep R1 R2 m ρ c main_arg1 (by decide) (by decide)
    _ = m ((c : Thread nD τ).loc main_arg1) := W4_main_arg1 R1 R2 m ρ c
theorem W6_main_arg2 (c : Dev nD) : W6 R1 R2 m ρ c (Proc.devRef .tc main_arg2) = m ((c : Thread nD τ).loc main_arg2) :=
  calc W6 R1 R2 m ρ c (Proc.devRef .tc main_arg2)
    _ = W5 R1 R2 m ρ c (Proc.devRef .tc main_arg2) := W6_of_ne R1 R2 m ρ c main_arg2 (by decide)
    _ = W4 R1 R2 m ρ c (Proc.devRef .tc main_arg2) := W5_keep R1 R2 m ρ c main_arg2 (by decide) (by decide)
    _ = W3 R1 m ρ c (Proc.devRef .tc main_arg2) := W4_of_ne R1 R2 m ρ c main_arg2 (by decide)
    _ = W2 m ρ c (Proc.devRef .tc main_arg2) := W3_of_ne R1 m ρ c main_arg2 (by decide)
    _ = W1 m ρ c (Proc.devRef .tc main_arg2) := W2_keep m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W1_main_arg3 (c : Dev nD) : W1 m ρ c (Proc.devRef .tc main_arg3) = m ((c : Thread nD τ).loc main_arg3) :=
  (W1_of_ne m ρ c main_arg3 (by decide)).trans rfl
theorem W1_main_arg4 (c : Dev nD) : W1 m ρ c (Proc.devRef .tc main_arg4) = m ((c : Thread nD τ).loc main_arg4) :=
  (W1_of_ne m ρ c main_arg4 (by decide)).trans rfl
theorem W6_main_arg3 (c : Dev nD) : W6 R1 R2 m ρ c (Proc.devRef .tc main_arg3) = m ((c : Thread nD τ).loc main_arg3) :=
  calc W6 R1 R2 m ρ c (Proc.devRef .tc main_arg3)
    _ = W5 R1 R2 m ρ c (Proc.devRef .tc main_arg3) := W6_of_ne R1 R2 m ρ c main_arg3 (by decide)
    _ = W4 R1 R2 m ρ c (Proc.devRef .tc main_arg3) := W5_keep R1 R2 m ρ c main_arg3 (by decide) (by decide)
    _ = W3 R1 m ρ c (Proc.devRef .tc main_arg3) := W4_of_ne R1 R2 m ρ c main_arg3 (by decide)
    _ = W2 m ρ c (Proc.devRef .tc main_arg3) := W3_of_ne R1 m ρ c main_arg3 (by decide)
    _ = W1 m ρ c (Proc.devRef .tc main_arg3) := W2_keep m ρ c main_arg3 (by decide)
    _ = m ((c : Thread nD τ).loc main_arg3) := W1_main_arg3 m ρ c
theorem W6_main_arg4 (c : Dev nD) : W6 R1 R2 m ρ c (Proc.devRef .tc main_arg4) = m ((c : Thread nD τ).loc main_arg4) :=
  calc W6 R1 R2 m ρ c (Proc.devRef .tc main_arg4)
    _ = W5 R1 R2 m ρ c (Proc.devRef .tc main_arg4) := W6_of_ne R1 R2 m ρ c main_arg4 (by decide)
    _ = W4 R1 R2 m ρ c (Proc.devRef .tc main_arg4) := W5_keep R1 R2 m ρ c main_arg4 (by decide) (by decide)
    _ = W3 R1 m ρ c (Proc.devRef .tc main_arg4) := W4_of_ne R1 R2 m ρ c main_arg4 (by decide)
    _ = W2 m ρ c (Proc.devRef .tc main_arg4) := W3_of_ne R1 m ρ c main_arg4 (by decide)
    _ = W1 m ρ c (Proc.devRef .tc main_arg4) := W2_keep m ρ c main_arg4 (by decide)
    _ = m ((c : Thread nD τ).loc main_arg4) := W1_main_arg4 m ρ c

/-! ## The frame -/

include R1 R2 in
/-- Every weakly fair execution terminates, nothing faulting, and every argument ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W6_main_arg0 R1 R2 m ρ c),
     (h c _ (mem_uc main_arg1 (by decide))).trans (W6_main_arg1 R1 R2 m ρ c),
     (h c _ (mem_uc main_arg2 (by decide))).trans (W6_main_arg2 R1 R2 m ρ c),
     (h c _ (mem_uc main_arg3 (by decide))).trans (W6_main_arg3 R1 R2 m ρ c),
     (h c _ (mem_uc main_arg4 (by decide))).trans (W6_main_arg4 R1 R2 m ρ c)⟩) (run_all R1 R2 m ρ)

/-! ## The results and the intermediate arrays, unwound -/

/-- The first product's array after the first region, still there when the second region is entered. -/
theorem W2_main_v0 (c : Dev nD) : W2 m ρ c (Proc.devRef .tc main_v0) = (dat0 (V0 m ρ) c).arrAt 2 cfg0.N :=
  (W2_keep m ρ c main_v0 (by decide)).trans (W1_arr m ρ c 2)
/-- The packed weights: the two weight matrices as launched, side by side. -/
theorem W2_main_v1 (c : Dev nD) : W2 m ρ c (Proc.devRef .tc main_v1)
    = concatenate S256x128 1 [⟨S256x64, m ((c : Thread nD τ).loc main_arg3)⟩, ⟨S256x64, m ((c : Thread nD τ).loc main_arg4)⟩] concatenates_S256x64_S256x64_S256x128_d1 := by
  rw [← W1_main_arg3 m ρ c, ← W1_main_arg4 m ρ c]
  show StableHlo.after hostOps1 _ (Proc.devRef .tc main_v1) = _
  after_results
/-- What the second region leaves in its output array, seen at the third region's entry. -/
theorem W3_main_v2 (c : Dev nD) : W3 R1 m ρ c (Proc.devRef .tc main_v2) = (R1.dat (V2 m ρ) c).arrAt 3 cfg1.N :=
  W3_arr R1 m ρ c 3
/-- What the third region leaves in its output array. -/
theorem W4_main_v3 (c : Dev nD) : W4 R1 R2 m ρ c (Proc.devRef .tc main_v3) = (R2.dat (V3 R1 m ρ) c).arrAt 2 cfg2.N :=
  W4_arr R1 R2 m ρ c 2
/-- The low column half, as the last region finds it and as the program returns it. -/
theorem W5_main_v4 (c : Dev nD) : W5 R1 R2 m ρ c (Proc.devRef .tc main_v4)
    = extractStridedSlice S8192x64 ![0, 0] ((R2.dat (V3 R1 m ρ) c).arrAt 2 cfg2.N) slices_S8192x128_S8192x64_0_0 := by
  rw [← W4_main_v3 R1 R2 m ρ c]
  show StableHlo.after hostOps3 _ (Proc.devRef .tc main_v4) = _
  after_results
/-- The high column half. -/
theorem W5_main_v5 (c : Dev nD) : W5 R1 R2 m ρ c (Proc.devRef .tc main_v5)
    = extractStridedSlice S8192x64 ![0, 64] ((R2.dat (V3 R1 m ρ) c).arrAt 2 cfg2.N) slices_S8192x128_S8192x64_0_64 := by
  rw [← W4_main_v3 R1 R2 m ρ c]
  show StableHlo.after hostOps3 _ (Proc.devRef .tc main_v5) = _
  after_results
theorem W6_main_v4 (c : Dev nD) : W6 R1 R2 m ρ c (Proc.devRef .tc main_v4) = W5 R1 R2 m ρ c (Proc.devRef .tc main_v4) :=
  W6_of_ne R1 R2 m ρ c main_v4 (by decide)
theorem W6_main_v5 (c : Dev nD) : W6 R1 R2 m ρ c (Proc.devRef .tc main_v5) = W5 R1 R2 m ρ c (Proc.devRef .tc main_v5) :=
  W6_of_ne R1 R2 m ρ c main_v5 (by decide)

end Cert.KernelIdeal.Hand

end
-- ==== Proof.KernelIdealHand.Region1.Runs.lean ====
/- Region 1 of @main (the second pallas_call: the accumulated product, then the rectified product with the
   concatenated weights): what the three control cases of its body share. The blocks of the windows read off
   the entry contents, the two branch conditions in closed form over the grid, where the output window is idle,
   the staging and scratch memrefs, and the region invariant split at the carried scratch. -/
import proofs.«114752_j31224412242681_2_alg».proof.Proof.Gen.KernelIdeal.Launch
import proofs.«114752_j31224412242681_2_alg».proof.Proof.Gen.KernelIdeal.Skeleton
import proofs.«114752_j31224412242681_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional: the reduction coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional: the reduction coordinate is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S2048x128 .bf16 := (Memref.whole cc1_stg3_0 : Memref sig .tc .vmem S2048x128 .bf16).view
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .bf16 := win1_3.stage (cfg1.slots t 3)
abbrev hs1_3 (t : Fin cfg1.N) : (ms1_3 t).IsWhole := hstage1_3 ((cfg1.slots t 3).cast nbuf1_3)
/-- The scratch operand: a whole scoped buffer of the kernel's own, carried between points. -/
abbrev scM1_0 : Memref sig .tc .vmem S2048x256 .f32 := Memref.whole cc1_scratch0
abbrev VS1_0 : View sig .tc .vmem S2048x256 .f32 := scM1_0.view

/-- The core's scoped buffers that are neither a staging buffer of this call nor its scratch, at some contents each:
    carried along unopened. -/
abbrev rest1 (c : Dev nD) : sProp 𝕄 :=
  Pipeline.scopedRestBut (Ix := Unit) (Name := ℕ) (U := UR sig nD τ) (Lvl := ℕ) (Val := Elt F) spec1 c [cc1_scratch0]

/-- The region invariant split at the call's own scratch. -/
theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA
  rw [Pipeline.scopedRest_split_of_list spec1 c [cc1_scratch0] (by decide) (by decide)]
  simp only [scM1_0, owns_whole, bigSepL_singleton]; try rfl

end Cert.KernelIdeal.Hand

end
-- ==== Proof.KernelIdealHand.Region1.RunA.lean ====
/- Region 1's body run whole in case A: the first reduction step of a row block (the scratch zeroed, then the first partial product added). The pieces each buffer ends with are the witness the run finds. -/
import proofs.«114752_j31224412242681_2_alg».proof.Proof.KernelIdealHand.Region1.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body in case A, on whole memrefs: the inputs at their contents, the output block (idle here) at contents handed back untouched,
    the scratch at anything; it runs to the continuation holding the inputs as they were, the output block as it was and
    the scratch with its pieces written. -/
noncomputable def kernelRun1_A (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : cond1_0 i) (hc1 : ¬cond1_1 i)
    (x0 : Vec F S2048x1024 .f32) (x1 : Vec F S8192x256 .bf16) (x2 : Vec F S256x128 .f32) :
    Σ' (L3 : List (View.Piece (Elt F) S2048x128 .bf16)), { LS0 : List (View.Piece (Elt F) S2048x256 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__hidden_support2_kernel i arg2 harg2 arg3 harg3 arg4 harg4 arg5 harg5 arg6 harg6) K } := by
  refine ⟨[], ?_, fun xi3 E K => ?run⟩
  case run =>
    simp only [cc1__hidden_support2_kernel_eq_skeleton]; unfold cc1__hidden_support2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KernelIdealHand.Region1.RunB.lean ====
/- Region 1's body run whole in case B: a middle reduction step (one more partial product added to the scratch). The pieces each buffer ends with are the witness the run finds. -/
import proofs.«114752_j31224412242681_2_alg».proof.Proof.KernelIdealHand.Region1.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body in case B, on whole memrefs: the inputs at their contents, the output block (idle here) at contents handed back untouched,
    the scratch at what the point before left; it runs to the continuation holding the inputs as they were, the output block as it was and
    the scratch with its pieces written. -/
noncomputable def kernelRun1_B (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : ¬cond1_0 i) (hc1 : ¬cond1_1 i)
    (x0 : Vec F S2048x1024 .f32) (x1 : Vec F S8192x256 .bf16) (x2 : Vec F S256x128 .f32) (xs0 : Vec F S2048x256 .f32) :
    Σ' (L3 : List (View.Piece (Elt F) S2048x128 .bf16)), { LS0 : List (View.Piece (Elt F) S2048x256 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__hidden_support2_kernel i arg2 harg2 arg3 harg3 arg4 harg4 arg5 harg5 arg6 harg6) K } := by
  refine ⟨[], ?_, fun xi3 E K => ?run⟩
  case run =>
    simp only [cc1__hidden_support2_kernel_eq_skeleton]; unfold cc1__hidden_support2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KernelIdealHand.Region1.RunC.lean ====
/- Region 1's body run whole in case C: the last reduction step (the last partial product added, then the rectified sum times the weights stored into the output block). The pieces each buffer ends with are the witness the run finds. -/
import proofs.«114752_j31224412242681_2_alg».proof.Proof.KernelIdealHand.Region1.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body in case C, on whole memrefs: the inputs at their contents, the output block at anything,
    the scratch at what the point before left; it runs to the continuation holding the inputs as they were, the output block with its pieces written and
    the scratch with its pieces written. -/
noncomputable def kernelRun1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : ¬cond1_0 i) (hc1 : cond1_1 i)
    (x0 : Vec F S2048x1024 .f32) (x1 : Vec F S8192x256 .bf16) (x2 : Vec F S256x128 .f32) (xs0 : Vec F S2048x256 .f32) :
    Σ' (L3 : List (View.Piece (Elt F) S2048x128 .bf16)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__hidden_support2_kernel i arg2 harg2 arg3 harg3 arg4 harg4 arg5 harg5 arg6 harg6) K } := by
  refine ⟨?_, ?_, fun E K => ?run⟩
  case run =>
    simp only [cc1__hidden_support2_kernel_eq_skeleton]; unfold cc1__hidden_support2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KernelIdealHand.Region1.lean ====
/- Region 1 of @main, its record for the assembled run: what the output block and the carried scratch hold after
   each grid point (case by case, then point by point), the proof data at a parameter `V` (the TensorCore's buffer
   contents when the region is entered), the invariant carrying the scratch from point to point, and the body
   obligation at every point. -/
import proofs.«114752_j31224412242681_2_alg».proof.Proof.KernelIdealHand.Region1.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What case A leaves in the output's staging buffer: its pieces read back (none: a placeholder nothing consults, the window idle there). -/
def out1_A_3 (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : cond1_0 i) (hc1 : ¬cond1_1 i)
    (x0 : Vec F S2048x1024 .f32) (x1 : Vec F S8192x256 .bf16) (x2 : Vec F S256x128 .f32) : Vec F S2048x128 .bf16 :=
  VO1_3.read (Elt F) (VO1_3.writes (Elt F) VO1_3.junk (kernelRun1_A c i arg2 harg2 arg3 harg3 arg4 harg4 arg5 harg5 arg6 harg6 hc0 hc1 x0 x1 x2).1)

/-- Case A's pieces for the scratch cover it. -/
theorem scover1_A_0 (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : cond1_0 i) (hc1 : ¬cond1_1 i)
    (x0 : Vec F S2048x1024 .f32) (x1 : Vec F S8192x256 .bf16) (x2 : Vec F S256x128 .f32) (y : S2048x256.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x256.size (by sl_kernel_rfl) y

/-- What case A leaves in the scratch: its pieces read back. -/
def sout1_A_0 (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : cond1_0 i) (hc1 : ¬cond1_1 i)
    (x0 : Vec F S2048x1024 .f32) (x1 : Vec F S8192x256 .bf16) (x2 : Vec F S256x128 .f32) : Vec F S2048x256 .f32 :=
  VS1_0.read (Elt F) (VS1_0.writes (Elt F) VS1_0.junk (kernelRun1_A c i arg2 harg2 arg3 harg3 arg4 harg4 arg5 harg5 arg6 harg6 hc0 hc1 x0 x1 x2).2.1)

/-- What case B leaves in the output's staging buffer: its pieces read back (none: a placeholder nothing consults, the window idle there). -/
def out1_B_3 (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : ¬cond1_0 i) (hc1 : ¬cond1_1 i)
    (x0 : Vec F S2048x1024 .f32) (x1 : Vec F S8192x256 .bf16) (x2 : Vec F S256x128 .f32) (xs0 : Vec F S2048x256 .f32) : Vec F S2048x128 .bf16 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for the scratch cover it. -/
theorem scover1_B_0 (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : ¬cond1_0 i) (hc1 : ¬cond1_1 i)
    (x0 : Vec F S2048x1024 .f32) (x1 : Vec F S8192x256 .bf16) (x2 : Vec F S256x128 .f32) (xs0 : Vec F S2048x256 .f32) (y : S2048x256.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2048x256.size (by sl_kernel_rfl) y

/-- What case B leaves in the scratch: its pieces read back. -/
def sout1_B_0 (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : ¬cond1_0 i) (hc1 : ¬cond1_1 i)
    (x0 : Vec F S2048x1024 .f32) (x1 : Vec F S8192x256 .bf16) (x2 : Vec F S256x128 .f32) (xs0 : Vec F S2048x256 .f32) : Vec F S2048x256 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's pieces for the output block cover it. -/
theorem cover1_C_3 (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : ¬cond1_0 i) (hc1 : cond1_1 i)
    (x0 : Vec F S2048x1024 .f32) (x1 : Vec F S8192x256 .bf16) (x2 : Vec F S256x128 .f32) (xs0 : Vec F S2048x256 .f32) (y : S2048x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x128.size (by sl_kernel_rfl) y

/-- What case C leaves in the output's staging buffer: its pieces read back. -/
def out1_C_3 (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : ¬cond1_0 i) (hc1 : cond1_1 i)
    (x0 : Vec F S2048x1024 .f32) (x1 : Vec F S8192x256 .bf16) (x2 : Vec F S256x128 .f32) (xs0 : Vec F S2048x256 .f32) : Vec F S2048x128 .bf16 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for the scratch cover it. -/
theorem scover1_C_0 (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : ¬cond1_0 i) (hc1 : cond1_1 i)
    (x0 : Vec F S2048x1024 .f32) (x1 : Vec F S8192x256 .bf16) (x2 : Vec F S256x128 .f32) (xs0 : Vec F S2048x256 .f32) (y : S2048x256.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x256.size (by sl_kernel_rfl) y

/-- What case C leaves in the scratch: its pieces read back. -/
def sout1_C_0 (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : ¬cond1_0 i) (hc1 : cond1_1 i)
    (x0 : Vec F S2048x1024 .f32) (x1 : Vec F S8192x256 .bf16) (x2 : Vec F S256x128 .f32) (xs0 : Vec F S2048x256 .f32) : Vec F S2048x256 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output block and the scratch hold after each point -/

/-- After the body at position `n`: the output's staging buffer and the carried scratch (a pair), by the case the
    closed forms select at `n`, run at the point's memrefs and input blocks, the scratch at what `n - 1` left. -/
def outsAt1 (c : Dev nD) : (n : ℕ) → n < cfg1.N → Vec F S2048x128 .bf16 × Vec F S2048x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carrying the scratch -/

/-- Before position `n`: before the first point the class's invariant (every scoped buffer that is no staging buffer
    at anything); afterwards the carried scratch at what the point before left in it, the other scoped buffers at
    anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

/-! ## The proof data -/

/-- The proof data of pipeline 1 on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at a point of case A. -/
theorem sound_body1_A (c : Dev nD) (t : Fin cfg1.N) (h0 : t.val % 8 = 0) (h1 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
  rw [outsAt1_A V c t h0 h1]
  unfold sout1_A_0; (try dsimp only)
  by_cases hz : t.val = 0
  · rw [PhiS1_castSucc V c t, PhiS1_zero V c _ _ hz, PhiA1_eq]
    iintro ⟨⟨⟨HS0, Hr⟩, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover1_A_0 c _ _ _ _ _ _ _ _ _ _ _ _ _ _ _ _)
        iexact Hr
      iexact Hg
    isplitl [Ho]; · iexact Ho
    isplitl [H0]; · iexact H0
    isplitl [H1]; · iexact H1
    isplitl [H2]; · iexact H2
    iexists _; iexact H3
  · rw [PhiS1_castSucc V c t, PhiS1_pos V c _ _ hz]
    iintro ⟨⟨⟨HS0, Hr⟩, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS0]; · iexists _; iexact HS0
    iintro ⟨H0, H1, H2, H3, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover1_A_0 c _ _ _ _ _ _ _ _ _ _ _ _ _ _ _ _)
        iexact Hr
      iexact Hg
    isplitl [Ho]; · iexact Ho
    isplitl [H0]; · iexact H0
    isplitl [H1]; · iexact H1
    isplitl [H2]; · iexact H2
    iexists _; iexact H3

set_option maxHeartbeats 4800000 in
/-- The body at a point of case B. -/
theorem sound_body1_B (c : Dev nD) (t : Fin cfg1.N) (h0 : ¬t.val % 8 = 0) (h1 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
  rw [outsAt1_B V c t h0 h1]
  unfold sout1_B_0; (try dsimp only)
  have hz : t.val ≠ 0 := fun hz => h0 (by rw [hz])
  rw [PhiS1_castSucc V c t, PhiS1_pos V c _ _ hz]
  iintro ⟨⟨⟨HS0, Hr⟩, Hg⟩, Ho, ⟨%d0, H0⟩, ⟨%d1, H1⟩, ⟨%d2, H2⟩, ⟨%d3, H3⟩⟩
  iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
  isplitl [H0]; · iexact H0
  isplitl [H1]; · iexact H1
  isplitl [H2]; · iexact H2
  isplitl [H3]; · iexact H3
  isplitl [HS0]; · iexact HS0
  iintro ⟨H0, H1, H2, H3, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover1_B_0 c _ _ _ _ _ _ _ _ _ _ _ _ _ _ _ _ _)
      iexact Hr
    iexact Hg
  isplitl [Ho]; · iexact Ho
  isplitl [H0]; · iexact H0
  isplitl [H1]; · iexact H1
  isplitl [H2]; · iexact H2
  iexists _; iexact H3

set_option maxHeartbeats 4800000 in
/-- The body at a point of case C. -/
theorem sound_body1_C (c : Dev nD) (t : Fin cfg1.N) (h0 : ¬t.val % 8 = 0) (h1 : t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3_C t (fun h => h0 ((hcond1_0 t).mp h)) ((hcond1_1 t).mpr h1)], after1_3]
  rw [outsAt1_C V c t h0 h1]
  unfold out1_C_3 sout1_C_0; (try dsimp only)
  have hz : t.val ≠ 0 := fun hz => h0 (by rw [hz])
  rw [PhiS1_castSucc V c t, PhiS1_pos V c _ _ hz]
  iintro ⟨⟨⟨HS0, Hr⟩, Hg⟩, Ho, ⟨%d0, H0⟩, ⟨%d1, H1⟩, ⟨%d2, H2⟩, ⟨%d3, H3⟩⟩
  iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover1_C_0 c _ _ _ _ _ _ _ _ _ _ _ _ _ _ _ _ _)
      iexact Hr
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_C_3 c _ _ _ _ _ _ _ _ _ _ _ _ _ _ _ _ _)

/-- The body at any point: the inputs' memrefs hold their blocks; the closed forms say which case the point is in; the
    invariant hands the body the carried scratch at what the point before left (at anything before the first point, and
    at a row block's first step the contents are forgotten), the other scoped buffers and the generator register pass
    through, and the scratch is taken back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 8 = 0
  · exact sound_body1_A V c t h0 (by omega)
  · by_cases h1 : t.val % 8 = 7
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.KernelIdealHand.Region2.Runs.lean ====
/- Region 2 of @main (the third pallas_call, the product adj · main_v2 accumulated over eight column blocks of adj):
   what the three control cases of its body share. The grid is 4 × 8; point t has coordinates (t / 8, t % 8) = (i, k).
   The body zeroes the carried accumulator when k = 0, adds the product of the adj block (i, k) with rows
   1024·k … 1024·k + 1023 of the resident operand at every point, and stores the accumulator into the output block
   when k = 7. -/
import proofs.«114752_j31224412242681_2_alg».proof.Proof.Gen.KernelIdeal.Launch
import proofs.«114752_j31224412242681_2_alg».proof.Proof.Gen.KernelIdeal.Skeleton
import proofs.«114752_j31224412242681_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the adj block) holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the resident operand, fetched once) holds the whole array at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's branch conditions -/

/-- The condition of the body's first conditional: the second grid coordinate is 0. -/
abbrev cond2_0 (i : grid2.Coords) : Prop := (Scalar.cmpi .ne (Scalar.extui (Scalar.cmpi .eq (BitVec.ofNat 32 (i 1).val) 0#32)) 0#32) = 1#1
/-- It holds at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)

/-- The condition of the body's second conditional: the second grid coordinate is 7. -/
abbrev cond2_1 (i : grid2.Coords) : Prop := k2_cond2 i = 1#1
/-- It holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Where the second conditional fails the output window is idle, -/
theorem idleAt2_2 : ∀ t : Fin cfg2.N, ¬cond2_1 (grid2.coords t) → cfg2.idle 2 (grid2.coords t) = true := by decide +kernel
/-- and its block is not written back there. -/
theorem noFlush2_2 : ∀ t : Fin cfg2.N, ¬cond2_1 (grid2.coords t) → (cfg2.win 2).flush t = false := by decide +kernel
/-- Where it holds the output window is live. -/
theorem liveAt2_2 : ∀ t : Fin cfg2.N, cond2_1 (grid2.coords t) → cfg2.idle 2 (grid2.coords t) = false := by decide +kernel

/-! ## The staging and scratch memrefs -/

/-- One staging buffer of the output window, through which its contents are stated. -/
abbrev VO2_2 : View sig .tc .vmem S2048x128 .f32 := (Memref.whole cc2_stg2_0 : Memref sig .tc .vmem S2048x128 .f32).view
abbrev ms2_0 (t : Fin cfg2.N) : Memref sig .tc .vmem S2048x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x128 .f32 := win2_2.stage (cfg2.slots t 2)
abbrev hs2_2 (t : Fin cfg2.N) : (ms2_2 t).IsWhole := hstage2_2 ((cfg2.slots t 2).cast nbuf2_2)
/-- The accumulator: a whole scoped buffer of the kernel's own, passed beside the windows. -/
abbrev scM2_0 : Memref sig .tc .vmem S2048x128 .f32 := Memref.whole cc2_scratch0
abbrev VS2_0 : View sig .tc .vmem S2048x128 .f32 := scM2_0.view

/-! ## The region invariant, with the accumulator named -/

/-- The core's scoped buffers other than this call's staging buffers and accumulator (the other calls' staging
    buffers and the other call's scratch), each at some contents, and the generator register at some state: what the
    body never touches. -/
def Rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ r, prngReg c r))

/-- The class's invariant hands out the accumulator at some contents and the rest, -/
theorem PhiA2_split (c : Dev nD) :
    (Pipeline.ΦA spec2 c : sProp 𝕄) ⊢ iprop((∃ d, owns (c : Thread nD τ) scM2_0 fullShare d) ∗ Rest2 (F := F) c) := by
  unfold Pipeline.ΦA Rest2; rw [scopedRest2_eq]; simp only [scM2_0, owns_whole]
  iintro ⟨⟨H0, H1, H2, H3, H4, H5, H6, H7, H8, H9, H10, H11, H12, H13, H14, H15, H16, H17, H18⟩, Hg⟩
  isplitl [H12]; · iexact H12
  iframe

/-- and takes them back. -/
theorem PhiA2_join (c : Dev nD) :
    iprop((∃ d, owns (c : Thread nD τ) scM2_0 fullShare d) ∗ Rest2 (F := F) c) ⊢ (Pipeline.ΦA spec2 c : sProp 𝕄) := by
  unfold Pipeline.ΦA Rest2; rw [scopedRest2_eq]; simp only [scM2_0, owns_whole]
  iintro ⟨H12, H0, H1, H2, H3, H4, H5, H6, H7, H8, H9, H10, H11, H13, H14, H15, H16, H17, H18, Hg⟩
  iframe

end Cert.KernelIdeal.Hand

end
-- ==== Proof.KernelIdealHand.Region2.RunA.lean ====
/- Region 2, the body's run at the points where the second grid coordinate is 0: the accumulator is zeroed, then
   the point's product is added; the output window is not stored. -/
import proofs.«114752_j31224412242681_2_alg».proof.Proof.KernelIdealHand.Region2.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output window's buffer (none) and in the accumulator, with the proof that on
    whole memrefs — the inputs' at their contents, the output's at contents handed back untouched, the accumulator at
    anything — the body runs to the continuation holding the inputs and the output as they were and the accumulator
    with its pieces written. -/
noncomputable def kernelRun2_A (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : ¬cond2_1 i)
    (x0 : Vec F S2048x1024 .f32) (x1 : Vec F S8192x128 .bf16) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__z_kernel i arg2 harg2 arg3 harg3 arg4 harg4 arg5 harg5) K } := by
  refine ⟨[], ?_, fun xi2 E K => ?run⟩
  case run =>
    simp only [cc2__z_kernel_eq_skeleton]; unfold cc2__z_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KernelIdealHand.Region2.RunB.lean ====
/- Region 2, the body's run at the points where the second grid coordinate is neither 0 nor 7: the point's product is
   added to the accumulator the point before left; the output window is not stored. -/
import proofs.«114752_j31224412242681_2_alg».proof.Proof.KernelIdealHand.Region2.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output window's buffer (none) and in the accumulator, with the proof that on
    whole memrefs — the inputs' at their contents, the output's at contents handed back untouched, the accumulator at
    what the point before left (`xs0`) — the body runs to the continuation holding the inputs and the output as they
    were and the accumulator with its pieces written. -/
noncomputable def kernelRun2_B (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : ¬cond2_1 i)
    (x0 : Vec F S2048x1024 .f32) (x1 : Vec F S8192x128 .bf16) (xs0 : Vec F S2048x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__z_kernel i arg2 harg2 arg3 harg3 arg4 harg4 arg5 harg5) K } := by
  refine ⟨[], ?_, fun xi2 E K => ?run⟩
  case run =>
    simp only [cc2__z_kernel_eq_skeleton]; unfold cc2__z_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KernelIdealHand.Region2.RunC.lean ====
/- Region 2, the body's run at the points where the second grid coordinate is 7: the point's product is added to the
   accumulator the point before left, and the accumulator is stored into the output window's buffer. -/
import proofs.«114752_j31224412242681_2_alg».proof.Proof.KernelIdealHand.Region2.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output window's buffer and in the accumulator, with the proof that on whole
    memrefs — the inputs' at their contents, the output's at anything, the accumulator at what the point before left
    (`xs0`) — the body runs to the continuation holding the inputs as they were and the output's buffer and the
    accumulator with their pieces written. -/
noncomputable def kernelRun2_C (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i)
    (x0 : Vec F S2048x1024 .f32) (x1 : Vec F S8192x128 .bf16) (xs0 : Vec F S2048x128 .f32) :
    Σ' (L2 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__z_kernel i arg2 harg2 arg3 harg3 arg4 harg4 arg5 harg5) K } := by
  refine ⟨?_, ?_, fun E K => ?run⟩
  case run =>
    simp only [cc2__z_kernel_eq_skeleton]; unfold cc2__z_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KernelIdealHand.Region2.lean ====
/- Region 2 of @main (the third pallas_call): the pieces its body leaves per control case, what the output
   window's buffer and the carried accumulator hold after each grid point, the proof data, and the body obligation.
   The grid is 4 × 8, point t = (t / 8, t % 8) = (i, k): at k = 0 the accumulator is zeroed and the point's product
   added (case A); at 0 < k < 7 the product is added onto what the point before left (case B); at k = 7 it is added
   and the accumulator stored into the output block (case C). -/
import proofs.«114752_j31224412242681_2_alg».proof.Proof.KernelIdealHand.Region2.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A stores nothing into the output window: a placeholder nothing consults. -/
def out2_A_2 (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : ¬cond2_1 i)
    (x0 : Vec F S2048x1024 .f32) (x1 : Vec F S8192x128 .bf16) : Vec F S2048x128 .f32 :=
  VO2_2.read (Elt F) (VO2_2.writes (Elt F) VO2_2.junk (kernelRun2_A c i arg2 harg2 arg3 harg3 arg4 harg4 arg5 harg5 hc0 hc1 x0 x1).1)

/-- Case A's pieces for the accumulator cover it. -/
theorem scover2_A_0 (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : ¬cond2_1 i)
    (x0 : Vec F S2048x1024 .f32) (x1 : Vec F S8192x128 .bf16) (y : S2048x128.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S2048x128.size (by sl_kernel_rfl) y

/-- What case A leaves in the accumulator: its pieces read back. -/
def sout2_A_0 (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : ¬cond2_1 i)
    (x0 : Vec F S2048x1024 .f32) (x1 : Vec F S8192x128 .bf16) : Vec F S2048x128 .f32 :=
  VS2_0.read (Elt F) (VS2_0.writes (Elt F) VS2_0.junk (kernelRun2_A c i arg2 harg2 arg3 harg3 arg4 harg4 arg5 harg5 hc0 hc1 x0 x1).2.1)

/-- Case B stores nothing into the output window: a placeholder nothing consults. -/
def out2_B_2 (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : ¬cond2_1 i)
    (x0 : Vec F S2048x1024 .f32) (x1 : Vec F S8192x128 .bf16) (xs0 : Vec F S2048x128 .f32) : Vec F S2048x128 .f32 :=
  VO2_2.read (Elt F) (VO2_2.writes (Elt F) VO2_2.junk (kernelRun2_B c i arg2 harg2 arg3 harg3 arg4 harg4 arg5 harg5 hc0 hc1 x0 x1 xs0).1)

/-- Case B's pieces for the accumulator cover it. -/
theorem scover2_B_0 (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : ¬cond2_1 i)
    (x0 : Vec F S2048x1024 .f32) (x1 : Vec F S8192x128 .bf16) (xs0 : Vec F S2048x128 .f32) (y : S2048x128.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S2048x128.size (by sl_kernel_rfl) y

/-- What case B leaves in the accumulator: its pieces read back. -/
def sout2_B_0 (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : ¬cond2_1 i)
    (x0 : Vec F S2048x1024 .f32) (x1 : Vec F S8192x128 .bf16) (xs0 : Vec F S2048x128 .f32) : Vec F S2048x128 .f32 :=
  VS2_0.read (Elt F) (VS2_0.writes (Elt F) VS2_0.junk (kernelRun2_B c i arg2 harg2 arg3 harg3 arg4 harg4 arg5 harg5 hc0 hc1 x0 x1 xs0).2.1)

/-- Case C's pieces for the output window tile its block, so they cover it. -/
theorem cover2_C_2 (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i)
    (x0 : Vec F S2048x1024 .f32) (x1 : Vec F S8192x128 .bf16) (xs0 : Vec F S2048x128 .f32) (y : S2048x128.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S2048x128.size (by sl_kernel_rfl) y

/-- What case C leaves in the output window's buffer: its pieces read back. -/
def out2_C_2 (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i)
    (x0 : Vec F S2048x1024 .f32) (x1 : Vec F S8192x128 .bf16) (xs0 : Vec F S2048x128 .f32) : Vec F S2048x128 .f32 :=
  VO2_2.read (Elt F) (VO2_2.writes (Elt F) VO2_2.junk (kernelRun2_C c i arg2 harg2 arg3 harg3 arg4 harg4 arg5 harg5 hc0 hc1 x0 x1 xs0).1)

/-- Case C's pieces for the accumulator cover it. -/
theorem scover2_C_0 (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i)
    (x0 : Vec F S2048x1024 .f32) (x1 : Vec F S8192x128 .bf16) (xs0 : Vec F S2048x128 .f32) (y : S2048x128.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S2048x128.size (by sl_kernel_rfl) y

/-- What case C leaves in the accumulator: its pieces read back. -/
def sout2_C_0 (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i)
    (x0 : Vec F S2048x1024 .f32) (x1 : Vec F S8192x128 .bf16) (xs0 : Vec F S2048x128 .f32) : Vec F S2048x128 .f32 :=
  VS2_0.read (Elt F) (VS2_0.writes (Elt F) VS2_0.junk (kernelRun2_C c i arg2 harg2 arg3 harg3 arg4 harg4 arg5 harg5 hc0 hc1 x0 x1 xs0).2.1)

section Region2
variable (V : (c : Dev nD) → (b : Ref sig .tc) → Buf (Elt F) ((c : Thread nD τ).loc b))

/-! ## What the output's buffer and the accumulator hold after each point -/

/-- The pair (output window's buffer, accumulator) a point of case A leaves, at the point's memrefs and input blocks. -/
def outA2 (c : Dev nD) (t : Fin cfg2.N) (h0 : t.val % 8 = 0) (h1 : ¬t.val % 8 = 7) : Vec F S2048x128 .f32 × Vec F S2048x128 .f32 :=
  (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t),
   sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t))

/-- The pair a point of case B leaves, over the accumulator `xs` the point before left. -/
def outB2 (c : Dev nD) (t : Fin cfg2.N) (h0 : ¬t.val % 8 = 0) (h1 : ¬t.val % 8 = 7) (xs : Vec F S2048x128 .f32) : Vec F S2048x128 .f32 × Vec F S2048x128 .f32 :=
  (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) xs,
   sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) xs)

/-- The pair a point of case C leaves, over the accumulator `xs` the point before left. -/
def outC2 (c : Dev nD) (t : Fin cfg2.N) (h0 : ¬t.val % 8 = 0) (h1 : t.val % 8 = 7) (xs : Vec F S2048x128 .f32) : Vec F S2048x128 .f32 × Vec F S2048x128 .f32 :=
  (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) xs,
   sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) xs)

/-- THE ACCUMULATION. What the output window's buffer and the accumulator hold after the body at position `n`: the
    case the closed forms select at `n`, over the accumulator position `n - 1` left. -/
def outsAt2 (c : Dev nD) : (n : ℕ) → n < cfg2.N → Vec F S2048x128 .f32 × Vec F S2048x128 .f32
  | 0, hn => outA2 V c ⟨0, hn⟩ (Nat.zero_mod _) (by show ¬(0 % 8 = 7); decide)
  | n + 1, hn =>
    if h0 : (n + 1) % 8 = 0 then
      if h1 : (n + 1) % 8 = 7 then False.elim (by omega)
      else outA2 V c ⟨n + 1, hn⟩ h0 h1
    else
      if h1 : (n + 1) % 8 = 7 then outC2 V c ⟨n + 1, hn⟩ h0 h1 (outsAt2 c n (Nat.lt_of_succ_lt hn)).2
      else outB2 V c ⟨n + 1, hn⟩ h0 h1 (outsAt2 c n (Nat.lt_of_succ_lt hn)).2

/-- `outsAt2` at a point of case A. -/
theorem outsAt2_A (c : Dev nD) (t : Fin cfg2.N) (h0 : t.val % 8 = 0) (h1 : ¬t.val % 8 = 7) :
    outsAt2 V c t.val t.isLt = outA2 V c t h0 h1 := by
  obtain ⟨n, hn⟩ := t
  cases n with
  | zero => exact rfl
  | succ n => exact (dif_pos h0).trans ((dif_neg h1).trans rfl)

/-- `outsAt2` at a point of case B: over what the point before left. -/
theorem outsAt2_B (c : Dev nD) (t : Fin cfg2.N) (h0 : ¬t.val % 8 = 0) (h1 : ¬t.val % 8 = 7) :
    outsAt2 V c t.val t.isLt = outB2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: over what the point before left. -/
theorem outsAt2_C (c : Dev nD) (t : Fin cfg2.N) (h0 : ¬t.val % 8 = 0) (h1 : t.val % 8 = 7) :
    outsAt2 V c t.val t.isLt = outC2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: the accumulator at anything before the first point, afterwards at what the point before
    left in it; beside it the scoped buffers the body never touches and the generator register (`Rest2`). -/
def PhiS2 (c : Dev nD) : (n : ℕ) → n ≤ cfg2.N → sProp 𝕄
  | 0, _ => iprop((∃ d, owns (c : Thread nD τ) scM2_0 fullShare d) ∗ Rest2 (F := F) c)
  | n + 1, hn => iprop(owns (c : Thread nD τ) scM2_0 fullShare ((outsAt2 V c n hn).2) ∗ Rest2 (F := F) c)

theorem PhiS2_zero (c : Dev nD) (n : ℕ) (h : n ≤ cfg2.N) (hz : n = 0) :
    PhiS2 V c n h = iprop((∃ d, owns (c : Thread nD τ) scM2_0 fullShare d) ∗ Rest2 (F := F) c) := by
  subst hz; rfl

theorem PhiS2_succ (c : Dev nD) (n : ℕ) (hn : n < cfg2.N) :
    PhiS2 V c (n + 1) hn = iprop(owns (c : Thread nD τ) scM2_0 fullShare ((outsAt2 V c n hn).2) ∗ Rest2 (F := F) c) := rfl

theorem PhiS2_pos (c : Dev nD) (n : ℕ) (h : n ≤ cfg2.N) (hz : n ≠ 0) :
    PhiS2 V c n h = iprop(owns (c : Thread nD τ) scM2_0 fullShare ((outsAt2 V c (n - 1) (by omega)).2) ∗ Rest2 (F := F) c) := by
  cases n with
  | zero => exact absurd rfl hz
  | succ n => rfl

/-! ## The pipeline's proof data -/

/-- The proof data of region 2 on core `c`: the arrays as the region finds them; after the body at point `t` each
    input's buffer at its block and the output's at `outsAt2`'s first component; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the closed forms say which case the point is in; the
    invariant hands the body the accumulator at what the point before left (at anything before the first point) and
    takes it back at this point's contents; the rest is untouched; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 32 := lt_of_lt_of_eq t.isLt (show cfg2.N = 32 from N_2)
  by_cases h0 : t.val % 8 = 0
  · by_cases h1 : t.val % 8 = 7
    · exfalso; omega
    · rw [Dat.leavesExact_idle (dat2 V c) 2 t (idleAt2_2 t (fun h => h1 ((hcond2_1 t).mp h))) (noFlush2_2 t (fun h => h1 ((hcond2_1 t).mp h)))]
      rw [outsAt2_A V c t h0 h1]
      unfold outA2 sout2_A_0; (try dsimp only)
      by_cases hz : t.val = 0
      · rw [PhiS2_castSucc V c t, PhiS2_zero V c _ _ hz]
        iintro ⟨⟨HS0, HR⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR]
        · isplitl [HS0]
          · unfold owns; iexists _; isplitr
            swap; · iexact HS0
            ipureintro; exact View.read_writes_of_cover _ _ _ _ _ (scover2_A_0 c _ _ _ _ _ _ _ _ _ _ _ _ _)
          iexact HR
        isplitl [Ho]; · iexact Ho
        isplitl [H0]; · iexact H0
        isplitl [H1]; · iexact H1
        iexists _; iexact H2
      · rw [PhiS2_castSucc V c t, PhiS2_pos V c _ _ hz]
        iintro ⟨⟨HS0, HR⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR]
        · isplitl [HS0]
          · unfold owns; iexists _; isplitr
            swap; · iexact HS0
            ipureintro; exact View.read_writes_of_cover _ _ _ _ _ (scover2_A_0 c _ _ _ _ _ _ _ _ _ _ _ _ _)
          iexact HR
        isplitl [Ho]; · iexact Ho
        isplitl [H0]; · iexact H0
        isplitl [H1]; · iexact H1
        iexists _; iexact H2
  · have hz : t.val ≠ 0 := fun e => h0 (by rw [e])
    by_cases h1 : t.val % 8 = 7
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold outC2 out2_C_2 sout2_C_0; (try dsimp only)
      rw [PhiS2_castSucc V c t, PhiS2_pos V c _ _ hz]
      iintro ⟨⟨HS0, HR⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR]
      · isplitl [HS0]
        · unfold owns; iexists _; isplitr
          swap; · iexact HS0
          ipureintro; exact View.read_writes_of_cover _ _ _ _ _ (scover2_C_0 c _ _ _ _ _ _ _ _ _ _ _ _ _ _)
        iexact HR
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold outB2 sout2_B_0; (try dsimp only)
      rw [PhiS2_castSucc V c t, PhiS2_pos V c _ _ hz]
      iintro ⟨⟨HS0, HR⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR]
      · isplitl [HS0]
        · unfold owns; iexists _; isplitr
          swap; · iexact HS0
          ipureintro; exact View.read_writes_of_cover _ _ _ _ _ (scover2_B_0 c _ _ _ _ _ _ _ _ _ _ _ _ _ _)
        iexact HR
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point: the accumulator named beside the rest. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  exact PhiA2_split c

/-- After the last point the invariant gives the class's back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega)]
  iintro ⟨HS0, HR⟩
  iapply (PhiA2_join (F := F) c)
  isplitl [HS0]
  · iexists _; iexact HS0
  iexact HR

/-- Full shares and nothing owed, as the launch theorems ask. -/
theorem hshare2 (c : Dev nD) (w : Fin cfg2.W) : (dat2 V c).share w = fullShare := (dat2 V c).share_full (fun _ => rfl) w
theorem howed2 (c : Dev nD) (t : Fin (cfg2.N + 1)) : (dat2 V c).owed t = 0 := rfl

end Region2

end Cert.KernelIdeal.Hand

end
-- ==== Proof.KernelIdealHand.Inst.lean ====
/-
  The two accumulating regions' proof data, packaged for the run of the whole program: each region's own module gives
  proof data over any contents of the buffers at its entry, the body's obligation at every point, and its carried
  invariant entered from and returned to the plain one; here they are handed to the run as records.
-/
import proofs.«114752_j31224412242681_2_alg».proof.Proof.Gen.KernelIdeal.Launch
import proofs.«114752_j31224412242681_2_alg».proof.Proof.Gen.KernelIdeal.Skeleton
import proofs.«114752_j31224412242681_2_alg».proof.Proof.Gen.KernelIdeal.Points
import proofs.«114752_j31224412242681_2_alg».proof.Proof.KernelIdealHand.Iface
import proofs.«114752_j31224412242681_2_alg».proof.Proof.KernelIdealHand.Region1
import proofs.«114752_j31224412242681_2_alg».proof.Proof.KernelIdealHand.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second region (adjacency times first support, accumulated over eight column blocks, rectified, times the packed weights). -/
def region1Data : Region1Data F where
  dat := fun V c => dat1 V c
  A_eq := fun V c w => A_eq1 V c w
  q_full := fun _ _ _ => rfl
  owed_zero := fun _ _ _ => rfl
  recorded_univ := fun _ _ _ => rfl
  body := fun V c => body_obligation1 V c
  hin := fun V c => hin1 V c
  hout := fun V c => hout1 V c

/-- The third region (adjacency times second support, accumulated over eight column blocks). -/
def region2Data : Region2Data F where
  dat := fun V c => dat2 V c
  A_eq := fun V c w => A_eq2 V c w
  q_full := fun _ _ _ => rfl
  owed_zero := fun _ _ _ => rfl
  recorded_univ := fun _ _ _ => rfl
  body := fun V c => body_obligation2 V c
  hin := fun V c => hin2 V c
  hout := fun V c => hout2 V c

end Cert.KernelIdeal.Hand

end
-- ==== Proof.LibPlainDot.lean ====
/-
  A plain matrix product read at an index.

  For the dimension numbers of an M×K by K×N product (contract the left operand's columns against the right
  operand's rows, no batch axis), the sum over the contraction index of the products of the operands at the
  dot's operand indices is the textbook sum: entry (r, c) is the sum over k of left (r, k) times right (k, c).
  The same sum reads a vector unit's matmul into a zero accumulator and the host's dot_general at the ideal
  values, so the two are one function of their operands.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The textbook product of an M×K and a K×N array of extended reals. -/
def mm {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- The left operand's index at output index `j` and contraction index `q` is (row of `j`, `q`). -/
theorem lhsIdx_plain {M K N : Nat} (j : (⟨2, ![M, N]⟩ : Shape).Idx) (k : Fin K) :
    (DotDims.plain M K N).lhsIdx j ((contrEquiv1 (DotDims.plain M K N) K rfl rfl).symm k) = ix2 (j 0) k := by
  funext a
  apply Fin.ext
  have hk := contrEquiv1_symm_val (DotDims.plain M K N) K rfl rfl k
  match a with
  | ⟨0, _⟩ => rfl
  | ⟨1, _⟩ => exact ((DotDims.plain M K N).lhsIdx_val_of_single rfl j _).trans hk

/-- The right operand's index there is (`q`, column of `j`). -/
theorem rhsIdx_plain {M K N : Nat} (j : (⟨2, ![M, N]⟩ : Shape).Idx) (k : Fin K) :
    (DotDims.plain M K N).rhsIdx j ((contrEquiv1 (DotDims.plain M K N) K rfl rfl).symm k) = ix2 k (j 1) := by
  funext a
  apply Fin.ext
  have hk := contrEquiv1_symm_val (DotDims.plain M K N) K rfl rfl k
  match a with
  | ⟨0, _⟩ => exact ((DotDims.plain M K N).rhsIdx_val_of_single rfl j _).trans hk
  | ⟨1, _⟩ => rfl

/-- The contraction's sum, re-indexed by the one contracted coordinate. -/
theorem sum_plain {M K N : Nat} (A : (⟨2, ![M, K]⟩ : Shape).Idx → EReal) (B : (⟨2, ![K, N]⟩ : Shape).Idx → EReal)
    (j : (⟨2, ![M, N]⟩ : Shape).Idx) :
    ∑ q : (DotDims.plain M K N).contr.Idx, A ((DotDims.plain M K N).lhsIdx j q) * B ((DotDims.plain M K N).rhsIdx j q)
      = mm A B j := by
  unfold mm
  rw [← Equiv.sum_comp (contrEquiv1 (DotDims.plain M K N) K rfl rfl).symm]
  refine Finset.sum_congr rfl fun k _ => ?_
  rw [lhsIdx_plain, rhsIdx_plain]
  rfl

/-- A vector unit's matmul into the zero accumulator is the textbook product. -/
theorem matmul_zero_eq_mm {M K N : Nat} {φ₁ φ₂ : FTy} (prec : Option ContractPrecision)
    (A : FVec Ideal ⟨2, ![M, K]⟩ φ₁) (B : FVec Ideal ⟨2, ![K, N]⟩ φ₂) :
    FloatOps.matmul (DotDims.plain M K N) prec A B (constant ⟨2, ![M, N]⟩ .f32 0x00000000#32) = mm A B := by
  funext j
  rw [Ideal.matmul_constant_zero_apply]
  exact sum_plain A B j

/-- The host's dot_general is the textbook product, whatever the schedule. -/
theorem dotGeneral_eq_mm {M K N : Nat} {φ₁ φ₂ : FTy} (prec : Option ContractPrecision) (sched : HostSchedule)
    (A : FVec Ideal ⟨2, ![M, K]⟩ φ₁) (B : FVec Ideal ⟨2, ![K, N]⟩ φ₂) :
    FloatOps.dotGeneral (DotDims.plain M K N) prec sched A B = mm A B := by
  funext j
  rw [Ideal.dotGeneral_apply]
  exact sum_plain A B j

end Idealize.ShloMosaic.PlainDot

end
-- ==== Proof.Spec.lean ====
/-
  The mathematics of the graph-convolutional variational encoder, as functions of whole arrays of extended reals.

  With X the node features (8192 x 512), A the adjacency matrix (8192 x 8192), Wh the first layer's weights
  (512 x 256) and Wp the two second-layer weight matrices side by side (256 x 128):
    support1 = X . Wh,   hidden = max (A . support1) 0,   support2 = hidden . Wp,   zpacked = A . support2,
  and the decoder's Gram matrix of an 8192 x 64 array Z has entry (r, c) equal to the sum over k of Z (r, k) * Z (c, k).
  Every product is the textbook sum over the contracted index; nothing here assumes an entry finite.
-/
import proofs.«114752_j31224412242681_2_alg».proof.Proof.LibPlainDot

noncomputable section

open scoped BigOperators

namespace Cert.Spec

open Idealize.ShloMosaic Idealize.ShloMosaic.ValueIdx Idealize.ShloMosaic.PlainDot

/-- The rectifier, entry by entry: the maximum of the entry and zero. -/
def relu {S : Shape} (h : S.Idx → EReal) : S.Idx → EReal := fun i => max (h i) 0

/-- The first layer's support: the features times the first weights. -/
def support1 (x : (⟨2, ![8192, 512]⟩ : Shape).Idx → EReal) (wh : (⟨2, ![512, 256]⟩ : Shape).Idx → EReal) :
    (⟨2, ![8192, 256]⟩ : Shape).Idx → EReal := mm x wh

/-- The hidden layer from a support: the adjacency matrix times the support, rectified. -/
def hidden (adj : (⟨2, ![8192, 8192]⟩ : Shape).Idx → EReal) (s1 : (⟨2, ![8192, 256]⟩ : Shape).Idx → EReal) :
    (⟨2, ![8192, 256]⟩ : Shape).Idx → EReal := relu (mm adj s1)

/-- The second layer's support for both heads at once: the hidden layer times the packed weights. -/
def support2 (adj : (⟨2, ![8192, 8192]⟩ : Shape).Idx → EReal) (s1 : (⟨2, ![8192, 256]⟩ : Shape).Idx → EReal)
    (wp : (⟨2, ![256, 128]⟩ : Shape).Idx → EReal) : (⟨2, ![8192, 128]⟩ : Shape).Idx → EReal := mm (hidden adj s1) wp

/-- Both heads at once: the adjacency matrix times the packed second support. -/
def zpacked (adj : (⟨2, ![8192, 8192]⟩ : Shape).Idx → EReal) (s2 : (⟨2, ![8192, 128]⟩ : Shape).Idx → EReal) :
    (⟨2, ![8192, 128]⟩ : Shape).Idx → EReal := mm adj s2

/-- The Gram matrix of the rows of an 8192 x 64 array: entry (r, c) is the inner product of rows r and c. -/
def gram (z : (⟨2, ![8192, 64]⟩ : Shape).Idx → EReal) : (⟨2, ![8192, 8192]⟩ : Shape).Idx → EReal :=
  fun i => ∑ k : Fin 64, z (ix2 (i 0) k) * z (ix2 (i 1) k)

end Cert.Spec

end
-- ==== Proof.LibSliceCat.lean ====
/-
  Column blocks of a product against two operands side by side.

  Put two 8192×64 arrays X and Y side by side (a concatenation along the columns) and multiply an 8192×8192 matrix
  A by the 8192×128 result. Column c of the product depends only on column c of the right operand, so the first 64
  columns of the product are A·X and the last 64 are A·Y: one wide product is two narrow ones.
-/
import Idealize.ShloMosaic.Lib.Pipeline.Value
import proofs.«114752_j31224412242681_2_alg».proof.Proof.LibPlainDot

noncomputable section

open scoped BigOperators

namespace Idealize.ShloMosaic.PlainDot

open Idealize.ShloMosaic Idealize.ShloMosaic.ValueIdx

/-- The shapes involved, literally. -/
abbrev Sq : Shape := ⟨2, ![8192, 8192]⟩
abbrev Sn : Shape := ⟨2, ![8192, 64]⟩
abbrev Sw : Shape := ⟨2, ![8192, 128]⟩

/-- Two narrow arrays side by side. -/
abbrev sideBySide (X Y : Sn.Idx → EReal) (h : Shape.Concatenates [Sn, Sn] Sw 1) : Sw.Idx → EReal :=
  concatenate Sw 1 [⟨Sn, X⟩, ⟨Sn, Y⟩] h

/-- Equal pieces give equal concatenations (stated so that each piece can be rewritten on its own). -/
theorem sideBySide_congr {X X' Y Y' : Sn.Idx → EReal} (h : Shape.Concatenates [Sn, Sn] Sw 1) (hX : X = X') (hY : Y = Y') :
    concatenate Sw 1 [⟨Sn, X⟩, ⟨Sn, Y⟩] h = sideBySide X' Y' h := by
  subst hX; subst hY; rfl

/-- A column among the first 64 of the concatenation is that column of the first array. -/
theorem sideBySide_left (X Y : Sn.Idx → EReal) (h : Shape.Concatenates [Sn, Sn] Sw 1) (k : Fin 8192) (q : Fin 64) :
    sideBySide X Y h (ix2 k (⟨q.val, by omega⟩ : Fin 128)) = X (ix2 k q) :=
  concatenate_pair_apply_left 1 X Y h _ rfl (ix2 k q) (fun b => by match b with | ⟨0, _⟩ => rfl | ⟨1, _⟩ => rfl)

/-- A column among the last 64 is that column, less 64, of the second array. -/
theorem sideBySide_right (X Y : Sn.Idx → EReal) (h : Shape.Concatenates [Sn, Sn] Sw 1) (k : Fin 8192) (q : Fin 64) :
    sideBySide X Y h (ix2 k (⟨64 + q.val, by omega⟩ : Fin 128)) = Y (ix2 k q) :=
  concatenate_pair_apply_right 1 X Y h _ rfl rfl (ix2 k q)
    (fun b hb => by match b with | ⟨0, _⟩ => rfl | ⟨1, _⟩ => exact absurd rfl hb)
    (by show q.val + 64 = 64 + q.val; omega)

/-- The first 64 columns of A·[X | Y] are A·X. -/
theorem slice_lo_mm (A : Sq.Idx → EReal) (X Y : Sn.Idx → EReal) (h : Shape.Concatenates [Sn, Sn] Sw 1)
    (hs : Sw.Slices ![0, 0] Sn) :
    extractStridedSlice Sn ![0, 0] (mm (M := 8192) (K := 8192) (N := 128) A (sideBySide X Y h)) hs
      = mm (M := 8192) (K := 8192) (N := 64) A X := by
  funext i
  have h1 : (i 1).val < 64 := (i 1).isLt
  refine (extractStridedSlice_apply ![0, 0] (mm (M := 8192) (K := 8192) (N := 128) A (sideBySide X Y h)) hs i
    (ix2 (i 0) (⟨(i 1).val, by omega⟩ : Fin 128)) (fun a => by
      match a with
      | ⟨0, _⟩ => show (i 0).val = 0 + (i 0).val; omega
      | ⟨1, _⟩ => show (i 1).val = 0 + (i 1).val; omega)).trans ?_
  unfold mm
  refine Finset.sum_congr rfl fun k _ => ?_
  show A (ix2 (i 0) k) * sideBySide X Y h (ix2 k (⟨(i 1).val, by omega⟩ : Fin 128)) = _
  rw [sideBySide_left X Y h k (i 1)]

/-- The last 64 columns of A·[X | Y] are A·Y. -/
theorem slice_hi_mm (A : Sq.Idx → EReal) (X Y : Sn.Idx → EReal) (h : Shape.Concatenates [Sn, Sn] Sw 1)
    (hs : Sw.Slices ![0, 64] Sn) :
    extractStridedSlice Sn ![0, 64] (mm (M := 8192) (K := 8192) (N := 128) A (sideBySide X Y h)) hs
      = mm (M := 8192) (K := 8192) (N := 64) A Y := by
  funext i
  have h1 : (i 1).val < 64 := (i 1).isLt
  refine (extractStridedSlice_apply ![0, 64] (mm (M := 8192) (K := 8192) (N := 128) A (sideBySide X Y h)) hs i
    (ix2 (i 0) (⟨64 + (i 1).val, by omega⟩ : Fin 128)) (fun a => by
      match a with
      | ⟨0, _⟩ => show (i 0).val = 0 + (i 0).val; omega
      | ⟨1, _⟩ => show 64 + (i 1).val = 64 + (i 1).val; rfl)).trans ?_
  unfold mm
  refine Finset.sum_congr rfl fun k _ => ?_
  show A (ix2 (i 0) k) * sideBySide X Y h (ix2 k (⟨64 + (i 1).val, by omega⟩ : Fin 128)) = _
  rw [sideBySide_right X Y h k (i 1)]

end Idealize.ShloMosaic.PlainDot

end
-- ==== Proof.Bridge.lean ====
/-
  The algebra joining the packed second layer to the two separate heads.

  The second layer's two weight matrices Wm and Wl (256 x 64 each) are put side by side into one 256 x 128 matrix
  Wp = [Wm | Wl]. Column c of a product H . Wp depends only on column c of Wp, so H . Wp = [H . Wm | H . Wl]; the same
  holds one product further out, A . (H . Wp) = [A . (H . Wm) | A . (H . Wl)]. Hence the first 64 columns of the packed
  result are the mean head A . (H . Wm), the last 64 the log-deviation head A . (H . Wl), and the Gram matrix of the
  first 64 columns is the Gram matrix of the mean head. Every step is an equation between sums of the same terms;
  no entry is assumed finite.
-/
import proofs.«114752_j31224412242681_2_alg».proof.Proof.Spec
import proofs.«114752_j31224412242681_2_alg».proof.Proof.LibPlainDot
import proofs.«114752_j31224412242681_2_alg».proof.Proof.LibSliceCat

noncomputable section

open scoped BigOperators

namespace Cert.Bridge

open Idealize.ShloMosaic Idealize.ShloMosaic.ValueIdx Idealize.ShloMosaic.PlainDot

/-- The shapes of one head's weights, of the packed weights, and of the hidden layer, literally. -/
abbrev Wn : Shape := ⟨2, ![256, 64]⟩
abbrev Ww : Shape := ⟨2, ![256, 128]⟩
abbrev Sh : Shape := ⟨2, ![8192, 256]⟩

/-- The two heads' weights side by side. -/
abbrev packed (wm wl : Wn.Idx → EReal) (h : Shape.Concatenates [Wn, Wn] Ww 1) : Ww.Idx → EReal :=
  concatenate Ww 1 [⟨Wn, wm⟩, ⟨Wn, wl⟩] h

/-- A column among the first 64 of the packed weights is that column of the first head's weights. -/
theorem packed_left (wm wl : Wn.Idx → EReal) (h : Shape.Concatenates [Wn, Wn] Ww 1) (k : Fin 256) (q : Fin 64) :
    packed wm wl h (ix2 k (⟨q.val, by omega⟩ : Fin 128)) = wm (ix2 k q) :=
  concatenate_pair_apply_left 1 wm wl h _ rfl (ix2 k q) (fun b => by match b with | ⟨0, _⟩ => rfl | ⟨1, _⟩ => rfl)

/-- A column among the last 64 is that column, less 64, of the second head's weights. -/
theorem packed_right (wm wl : Wn.Idx → EReal) (h : Shape.Concatenates [Wn, Wn] Ww 1) (k : Fin 256) (q : Fin 64) :
    packed wm wl h (ix2 k (⟨64 + q.val, by omega⟩ : Fin 128)) = wl (ix2 k q) :=
  concatenate_pair_apply_right 1 wm wl h _ rfl rfl (ix2 k q)
    (fun b hb => by match b with | ⟨0, _⟩ => rfl | ⟨1, _⟩ => exact absurd rfl hb)
    (by show q.val + 64 = 64 + q.val; omega)

/-- A column index below 128 is either one of the first 64 or 64 more than one of them. -/
theorem col_cases (c : Fin 128) :
    (∃ q : Fin 64, c = (⟨q.val, by omega⟩ : Fin 128)) ∨ (∃ q : Fin 64, c = (⟨64 + q.val, by omega⟩ : Fin 128)) := by
  by_cases hc : c.val < 64
  · exact Or.inl ⟨⟨c.val, hc⟩, rfl⟩
  · exact Or.inr ⟨⟨c.val - 64, by omega⟩, Fin.ext (by show c.val = 64 + (c.val - 64); omega)⟩

/-- The two narrow shapes do concatenate along the columns into the wide one. -/
theorem cat_wide : Shape.Concatenates [Sn, Sn] Sw 1 := by decide

/-- A product against the weights side by side is the two products side by side: H . [Wm | Wl] = [H . Wm | H . Wl]. -/
theorem mm_packed (H : Sh.Idx → EReal) (wm wl : Wn.Idx → EReal) (h : Shape.Concatenates [Wn, Wn] Ww 1)
    (h' : Shape.Concatenates [Sn, Sn] Sw 1) :
    mm (M := 8192) (K := 256) (N := 128) H (packed wm wl h)
      = sideBySide (mm (M := 8192) (K := 256) (N := 64) H wm) (mm (M := 8192) (K := 256) (N := 64) H wl) h' := by
  funext j
  obtain ⟨r, c, rfl⟩ : ∃ (r : Fin 8192) (c : Fin 128), j = ix2 r c := ⟨j 0, j 1, eq_ix2 j⟩
  rcases col_cases c with ⟨q, rfl⟩ | ⟨q, rfl⟩
  · rw [sideBySide_left _ _ h' r q]
    show ∑ k : Fin 256, H (ix2 r k) * packed wm wl h (ix2 k (⟨q.val, by omega⟩ : Fin 128)) = ∑ k : Fin 256, H (ix2 r k) * wm (ix2 k q)
    exact Finset.sum_congr rfl fun k _ => by rw [packed_left wm wl h k q]
  · rw [sideBySide_right _ _ h' r q]
    show ∑ k : Fin 256, H (ix2 r k) * packed wm wl h (ix2 k (⟨64 + q.val, by omega⟩ : Fin 128)) = ∑ k : Fin 256, H (ix2 r k) * wl (ix2 k q)
    exact Finset.sum_congr rfl fun k _ => by rw [packed_right wm wl h k q]

/-- The first 64 columns of A . (H . [Wm | Wl]) are A . (H . Wm). -/
theorem slice_lo_packed (A : Sq.Idx → EReal) (H : Sh.Idx → EReal) (wm wl : Wn.Idx → EReal)
    (h : Shape.Concatenates [Wn, Wn] Ww 1) (hs : Sw.Slices ![0, 0] Sn) :
    extractStridedSlice Sn ![0, 0]
        (mm (M := 8192) (K := 8192) (N := 128) A (mm (M := 8192) (K := 256) (N := 128) H (packed wm wl h))) hs
      = mm (M := 8192) (K := 8192) (N := 64) A (mm (M := 8192) (K := 256) (N := 64) H wm) := by
  rw [mm_packed H wm wl h cat_wide]
  exact slice_lo_mm A _ _ cat_wide hs

/-- The last 64 columns of A . (H . [Wm | Wl]) are A . (H . Wl). -/
theorem slice_hi_packed (A : Sq.Idx → EReal) (H : Sh.Idx → EReal) (wm wl : Wn.Idx → EReal)
    (h : Shape.Concatenates [Wn, Wn] Ww 1) (hs : Sw.Slices ![0, 64] Sn) :
    extractStridedSlice Sn ![0, 64]
        (mm (M := 8192) (K := 8192) (N := 128) A (mm (M := 8192) (K := 256) (N := 128) H (packed wm wl h))) hs
      = mm (M := 8192) (K := 8192) (N := 64) A (mm (M := 8192) (K := 256) (N := 64) H wl) := by
  rw [mm_packed H wm wl h cat_wide]
  exact slice_hi_mm A _ _ cat_wide hs

/-! ## The same three facts in the specification's names -/

section Named

variable (x : (⟨2, ![8192, 512]⟩ : Shape).Idx → EReal) (adj : Sq.Idx → EReal)
  (wh : (⟨2, ![512, 256]⟩ : Shape).Idx → EReal) (wm wl : Wn.Idx → EReal)

/-- The hidden layer: the rectified product of the adjacency matrix with the first support. -/
abbrev Hid : Sh.Idx → EReal := Cert.Spec.hidden adj (Cert.Spec.support1 x wh)

/-- The mean head: A . (H . Wm). -/
abbrev Zm : Sn.Idx → EReal :=
  mm (M := 8192) (K := 8192) (N := 64) adj (mm (M := 8192) (K := 256) (N := 64) (Hid x adj wh) wm)

/-- The log-deviation head: A . (H . Wl). -/
abbrev Zl : Sn.Idx → EReal :=
  mm (M := 8192) (K := 8192) (N := 64) adj (mm (M := 8192) (K := 256) (N := 64) (Hid x adj wh) wl)

/-- Both heads at once, from the packed weights. -/
abbrev Zp (h : Shape.Concatenates [Wn, Wn] Ww 1) : Sw.Idx → EReal :=
  Cert.Spec.zpacked adj (Cert.Spec.support2 adj (Cert.Spec.support1 x wh) (packed wm wl h))

/-- The first 64 columns of the packed result are the mean head. -/
theorem zpacked_lo (h : Shape.Concatenates [Wn, Wn] Ww 1) (hs : Sw.Slices ![0, 0] Sn) :
    extractStridedSlice Sn ![0, 0] (Zp x adj wh wm wl h) hs = Zm x adj wh wm :=
  slice_lo_packed adj (Hid x adj wh) wm wl h hs

/-- The last 64 columns of the packed result are the log-deviation head. -/
theorem zpacked_hi (h : Shape.Concatenates [Wn, Wn] Ww 1) (hs : Sw.Slices ![0, 64] Sn) :
    extractStridedSlice Sn ![0, 64] (Zp x adj wh wm wl h) hs = Zl x adj wh wl :=
  slice_hi_packed adj (Hid x adj wh) wm wl h hs

/-- The Gram matrix of the first 64 columns of the packed result is the Gram matrix of the mean head. -/
theorem gram_zpacked_lo (h : Shape.Concatenates [Wn, Wn] Ww 1) (hs : Sw.Slices ![0, 0] Sn) :
    Cert.Spec.gram (extractStridedSlice Sn ![0, 0] (Zp x adj wh wm wl h) hs) = Cert.Spec.gram (Zm x adj wh wm) :=
  congrArg Cert.Spec.gram (zpacked_lo x adj wh wm wl h hs)

end Named

end Cert.Bridge

end
-- ==== Proof.RefValue.lean ====
/-
  The reference program's three results as functions of its five argument arrays.

  The reference computes, on the host and with extended reals for floats,
    S1 = X . Wh,   H = max (A . S1) 0,   Zm = A . (H . Wm),   Zl = A . (H . Wl),   R = Zm . transpose Zm,
  and returns (R, Zm, Zl). Each host product is the textbook sum over the contracted index, the maximum against
  the broadcast zero word is the rectifier entry by entry, and entry (r, c) of Zm . transpose Zm is the sum over k
  of Zm (r, k) * Zm (c, k): the Gram matrix of the rows of Zm. Nothing here assumes an entry finite.
-/
import proofs.«114752_j31224412242681_2_alg».proof.Proof.Gen.ReferenceIdeal.Read
import proofs.«114752_j31224412242681_2_alg».proof.Proof.Spec
import proofs.«114752_j31224412242681_2_alg».proof.Proof.Bridge

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.PlainDot

/-! ## Each operation of the reference as mathematics -/

/-- X . Wh: the 8192 x 512 by 512 x 256 host product is the textbook product. -/
theorem dot_x_wh (a : FVec Ideal S8192x512 .f32) (b : FVec Ideal S512x256 .f32) :
    Host.dotGeneral (F := Ideal) dot_S8192x512_S512x256_S8192x256_1_0_0_1_n_n none a b
      = mm (M := 8192) (K := 512) (N := 256) a b :=
  dotGeneral_eq_mm (M := 8192) (K := 512) (N := 256) none .single a b

/-- A . S for an 8192 x 256 right operand. -/
theorem dot_adj_256 (a : FVec Ideal S8192x8192 .f32) (b : FVec Ideal S8192x256 .f32) :
    Host.dotGeneral (F := Ideal) dot_S8192x8192_S8192x256_S8192x256_1_0_0_1_n_n none a b
      = mm (M := 8192) (K := 8192) (N := 256) a b :=
  dotGeneral_eq_mm (M := 8192) (K := 8192) (N := 256) none .single a b

/-- H . W for one head's 256 x 64 weights. -/
theorem dot_h_w (a : FVec Ideal S8192x256 .f32) (b : FVec Ideal S256x64 .f32) :
    Host.dotGeneral (F := Ideal) dot_S8192x256_S256x64_S8192x64_1_0_0_1_n_n none a b
      = mm (M := 8192) (K := 256) (N := 64) a b :=
  dotGeneral_eq_mm (M := 8192) (K := 256) (N := 64) none .single a b

/-- A . S for an 8192 x 64 right operand. -/
theorem dot_adj_64 (a : FVec Ideal S8192x8192 .f32) (b : FVec Ideal S8192x64 .f32) :
    Host.dotGeneral (F := Ideal) dot_S8192x8192_S8192x64_S8192x64_1_0_0_1_n_n none a b
      = mm (M := 8192) (K := 8192) (N := 64) a b :=
  dotGeneral_eq_mm (M := 8192) (K := 8192) (N := 64) none .single a b

/-- The maximum against the broadcast zero word is the rectifier: max (v i) 0 at every index. -/
theorem relu_eq (v : FVec Ideal S8192x256 .f32) (h : S_.BroadcastsInDim S8192x256 (![] : Fin 0 → Fin S8192x256.rank)) :
    maximumf (F := Ideal) v (broadcastInDim S8192x256 ![] h (constant (F := Ideal) S_ .f32 0x00000000#32)) = Cert.Spec.relu v := by
  funext i
  simp only [maximumf, broadcastInDim, constant, Ideal.maximumf_def, Ideal.ofBits_def, Ideal.ofBits_zero_f32, Cert.Spec.relu]

/-- Z . transpose Z is the Gram matrix of the rows of Z: entry (r, c) is the sum over k of Z (r, k) * Z (c, k), since
    the transpose read at (k, c) is Z at (c, k). -/
theorem gram_eq (z : FVec Ideal S8192x64 .f32) (h : S8192x64.Transposes [1, 0] S64x8192) :
    Host.dotGeneral (F := Ideal) dot_S8192x64_S64x8192_S8192x8192_1_0_0_1_n_n none z (transpose S64x8192 [1, 0] z h)
      = Cert.Spec.gram z :=
  (dotGeneral_eq_mm (M := 8192) (K := 64) (N := 8192) none .single z (transpose S64x8192 [1, 0] z h)).trans
    (funext fun i => Finset.sum_congr rfl fun k _ => congrArg (fun t => z (ix2 (i 0) k) * t)
      (transpose_apply [1, 0] z h (ix2 k (i 1)) (ix2 (i 1) k) (fun b => match b with
        | ⟨0, _⟩ => rfl
        | ⟨1, _⟩ => rfl)))

/-! ## The run's three result terms -/

section Results

variable (x : FVec Ideal S8192x512 .f32) (adj : FVec Ideal S8192x8192 .f32) (wh : FVec Ideal S512x256 .f32)
  (wm wl : FVec Ideal S256x64 .f32)

/-- The run's term for the second result is the mean head A . (H . Wm). -/
theorem main_v4_eq :
    Host.dotGeneral (F := Ideal) dot_S8192x8192_S8192x64_S8192x64_1_0_0_1_n_n none adj (Host.dotGeneral (F := Ideal) dot_S8192x256_S256x64_S8192x64_1_0_0_1_n_n none (maximumf (F := Ideal) (Host.dotGeneral (F := Ideal) dot_S8192x8192_S8192x256_S8192x256_1_0_0_1_n_n none adj (Host.dotGeneral (F := Ideal) dot_S8192x512_S512x256_S8192x256_1_0_0_1_n_n none x wh)) (broadcastInDim S8192x256 ![] bcast_S_S8192x256 (constant (F := Ideal) S_ .f32 0x00000000#32))) wm)
      = Cert.Bridge.Zm x adj wh wm := by
  rw [dot_x_wh, dot_adj_256, relu_eq, dot_h_w, dot_adj_64]
  rfl

/-- The run's term for the third result is the log-deviation head A . (H . Wl). -/
theorem main_v6_eq :
    Host.dotGeneral (F := Ideal) dot_S8192x8192_S8192x64_S8192x64_1_0_0_1_n_n none adj (Host.dotGeneral (F := Ideal) dot_S8192x256_S256x64_S8192x64_1_0_0_1_n_n none (maximumf (F := Ideal) (Host.dotGeneral (F := Ideal) dot_S8192x8192_S8192x256_S8192x256_1_0_0_1_n_n none adj (Host.dotGeneral (F := Ideal) dot_S8192x512_S512x256_S8192x256_1_0_0_1_n_n none x wh)) (broadcastInDim S8192x256 ![] bcast_S_S8192x256 (constant (F := Ideal) S_ .f32 0x00000000#32))) wl)
      = Cert.Bridge.Zl x adj wh wl := by
  rw [dot_x_wh, dot_adj_256, relu_eq, dot_h_w, dot_adj_64]
  rfl

/-- The run's term for the first result is the Gram matrix of the mean head. -/
theorem main_v8_eq :
    Host.dotGeneral (F := Ideal) dot_S8192x64_S64x8192_S8192x8192_1_0_0_1_n_n none (Host.dotGeneral (F := Ideal) dot_S8192x8192_S8192x64_S8192x64_1_0_0_1_n_n none adj (Host.dotGeneral (F := Ideal) dot_S8192x256_S256x64_S8192x64_1_0_0_1_n_n none (maximumf (F := Ideal) (Host.dotGeneral (F := Ideal) dot_S8192x8192_S8192x256_S8192x256_1_0_0_1_n_n none adj (Host.dotGeneral (F := Ideal) dot_S8192x512_S512x256_S8192x256_1_0_0_1_n_n none x wh)) (broadcastInDim S8192x256 ![] bcast_S_S8192x256 (constant (F := Ideal) S_ .f32 0x00000000#32))) wm)) (transpose S64x8192 [1, 0] (Host.dotGeneral (F := Ideal) dot_S8192x8192_S8192x64_S8192x64_1_0_0_1_n_n none adj (Host.dotGeneral (F := Ideal) dot_S8192x256_S256x64_S8192x64_1_0_0_1_n_n none (maximumf (F := Ideal) (Host.dotGeneral (F := Ideal) dot_S8192x8192_S8192x256_S8192x256_1_0_0_1_n_n none adj (Host.dotGeneral (F := Ideal) dot_S8192x512_S512x256_S8192x256_1_0_0_1_n_n none x wh)) (broadcastInDim S8192x256 ![] bcast_S_S8192x256 (constant (F := Ideal) S_ .f32 0x00000000#32))) wm)) transposes_S8192x64_S64x8192_1_0)
      = Cert.Spec.gram (Cert.Bridge.Zm x adj wh wm) := by
  rw [main_v4_eq x adj wh wm]
  exact gram_eq _ _

end Results

/-! ## The reference's run and frame -/

/-- Every weakly fair execution of the reference from the memory m' ends with the three results at the Gram matrix of
    the mean head, the mean head and the log-deviation head of the launch contents of the arguments, and the
    arguments unchanged. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v8) = Cert.Spec.gram (Cert.Bridge.Zm (m' ((c.tc : Thread nD τ).loc main_arg0)) (m' ((c.tc : Thread nD τ).loc main_arg1)) (m' ((c.tc : Thread nD τ).loc main_arg2)) (m' ((c.tc : Thread nD τ).loc main_arg3)))
      ∧ r.2.mem ((c.tc : Thread nD τ).loc main_v4) = Cert.Bridge.Zm (m' ((c.tc : Thread nD τ).loc main_arg0)) (m' ((c.tc : Thread nD τ).loc main_arg1)) (m' ((c.tc : Thread nD τ).loc main_arg2)) (m' ((c.tc : Thread nD τ).loc main_arg3))
      ∧ r.2.mem ((c.tc : Thread nD τ).loc main_v6) = Cert.Bridge.Zl (m' ((c.tc : Thread nD τ).loc main_arg0)) (m' ((c.tc : Thread nD τ).loc main_arg1)) (m' ((c.tc : Thread nD τ).loc main_arg2)) (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) :=
  (θ_run Cert.ReferenceIdeal.defs _ _).mono (fun _ h c =>
      ⟨(h c).1.trans (main_v8_eq _ _ _ _), (h c).2.1.trans (main_v4_eq _ _ _ _), (h c).2.2.1.trans (main_v6_eq _ _ _ _), (h c).2.2.2⟩)
    (Cert.ReferenceIdeal.Value.run (F := Ideal) m' ρ')

/-- The reference's frame: its run with the results dropped leaves the five arguments as they were. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run Cert.ReferenceIdeal.defs _ _).mono (fun _ h c => (h c).2.2.2) (Cert.ReferenceIdeal.Value.run (F := Ideal) m ρ)

end Cert.ReferenceIdeal.RefValue

end
-- ==== Proof.LibRowBlocks.lean ====
/-
  The rows of a matrix product.

  Entry (r, c) of A·B depends on row r of A only: it is the sum over k of A (r, k) · B (k, c). So if a block Ab of
  Mb rows holds rows base … base + Mb − 1 of A, then row r of Ab·B is row base + r of A·B. This is what lets a
  product computed block of rows by block of rows be read as one product of the whole arrays.
-/
import proofs.«114752_j31224412242681_2_alg».proof.Proof.LibPlainDot

noncomputable section

open scoped BigOperators

namespace Idealize.ShloMosaic.RowBlocks

open Idealize.ShloMosaic Idealize.ShloMosaic.ValueIdx Idealize.ShloMosaic.PlainDot

/-- If row `j 0` of the block `Ab` is row `i 0` of `A` and the two indices name the same column, the block's product
    with `B` at `j` is the whole product at `i`. -/
theorem mm_block_entry {M Mb K N : Nat} (A : (⟨2, ![M, K]⟩ : Shape).Idx → EReal) (Ab : (⟨2, ![Mb, K]⟩ : Shape).Idx → EReal)
    (B : (⟨2, ![K, N]⟩ : Shape).Idx → EReal) (i : (⟨2, ![M, N]⟩ : Shape).Idx) (j : (⟨2, ![Mb, N]⟩ : Shape).Idx)
    (hrow : ∀ k : Fin K, Ab (ix2 (j 0) k) = A (ix2 (i 0) k)) (hcol : (j 1).val = (i 1).val) :
    mm Ab B j = mm A B i := by
  unfold mm
  refine Finset.sum_congr rfl fun k _ => ?_
  rw [hrow k]
  refine congrArg (A (ix2 (i 0) k) * B ·) ?_
  funext a
  match a with
  | ⟨0, _⟩ => rfl
  | ⟨1, _⟩ => exact Fin.ext hcol

end Idealize.ShloMosaic.RowBlocks

end
-- ==== Proof.Val.Region0Value.lean ====
/-
  The first region's output array: the features times the first-layer weights.

  At grid point t the body multiplies rows 2048 t .. 2048 t + 2047 of the features X by the whole weight matrix Wh into
  a zero accumulator and stores the 2048 x 256 tile; narrowing a value to a shorter format is the identity on the
  extended reals. A block of rows of a product is the product of that block of rows, so what point t writes back is
  block t of X . Wh, and the four blocks cover the 8192 rows: the array ends holding X . Wh.
-/
import proofs.«114752_j31224412242681_2_alg».proof.Proof.KernelIdealHand.Region0
import proofs.«114752_j31224412242681_2_alg».proof.Proof.Spec
import proofs.«114752_j31224412242681_2_alg».proof.Proof.LibPlainDot
import proofs.«114752_j31224412242681_2_alg».proof.Proof.LibRowBlocks
import Idealize.ShloMosaic.Lib.Pipeline.Value

noncomputable section

open scoped BigOperators

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx Idealize.ShloMosaic.PlainDot Idealize.ShloMosaic.RowBlocks
open Idealize.ShloMosaic.Pipeline (Dat Cfg Window)

/-- The zero offsets of a whole-buffer access, spelt as the constant function. -/
theorem hz0 : (![0, 0] : Fin 2 → Nat) = fun _ => 0 := funext fun a => by fin_cases a <;> rfl

/-- The body's arithmetic is the textbook product of its two loaded tiles: the narrowings are the identity on the
    extended reals and the matrix unit's product into the zero accumulator is the sum over the contracted index. -/
theorem pay0_eq (x0 : Vec Ideal S2048x512 .f32) (x1 : Vec Ideal S512x256 .f32) :
    k0_pay1 (F := Ideal) x0 x1 = mm (M := 2048) (K := 512) (N := 256) x0 x1 := by
  unfold k0_pay1
  exact matmul_zero_eq_mm (M := 2048) (K := 512) (N := 256) (φ₁ := .bf16) (φ₂ := .bf16) none x0 x1

/-- A tile's entry as an entry of the whole product: when the tile's left operand is rows 2048 p .. 2048 p + 2047 of X
    and its right operand is all of W, entry j of the tile's product is entry (2048 p + j 0, j 1) of X . W. -/
theorem tile_entry0 (X : S8192x512.Idx → EReal) (W : S512x256.Idx → EReal) (xb : S2048x512.Idx → EReal) (wb : S512x256.Idx → EReal)
    (p : Nat) (j : S2048x256.Idx) (i : S8192x256.Idx)
    (hi0 : (i 0).val = p * 2048 + (j 0).val) (hi1 : (i 1).val = (j 1).val)
    (hx : ∀ (r : Fin 2048) (k : Fin 512) (y : S8192x512.Idx), (y 0).val = p * 2048 + r.val → (y 1).val = k.val → xb (ix2 r k) = X y)
    (hw : wb = W) :
    mm (M := 2048) (K := 512) (N := 256) xb wb j = Cert.Spec.support1 X W i := by
  subst hw
  unfold Cert.Spec.support1
  exact mm_block_entry (M := 8192) (Mb := 2048) (K := 512) (N := 256) X xb wb i j
    (fun k => hx (j 0) k (ix2 (i 0) k) hi0 rfl) hi1.symm

/-- The printed index maps, decided over the four grid points: the features' and the output's block row is the point,
    every other block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section

variable (V : (c : Dev nD) → (b : Ref sig .tc) → Buf (Elt Ideal) ((c : Thread nD τ).loc b))

/-- What point t writes back is block t of X . Wh, X and Wh the two argument arrays as the region finds them. -/
theorem flushed0_eq (c : Dev nD) (t : Fin cfg0.N) :
    (dat0 (F := Ideal) V c).flushed 2 t
      = ((cfg0.win 2).blk t).view.read (Elt Ideal) (Cert.Spec.support1 (V c main_arg0) (V c main_arg2)) := by
  show (cfg0.win 2).cut (grid0.coords t) ((dat0 (F := Ideal) V c).after 2 t) = _
  rw [after0_2]
  unfold out0_2
  rw [View.canon_unit_zero hz0]
  simp only [View.ld_unit_zero (S := S2048x512) hz0, View.ld_unit_zero (S := S512x256) hz0]
  rw [pay0_eq]
  obtain ⟨e0, e1, e2, e3, e4, e5⟩ := idx_facts0 t
  funext j
  refine tile_entry0 (V c main_arg0) (V c main_arg2) _ _ (win0_2.index t (0 : Fin 2)) j (((cfg0.win 2).blk t).view.emb j) ?_ ?_ ?_ ?_
  · show win0_2.index t (0 : Fin 2) * 2048 + 1 * (j 0).val = win0_2.index t (0 : Fin 2) * 2048 + (j 0).val
    omega
  · show win0_2.index t (1 : Fin 2) * 256 + 1 * (j 1).val = (j 1).val
    omega
  · intro r k y hy0 hy1
    show V c main_arg0 (((cfg0.win 0).blk t).view.emb (ix2 r k)) = V c main_arg0 y
    refine congrArg (V c main_arg0) (funext fun a => Fin.ext ?_)
    match a with
    | ⟨0, _⟩ => show win0_0.index t (0 : Fin 2) * 2048 + 1 * r.val = (y 0).val; omega
    | ⟨1, _⟩ => show win0_0.index t (1 : Fin 2) * 512 + 1 * k.val = (y 1).val; omega
  · funext y
    show V c main_arg2 (((cfg0.win 1).blk t).view.emb y) = V c main_arg2 y
    refine congrArg (V c main_arg2) (funext fun a => Fin.ext ?_)
    match a with
    | ⟨0, _⟩ => show win0_1.index t (0 : Fin 2) * 512 + 1 * (y 0).val = (y 0).val; omega
    | ⟨1, _⟩ => show win0_1.index t (1 : Fin 2) * 256 + 1 * (y 1).val = (y 1).val; omega

/-- An index of the output array is in point t's block iff each coordinate is in the block's range on its axis. -/
theorem mem_blk0 (t : Fin cfg0.N) (i : S8192x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v0).slice (win0_2.rect t)).set ↔ _
  rw [View.set_slice_whole, Rect.mem_set_unit]
  exact Iff.rfl

/-- Every index of the output array is in the block of the point its row falls in: row r is in block r / 2048. -/
theorem cover0 (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 4 := N_0
  let t : Fin cfg0.N := ⟨(i 0).val / 2048, by rw [hN]; omega⟩
  obtain ⟨e0, e1, e2, e3, e4, e5⟩ := idx_facts0 t
  have e4' : win0_2.index t (0 : Fin 2) = (i 0).val / 2048 := e4
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- The output array after the region: the features times the first-layer weights, as the region finds them. -/
theorem arrAt0_eq (c : Dev nD) :
    (dat0 (F := Ideal) V c).arrAt 2 cfg0.N = Cert.Spec.support1 (V c main_arg0) (V c main_arg2) :=
  (dat0 (F := Ideal) V c).arrAt_eq_of_cover 2 (Cert.Spec.support1 (V c main_arg0) (V c main_arg2))
    (fun t _ => flushed0_eq V c t) cover0

/-- The same, index by index. -/
theorem arrAt0_out (c : Dev nD) (i : S8192x256.Idx) :
    (dat0 (F := Ideal) V c).arrAt 2 cfg0.N i = Cert.Spec.support1 (V c main_arg0) (V c main_arg2) i :=
  congrFun (arrAt0_eq V c) i

end

end Cert.KernelIdeal.Val

end
-- ==== Proof.Val.Region1Pieces.lean ====
/- What each control case of region 1's body leaves in the carried scratch and in the output block, as the body's
   arithmetic applied to the point's input blocks and to what the scratch held before: at any float instance. -/
import proofs.«114752_j31224412242681_2_alg».proof.Proof.KernelIdealHand.Region1
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open scoped BigOperators

namespace Cert.KernelIdeal.Val.R1

open Cert.KernelIdeal Cert.KernelIdeal.Gen Cert.KernelIdeal.Hand

variable {F : FTy → Type} [FloatOps F]

theorem hz2 : (![0, 0] : Fin 2 → Nat) = fun _ => 0 := funext fun a => by fin_cases a <;> rfl

/-- The 1024 rows of the resident operand that the point's reduction step reads: rows 1024 k … of it. -/
abbrev opRows (i : grid1.Coords) (x1 : Vec F S8192x256 .bf16) : Vec F S1024x256 .bf16 :=
  View.ld x1 (Rect.unit (s := S8192x256) (k1_off1 i) S1024x256.size (k1_off1_inb i))

/-- The first step of a row block: the scratch is zeroed, then gains the first partial product. -/
theorem soutA_eq (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : cond1_0 i) (hc1 : ¬cond1_1 i)
    (x0 : Vec F S2048x1024 .f32) (x1 : Vec F S8192x256 .bf16) (x2 : Vec F S256x128 .f32) :
    sout1_A_0 c i arg2 harg2 arg3 harg3 arg4 harg4 arg5 harg5 arg6 harg6 hc0 hc1 x0 x1 x2 = k1_pay2 x0 (opRows i x1) (k1_pay1 (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  rw [View.canon_cons_unit_zero hz2]
  unfold kernelRun1_A.sl.v10 kernelRun1_A.sl.HS0_1
  simp only [View.readAt_eq_ld, harg2.read_unread, harg3.read_unread, harg4.read_unread, harg6.read_unread, View.ld_unit_zero (S := S2048x1024) hz2, View.ld_unit_zero (S := S2048x256) hz2, View.ld_unit_zero (S := S256x128) hz2, View.readCov_unit_zero (S := S2048x256) _ hz2]

/-- A middle step: the scratch gains one more partial product. -/
theorem soutB_eq (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : ¬cond1_0 i) (hc1 : ¬cond1_1 i)
    (x0 : Vec F S2048x1024 .f32) (x1 : Vec F S8192x256 .bf16) (x2 : Vec F S256x128 .f32) (xs0 : Vec F S2048x256 .f32) :
    sout1_B_0 c i arg2 harg2 arg3 harg3 arg4 harg4 arg5 harg5 arg6 harg6 hc0 hc1 x0 x1 x2 xs0 = k1_pay2 x0 (opRows i x1) xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  rw [View.canon_unit_zero hz2]
  simp only [View.readAt_eq_ld, harg2.read_unread, harg3.read_unread, harg4.read_unread, harg6.read_unread, View.ld_unit_zero (S := S2048x1024) hz2, View.ld_unit_zero (S := S2048x256) hz2, View.ld_unit_zero (S := S256x128) hz2, View.readCov_unit_zero (S := S2048x256) _ hz2]

/-- The last step: the scratch gains the last partial product, -/
theorem soutC_eq (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : ¬cond1_0 i) (hc1 : cond1_1 i)
    (x0 : Vec F S2048x1024 .f32) (x1 : Vec F S8192x256 .bf16) (x2 : Vec F S256x128 .f32) (xs0 : Vec F S2048x256 .f32) :
    sout1_C_0 c i arg2 harg2 arg3 harg3 arg4 harg4 arg5 harg5 arg6 harg6 hc0 hc1 x0 x1 x2 xs0 = k1_pay2 x0 (opRows i x1) xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  unfold kernelRun1_C.sl.HS0_1
  rw [View.canon_unit_zero hz2]
  simp only [View.readAt_eq_ld, harg2.read_unread, harg3.read_unread, harg4.read_unread, harg6.read_unread, View.ld_unit_zero (S := S2048x1024) hz2, View.ld_unit_zero (S := S2048x256) hz2, View.ld_unit_zero (S := S256x128) hz2, View.readCov_unit_zero (S := S2048x256) _ hz2]

/-- and the output block is the rectified sum times the weights. -/
theorem outC_eq (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x128 .f32) (harg4 : arg4.IsWhole) (arg5 : Memref sig .tc .vmem S2048x128 .bf16) (harg5 : arg5.IsWhole) (arg6 : Memref sig .tc .vmem S2048x256 .f32) (harg6 : arg6.IsWhole) (hc0 : ¬cond1_0 i) (hc1 : cond1_1 i)
    (x0 : Vec F S2048x1024 .f32) (x1 : Vec F S8192x256 .bf16) (x2 : Vec F S256x128 .f32) (xs0 : Vec F S2048x256 .f32) :
    out1_C_3 c i arg2 harg2 arg3 harg3 arg4 harg4 arg5 harg5 arg6 harg6 hc0 hc1 x0 x1 x2 xs0 = k1_pay3 (k1_pay2 x0 (opRows i x1) xs0) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  rw [View.canon_unit_zero hz2]
  unfold kernelRun1_C.sl.v19 kernelRun1_C.sl.HS0_1
  simp only [View.readAt_eq_ld, harg2.read_unread, harg3.read_unread, harg4.read_unread, harg6.read_unread, View.ld_unit_zero (S := S2048x1024) hz2, View.ld_unit_zero (S := S2048x256) hz2, View.ld_unit_zero (S := S256x128) hz2, View.readCov_unit_zero (S := S2048x256) _ hz2]

end Cert.KernelIdeal.Val.R1

end
-- ==== Proof.Val.Region1Pay.lean ====
/- Region 1's arithmetic at the ideal values: the zeroing payload is zero, a reduction step adds to the accumulator the
   textbook product of the adjacency block and the operand's rows, and the last step's output is the textbook product
   of the rectified accumulator and the weights. -/
import proofs.«114752_j31224412242681_2_alg».proof.Proof.Gen.KernelIdeal.Skeleton
import proofs.«114752_j31224412242681_2_alg».proof.Proof.LibPlainDot
import proofs.«114752_j31224412242681_2_alg».proof.Proof.Spec
import Idealize.ShloMosaic.PureOps.Ideal.Laws
import Idealize.ShloMosaic.Lib.ValueIdx
import Idealize.ShloMosaic.Lib.Pipeline.Value

set_option maxRecDepth 16384

noncomputable section

open Idealize.ShloMosaic Idealize.ShloMosaic.TcCoe Idealize.SL.Sem
open Idealize.ShloMosaic.Pipeline (Dat)
open scoped BigOperators

namespace Cert.KernelIdeal.Val.R1

open Cert.KernelIdeal Cert.KernelIdeal.Gen

open Idealize.ShloMosaic.ValueIdx Idealize.ShloMosaic.PlainDot

theorem pay1_eq : k1_pay1 (F := Ideal) = fun _ => (0 : EReal) := by
  unfold k1_pay1
  funext j
  try dsimp only
  rw [shapeCast_self]
  exact Ideal.ofBits_zero_f32

theorem pay2_eq (a : Vec Ideal S2048x1024 .f32) (b : Vec Ideal S1024x256 .bf16) (acc : Vec Ideal S2048x256 .f32) (j : S2048x256.Idx) :
    (k1_pay2 (F := Ideal) a b acc j : EReal) = (acc j : EReal) + mm (M := 2048) (K := 1024) (N := 256) a b j := by
  unfold k1_pay2
  try dsimp only
  rw [shapeCast_self, shapeCast_self]
  exact congrArg (fun z : EReal => (acc j : EReal) + z) (congrFun (matmul_zero_eq_mm (M := 2048) (K := 1024) (N := 256) (φ₁ := .bf16) (φ₂ := .bf16) none a b) j)

theorem pay3_eq (acc : Vec Ideal S2048x256 .f32) (w : Vec Ideal S256x128 .f32) :
    k1_pay3 (F := Ideal) acc w = mm (M := 2048) (K := 256) (N := 128) (Cert.Spec.relu (S := ⟨2, ![2048, 256]⟩) acc) w := by
  unfold k1_pay3
  try dsimp only
  rw [shapeCast_self]
  refine (matmul_zero_eq_mm (M := 2048) (K := 256) (N := 128) (φ₁ := .bf16) (φ₂ := .bf16) none _ w).trans ?_
  refine congrArg (fun A => mm (M := 2048) (K := 256) (N := 128) A w) ?_
  funext i
  show max (acc i) (Ideal.ofBits .f32 0x00000000#32) = max (acc i) 0
  rw [Ideal.ofBits_zero_f32]

end Cert.KernelIdeal.Val.R1

end
-- ==== Proof.Val.Region1Blocks.lean ====
/- Region 1's input blocks as entries of the arrays the region is entered with: the adjacency block at point
   (i, k) holds rows 2048 i … and columns 1024 k … of the adjacency matrix; the two resident operands are whole
   arrays; the 1024 rows the reduction step reads of the resident operand are rows 1024 k … of it. -/
import proofs.«114752_j31224412242681_2_alg».proof.Proof.KernelIdealHand.Region1
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.KernelIdeal.Val.R1

open Cert.KernelIdeal Cert.KernelIdeal.Gen Cert.KernelIdeal.Hand

open Idealize.ShloMosaic.ValueIdx

variable (V : (c : Dev nD) → (b : Ref sig .tc) → Buf (Elt Ideal) ((c : Thread nD τ).loc b))

/-- The three arrays the region is entered with, as arrays of extended reals: the adjacency matrix, the first support
    and the packed second-layer weights. -/
abbrev adj1 (c : Dev nD) : S8192x8192.Idx → EReal := V c main_arg1
abbrev op1 (c : Dev nD) : S8192x256.Idx → EReal := V c main_v0
abbrev wp1 (c : Dev nD) : S256x128.Idx → EReal := V c main_v1

/-- The grid's point `t` is (t / 8, t % 8). -/
theorem coords1 : ∀ t : Fin cfg1.N, (grid1.coords t 0).val = t.val / 8 ∧ (grid1.coords t 1).val = t.val % 8 :=
  (by decide +kernel : ∀ t : Fin grid1.N, (grid1.coords t 0).val = t.val / 8 ∧ (grid1.coords t 1).val = t.val % 8)

/-- The block indices of the four windows at point `t`. -/
theorem idx1_0 : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)
theorem idx1_1 : ∀ t : Fin cfg1.N, win1_1.index t 0 = 0 ∧ win1_1.index t 1 = 0 :=
  (by decide +kernel : ∀ t : Fin grid1.N, win1_1.index t 0 = 0 ∧ win1_1.index t 1 = 0)
theorem idx1_2 : ∀ t : Fin cfg1.N, win1_2.index t 0 = 0 ∧ win1_2.index t 1 = 0 :=
  (by decide +kernel : ∀ t : Fin grid1.N, win1_2.index t 0 = 0 ∧ win1_2.index t 1 = 0)
theorem idx1_3 : ∀ t : Fin cfg1.N, win1_3.index t 0 = t.val / 8 ∧ win1_3.index t 1 = 0 :=
  (by decide +kernel : ∀ t : Fin grid1.N, win1_3.index t 0 = t.val / 8 ∧ win1_3.index t 1 = 0)

/-- The adjacency block at point `t`, at (r, k'), is the adjacency matrix at (2048 (t / 8) + r, 1024 (t % 8) + k'). -/
theorem iblk0_apply (c : Dev nD) (t : Fin cfg1.N) (x : S2048x1024.Idx) (k : S8192x8192.Idx)
    (hk0 : (k 0).val = 2048 * (t.val / 8) + (x 0).val) (hk1 : (k 1).val = 1024 * (t.val % 8) + (x 1).val) :
    (iblk1 V c 0 t : Vec Ideal S2048x1024 .f32) x = adj1 V c k := by
  obtain ⟨h0, h1⟩ := idx1_0 t
  unfold iblk1
  rw [View.read_apply]
  show V c main_arg1 _ = V c main_arg1 _
  congr 1
  funext a
  apply Fin.ext
  match a with
  | ⟨0, _⟩ => show win1_0.index t 0 * 2048 + 1 * (x 0).val = (k 0).val; rw [h0, hk0]; omega
  | ⟨1, _⟩ => show win1_0.index t 1 * 1024 + 1 * (x 1).val = (k 1).val; rw [h1, hk1]; omega

/-- The first resident operand's block is the whole array. -/
theorem iblk1_eq (c : Dev nD) (t : Fin cfg1.N) :
    (iblk1 V c 1 t : Vec Ideal S8192x256 .bf16) = op1 V c := by
  obtain ⟨h0, h1⟩ := idx1_1 t
  funext x
  unfold iblk1
  rw [View.read_apply]
  show V c main_v0 _ = V c main_v0 _
  congr 1
  funext a
  apply Fin.ext
  match a with
  | ⟨0, _⟩ => show win1_1.index t 0 * 8192 + 1 * (x 0).val = (x 0).val; rw [h0]; omega
  | ⟨1, _⟩ => show win1_1.index t 1 * 256 + 1 * (x 1).val = (x 1).val; rw [h1]; omega

/-- The second resident operand's block is the whole array. -/
theorem iblk2_eq (c : Dev nD) (t : Fin cfg1.N) :
    (iblk1 V c 2 t : Vec Ideal S256x128 .f32) = wp1 V c := by
  obtain ⟨h0, h1⟩ := idx1_2 t
  funext x
  unfold iblk1
  rw [View.read_apply]
  show V c main_v1 _ = V c main_v1 _
  congr 1
  funext a
  apply Fin.ext
  match a with
  | ⟨0, _⟩ => show win1_2.index t 0 * 256 + 1 * (x 0).val = (x 0).val; rw [h0]; omega
  | ⟨1, _⟩ => show win1_2.index t 1 * 128 + 1 * (x 1).val = (x 1).val; rw [h1]; omega

/-- The rows a reduction step reads of an 8192-row operand: at point `t`, row k' of them is row 1024 (t % 8) + k'. -/
theorem rows_apply (t : Fin cfg1.N) (X : Vec Ideal S8192x256 .bf16) (y : S1024x256.Idx) (k : S8192x256.Idx)
    (hk0 : (k 0).val = 1024 * (t.val % 8) + (y 0).val) (hk1 : (k 1).val = (y 1).val) :
    View.ld (Val := Elt Ideal) (e' := .bf16) X (Rect.unit (s := S8192x256) (k1_off1 (grid1.coords t)) S1024x256.size (k1_off1_inb (grid1.coords t))) y = X k := by
  show X _ = X k
  congr 1
  funext a
  apply Fin.ext
  have hc := (coords1 t).2
  match a with
  | ⟨0, _⟩ =>
    show k1_off1 (grid1.coords t) 0 + 1 * (y 0).val = (k 0).val
    rw [k1_off1_eq]; show 1024 * (grid1.coords t 1).val + 1 * (y 0).val = _; rw [hc, hk0]; omega
  | ⟨1, _⟩ =>
    show k1_off1 (grid1.coords t) 1 + 1 * (y 1).val = (k 1).val
    rw [k1_off1_eq]; show 0 + 1 * (y 1).val = _; rw [hk1]; omega

end Cert.KernelIdeal.Val.R1

end
-- ==== Proof.LibSumBlocks.lean ====
/-
  Sums taken block after block.  A finite family `g : Fin n → M` is read at any natural number (zero outside its
  range), so that a stretch of `B` consecutive terms starting at `B * k` is a sum over `range B` of one function of
  the natural numbers; then the first `B * k` terms plus the next `B` are the first `B * (k + 1)`, in any
  commutative additive monoid (on the extended reals too: only associativity is used).
-/
import Mathlib.Algebra.BigOperators.Fin
import Mathlib.Algebra.BigOperators.Intervals

namespace Cert.LibSumBlocks

variable {M : Type*} [AddCommMonoid M]

/-- A finite family read at a natural number: its entry inside the range, zero outside. -/
def ext {n : ℕ} (g : Fin n → M) (d : ℕ) : M := if h : d < n then g ⟨d, h⟩ else 0

theorem ext_of_lt {n : ℕ} (g : Fin n → M) (d : ℕ) (h : d < n) : ext g d = g ⟨d, h⟩ := dif_pos h

/-- The whole family's sum is the sum of its readings over `range n`. -/
theorem sum_univ_eq_range {n : ℕ} (g : Fin n → M) : ∑ k : Fin n, g k = ∑ d ∈ Finset.range n, ext g d := by
  rw [Finset.sum_range]
  exact Finset.sum_congr rfl fun k _ => (ext_of_lt g k.val k.isLt).symm

/-- A block of `B` terms whose `d'`-th term is the family's entry `B * k + d'` is the sum of the readings there. -/
theorem block_eq_range {n : ℕ} (g : Fin n → M) (B k : ℕ) (h : Fin B → M)
    (hh : ∀ d' : Fin B, ∃ hlt : B * k + d'.val < n, h d' = g ⟨B * k + d'.val, hlt⟩) :
    ∑ d' : Fin B, h d' = ∑ d ∈ Finset.range B, ext g (B * k + d) := by
  rw [Finset.sum_range]
  refine Finset.sum_congr rfl fun d' _ => ?_
  obtain ⟨hlt, e⟩ := hh d'
  rw [e, ext_of_lt g _ hlt]

/-- The first `B * k` terms, then the next `B`: the first `B * (k + 1)`. -/
theorem prefix_add_block (f : ℕ → M) (B k : ℕ) :
    (∑ d ∈ Finset.range (B * k), f d) + (∑ d ∈ Finset.range B, f (B * k + d))
      = ∑ d ∈ Finset.range (B * (k + 1)), f d := by
  rw [Nat.mul_succ, Finset.sum_range_add]

end Cert.LibSumBlocks
-- ==== Proof.Val.Region1Acc.lean ====
/- Region 1's carried scratch after each grid point, at the ideal values: after point 8 i + k the scratch holds, at
   (r, col), the sum over the first 1024 (k + 1) columns d of adjacency (2048 i + r, d) times operand (d, col) — by
   induction on the point, each step adding one block of 1024 terms; after the last step of a row block that is the
   whole product's entry. Only associativity of addition on the extended reals is used. -/
import proofs.«114752_j31224412242681_2_alg».proof.Proof.Val.Region1Pieces
import proofs.«114752_j31224412242681_2_alg».proof.Proof.Val.Region1Pay
import proofs.«114752_j31224412242681_2_alg».proof.Proof.Val.Region1Blocks
import proofs.«114752_j31224412242681_2_alg».proof.Proof.LibSumBlocks
import proofs.«114752_j31224412242681_2_alg».proof.Proof.Spec

set_option maxRecDepth 16384

noncomputable section

open Idealize.ShloMosaic Idealize.ShloMosaic.TcCoe Idealize.SL.Sem
open Idealize.ShloMosaic.Pipeline (Dat)
open scoped BigOperators

namespace Cert.KernelIdeal.Val.R1

open Cert.KernelIdeal Cert.KernelIdeal.Gen Cert.KernelIdeal.Hand

open Idealize.ShloMosaic.ValueIdx Idealize.ShloMosaic.PlainDot Cert.LibSumBlocks

variable (V : (c : Dev nD) → (b : Ref sig .tc) → Buf (Elt Ideal) ((c : Thread nD τ).loc b))

/-- The terms of the product of the adjacency matrix and the operand, for row `R` and column `col`. -/
def term (c : Dev nD) (R : Fin 8192) (col : Fin 256) : Fin 8192 → EReal :=
  fun k => adj1 V c (ix2 R k) * op1 V c (ix2 k col)

/-- A prefix of `1024 k` terms plus the next block of 1024 is the prefix of `1024 (k + 1)` terms. -/
theorem acc_step (g : Fin 8192 → EReal) (k : ℕ) (prev : EReal) (h : Fin 1024 → EReal)
    (hh : ∀ d' : Fin 1024, ∃ hlt : 1024 * k + d'.val < 8192, h d' = g ⟨1024 * k + d'.val, hlt⟩)
    (hprev : prev = ∑ d ∈ Finset.range (1024 * k), ext g d) :
    prev + ∑ d' : Fin 1024, h d' = ∑ d ∈ Finset.range (1024 * (k + 1)), ext g d := by
  rw [hprev, block_eq_range g 1024 k h hh, prefix_add_block]

/-- One reduction step at point `t`, read at `j`: from the prefix of `1024 (t % 8)` terms to that of `1024 (t % 8 + 1)`. -/
theorem step_at (c : Dev nD) (t : Fin cfg1.N) (acc : Vec Ideal S2048x256 .f32) (j : S2048x256.Idx) (R : Fin 8192)
    (hR : R.val = 2048 * (t.val / 8) + (j 0).val)
    (hprev : (acc j : EReal) = ∑ d ∈ Finset.range (1024 * (t.val % 8)), ext (term V c R (j 1)) d) :
    (k1_pay2 (F := Ideal) (iblk1 V c 0 t) (opRows (grid1.coords t) (iblk1 V c 1 t)) acc j : EReal)
      = ∑ d ∈ Finset.range (1024 * (t.val % 8 + 1)), ext (term V c R (j 1)) d := by
  rw [pay2_eq]
  unfold mm
  refine acc_step (term V c R (j 1)) (t.val % 8) (acc j)
    _
    (fun d' => ?_) hprev
  have hlt : 1024 * (t.val % 8) + d'.val < 8192 := by have := d'.isLt; omega
  refine ⟨hlt, ?_⟩
  unfold term
  refine congrArg₂ (fun a b : EReal => a * b) ?_ ?_
  · exact iblk0_apply V c t (ix2 (j 0) d') (ix2 R ⟨1024 * (t.val % 8) + d'.val, hlt⟩) hR rfl
  · rw [iblk1_eq]
    exact rows_apply t _ (ix2 d' (j 1)) (ix2 ⟨1024 * (t.val % 8) + d'.val, hlt⟩ (j 1)) rfl rfl

/-- The first step of a row block starts from the zeroed scratch. -/
theorem stepA_at (c : Dev nD) (t : Fin cfg1.N) (h0 : t.val % 8 = 0) (j : S2048x256.Idx) (R : Fin 8192)
    (hR : R.val = 2048 * (t.val / 8) + (j 0).val) :
    (k1_pay2 (F := Ideal) (iblk1 V c 0 t) (opRows (grid1.coords t) (iblk1 V c 1 t)) (k1_pay1 (F := Ideal)) j : EReal)
      = ∑ d ∈ Finset.range (1024 * (t.val % 8 + 1)), ext (term V c R (j 1)) d :=
  step_at V c t _ j R hR (by rw [pay1_eq, h0, Nat.mul_zero, Finset.range_zero, Finset.sum_empty])

/-- THE ACCUMULATION: after point `n` the scratch holds, at `j`, the first `1024 (n % 8 + 1)` terms of the product's
    entry for row `2048 (n / 8) + j 0` and column `j 1`. -/
theorem acc_inv (c : Dev nD) : ∀ (n : ℕ) (hn : n < cfg1.N) (j : S2048x256.Idx) (R : Fin 8192),
    R.val = 2048 * (n / 8) + (j 0).val →
    ((outsAt1 V c n hn).2 j : EReal) = ∑ d ∈ Finset.range (1024 * (n % 8 + 1)), ext (term V c R (j 1)) d := by
  intro n
  induction n with
  | zero =>
    intro hn j R hR
    refine (congrFun (congrArg Prod.snd (outsAt1_A V c ⟨0, hn⟩ (Nat.zero_mod _) (by show ¬ 0 % 8 = 7; decide))) j).trans ?_
    dsimp only
    rw [soutA_eq]
    exact stepA_at V c ⟨0, hn⟩ (Nat.zero_mod _) j R hR
  | succ n ih =>
    intro hn j R hR
    by_cases h0 : (n + 1) % 8 = 0
    · refine (congrFun (congrArg Prod.snd (outsAt1_A V c ⟨n + 1, hn⟩ h0 (by show ¬ (n + 1) % 8 = 7; omega))) j).trans ?_
      dsimp only
      rw [soutA_eq]
      exact stepA_at V c ⟨n + 1, hn⟩ h0 j R hR
    · have hprev : ((outsAt1 V c n (Nat.lt_of_succ_lt hn)).2 j : EReal)
          = ∑ d ∈ Finset.range (1024 * ((n + 1) % 8)), ext (term V c R (j 1)) d := by
        rw [show (n + 1) % 8 = n % 8 + 1 by omega]
        exact ih (Nat.lt_of_succ_lt hn) j R (by omega)
      by_cases h1 : (n + 1) % 8 = 7
      · refine (congrFun (congrArg Prod.snd (outsAt1_C V c ⟨n + 1, hn⟩ h0 h1)) j).trans ?_
        dsimp only
        rw [soutC_eq]
        exact step_at V c ⟨n + 1, hn⟩ (outsAt1 V c n (Nat.lt_of_succ_lt hn)).2 j R hR hprev
      · refine (congrFun (congrArg Prod.snd (outsAt1_B V c ⟨n + 1, hn⟩ h0 h1)) j).trans ?_
        dsimp only
        rw [soutB_eq]
        exact step_at V c ⟨n + 1, hn⟩ (outsAt1 V c n (Nat.lt_of_succ_lt hn)).2 j R hR hprev

/-- After the last step of a row block the scratch holds the product's entries of the block's rows. -/
theorem acc_last (c : Dev nD) (t : Fin cfg1.N) (h1 : t.val % 8 = 7) (j : S2048x256.Idx) (R : Fin 8192)
    (hR : R.val = 2048 * (t.val / 8) + (j 0).val) :
    ((outsAt1 V c t.val t.isLt).2 j : EReal)
      = mm (M := 8192) (K := 8192) (N := 256) (adj1 V c) (op1 V c) (ix2 R (j 1)) := by
  rw [acc_inv V c t.val t.isLt j R hR, h1]
  unfold mm
  exact (sum_univ_eq_range (term V c R (j 1))).symm

end Cert.KernelIdeal.Val.R1

end
-- ==== Proof.Val.Region1Value.lean ====
/- THE VALUE OF REGION 1 at the ideal values: the array it leaves is one function of the arrays it is entered with —
   the rectified product of the adjacency matrix and the first support, times the packed second-layer weights. The
   block stored at the last step of row block i holds rows 2048 i … of that array (the accumulated scratch is the
   product's rows; the rectifier and the second product are entry by entry), and the four blocks written back cover
   the array. -/
import proofs.«114752_j31224412242681_2_alg».proof.Proof.Val.Region1Acc
import proofs.«114752_j31224412242681_2_alg».proof.Proof.LibRowBlocks
import proofs.«114752_j31224412242681_2_alg».proof.Proof.Spec
import Idealize.ShloMosaic.Lib.Pipeline.Value

set_option maxRecDepth 16384

noncomputable section

open Idealize.ShloMosaic Idealize.ShloMosaic.TcCoe Idealize.SL.Sem
open Idealize.ShloMosaic.Pipeline (Dat)
open scoped BigOperators

namespace Cert.KernelIdeal.Val.R1

open Cert.KernelIdeal Cert.KernelIdeal.Gen Cert.KernelIdeal.Hand

open Idealize.ShloMosaic.ValueIdx Idealize.ShloMosaic.PlainDot Idealize.ShloMosaic.RowBlocks

variable (V : (c : Dev nD) → (b : Ref sig .tc) → Buf (Elt Ideal) ((c : Thread nD τ).loc b))

/-- The array region 1 leaves, as a function of the arrays it is entered with. -/
abbrev G1 (c : Dev nD) : S8192x128.Idx → EReal :=
  Cert.Spec.support2 (adj1 V c) (op1 V c) (wp1 V c)

/-- At the last step of a row block the stored output is the body's last payload of the scratch it has just updated. -/
theorem out_eq_pay3 (c : Dev nD) (t : Fin cfg1.N) (h1 : t.val % 8 = 7) :
    (outsAt1 V c t.val t.isLt).1 = k1_pay3 (F := Ideal) (outsAt1 V c t.val t.isLt).2 (iblk1 V c 2 t) := by
  have h0 : ¬ t.val % 8 = 0 := by omega
  rw [outsAt1_C V c t h0 h1]
  dsimp only
  rw [outC_eq, soutC_eq]

/-- The block stored at the last step of row block `t / 8`, at `y`, is the array's entry at row `2048 (t / 8) + y 0`. -/
theorem out_last (c : Dev nD) (t : Fin cfg1.N) (h1 : t.val % 8 = 7) (y : S2048x128.Idx) (i : S8192x128.Idx)
    (hi0 : (i 0).val = 2048 * (t.val / 8) + (y 0).val) (hi1 : (i 1).val = (y 1).val) :
    ((outsAt1 V c t.val t.isLt).1 y : EReal) = G1 V c i := by
  rw [out_eq_pay3 V c t h1, pay3_eq, iblk2_eq]
  unfold G1 Cert.Spec.support2 Cert.Spec.hidden
  refine mm_block_entry (M := 8192) (Mb := 2048) (K := 256) (N := 128) _ _ _ i y (fun k => ?_) hi1.symm
  show max ((outsAt1 V c t.val t.isLt).2 (ix2 (y 0) k) : EReal) 0 = max (mm (M := 8192) (K := 8192) (N := 256) (adj1 V c) (op1 V c) (ix2 (i 0) k)) 0
  rw [acc_last V c t h1 (ix2 (y 0) k) (i 0) hi0]

/-- The extents of the output window's blocks. -/
theorem xsize1_3 : ∀ t : Fin cfg1.N, win1_3.xsize (grid1.coords t) 0 = 2048 ∧ win1_3.xsize (grid1.coords t) 1 = 128 :=
  (by decide +kernel : ∀ t : Fin grid1.N, win1_3.xsize (grid1.coords t) 0 = 2048 ∧ win1_3.xsize (grid1.coords t) 1 = 128)

/-- Each write-back writes its block of the array. -/
theorem flushed1_eq (c : Dev nD) (t : Fin cfg1.N) (hf : (cfg1.win 3).flush t = true) :
    (dat1 V c).flushed 3 t = ((cfg1.win 3).blk t).view.read (Elt Ideal) (G1 V c) := by
  have h1 : t.val % 8 = 7 := (flush1_3 t).mp hf
  show (cfg1.win 3).cut (grid1.coords t) ((dat1 V c).after 3 t) = _
  rw [after1_3]
  funext y
  rw [View.read_apply]
  refine out_last V c t h1 y _ ?_ ?_
  · show win1_3.index t 0 * 2048 + 1 * (y 0).val = _; rw [(idx1_3 t).1]; omega
  · show win1_3.index t 1 * 128 + 1 * (y 1).val = _; rw [(idx1_3 t).2]; omega

/-- THE VALUE: region 1 leaves `main_v2` at the second support of the arrays it is entered with. -/
theorem arrAt1_eq (c : Dev nD) : (dat1 (F := Ideal) V c).arrAt 3 cfg1.N = G1 V c :=
  (dat1 V c).arrAt_eq_of_cover 3 (G1 V c) (flushed1_eq V c) fun i => by
    have hi0 : (i 0 : ℕ) < 8192 := (i 0).isLt
    have hi1 : (i 1 : ℕ) < 128 := (i 1).isLt
    have hN : cfg1.N = 32 := N_1
    have ht : 8 * ((i 0 : ℕ) / 2048) + 7 < cfg1.N := by omega
    refine ⟨⟨8 * ((i 0 : ℕ) / 2048) + 7, ht⟩, (flush1_3 _).mpr (by show (8 * ((i 0 : ℕ) / 2048) + 7) % 8 = 7; omega), ?_⟩
    show i ∈ ((View.whole main_v2).slice (win1_3.rect ⟨8 * ((i 0 : ℕ) / 2048) + 7, ht⟩)).set
    rw [View.set_slice_whole, Rect.mem_set_unit]
    intro a
    match a with
    | ⟨0, _⟩ =>
      show win1_3.index ⟨8 * ((i 0 : ℕ) / 2048) + 7, ht⟩ 0 * win1_3.size 0 ≤ (i 0 : ℕ) ∧ (i 0 : ℕ) < win1_3.index ⟨8 * ((i 0 : ℕ) / 2048) + 7, ht⟩ 0 * win1_3.size 0 + win1_3.xsize (grid1.coords ⟨8 * ((i 0 : ℕ) / 2048) + 7, ht⟩) 0
      rw [(idx1_3 _).1, (xsize1_3 _).1]
      show (8 * ((i 0 : ℕ) / 2048) + 7) / 8 * 2048 ≤ (i 0 : ℕ) ∧ (i 0 : ℕ) < (8 * ((i 0 : ℕ) / 2048) + 7) / 8 * 2048 + 2048
      omega
    | ⟨1, _⟩ =>
      show win1_3.index ⟨8 * ((i 0 : ℕ) / 2048) + 7, ht⟩ 1 * win1_3.size 1 ≤ (i 1 : ℕ) ∧ (i 1 : ℕ) < win1_3.index ⟨8 * ((i 0 : ℕ) / 2048) + 7, ht⟩ 1 * win1_3.size 1 + win1_3.xsize (grid1.coords ⟨8 * ((i 0 : ℕ) / 2048) + 7, ht⟩) 1
      rw [(idx1_3 _).2, (xsize1_3 _).2]
      show 0 * 128 ≤ (i 1 : ℕ) ∧ (i 1 : ℕ) < 0 * 128 + 128
      omega

end Cert.KernelIdeal.Val.R1

namespace Cert.KernelIdeal.Val

open Cert.KernelIdeal Cert.KernelIdeal.Gen Cert.KernelIdeal.Hand

variable (V : (c : Dev nD) → (b : Ref sig .tc) → Buf (Elt Ideal) ((c : Thread nD τ).loc b))

/-- THE VALUE OF REGION 1, entry by entry: the array it leaves in `main_v2` is the second support of the arrays it is
    entered with. -/
theorem arrAt1_out (c : Dev nD) (i : S8192x128.Idx) :
    ((dat1 (F := Ideal) V c).arrAt 3 cfg1.N : S8192x128.Idx → EReal) i
      = Cert.Spec.support2 (V c main_arg1 : S8192x8192.Idx → EReal) (V c main_v0 : S8192x256.Idx → EReal) (V c main_v1 : S256x128.Idx → EReal) i :=
  congrFun (R1.arrAt1_eq V c) i

end Cert.KernelIdeal.Val

end
-- ==== Proof.LibTileDot.lean ====
/-
  A tile product into the zero accumulator, read at one output index, at the ideal values and whatever precision
  the operation names: with the contraction running over one axis of extent `K`, the entry is the sum over
  `k : Fin K` of the left operand times the right operand, each read at the index the dimension numbers assign to
  the output index and `k`. The caller names the two operand indices as functions of `k`.
-/
import Idealize.ShloMosaic.Lib.ValueIdx
import Idealize.ShloMosaic.PureOps.Ideal.Laws

noncomputable section

namespace Cert.LibTileDot

open Idealize.ShloMosaic Idealize.ShloMosaic.ValueIdx

/-- The matrix unit's product of two tiles into a zero accumulator, at output index `j`: the sum over the one
    contracted axis, each factor read where the dimension numbers send `j` and `k`. -/
theorem matmul_zero_at {sl sr so : Shape} {φ₁ φ₂ : FTy} (d : DotDims sl sr so) (prec : Option ContractPrecision) (K : ℕ)
    (hr : d.contr.rank = 1) (hs : d.contr.size ⟨0, by omega⟩ = K)
    (lhs : FVec Ideal sl φ₁) (rhs : FVec Ideal sr φ₂) (j : so.Idx)
    (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    FloatOps.matmul d prec lhs rhs (constant so .f32 0x00000000#32) j = ∑ k : Fin K, lhs (li k) * rhs (ri k) := by
  rw [Ideal.matmul_constant_zero_apply, ← Equiv.sum_comp (contrEquiv1 d K hr hs).symm]
  exact Finset.sum_congr rfl fun k _ => by rw [hl k, hri k]

end Cert.LibTileDot

end
-- ==== Proof.LibAccBlocks.lean ====
/-
  Sums accumulated block by block.

  A quantity that gains, at step `k`, the sum of `f` over the `k`-th block of `B` consecutive naturals has gained,
  after `K` steps, the sum of `f` over the first `B * K` naturals (`acc_blocks`, and from an offset
  `acc_blocks_offset`); a sum over `n + n` naturals is the sum over the first `n` plus the sum over the next `n`
  (`two_halves`); a sum over `Fin n` is a sum over `range n` (`sum_fin_eq_range`).
-/
import Mathlib.Algebra.BigOperators.Fin

open Finset

namespace Cert.LibAccBlocks

variable {M : Type*} [AddCommMonoid M]

/-- Block by block from an offset `o`: if `a (k + 1) = a k + ∑ d < B, f (o + B k + d)` for every `k < K`, then
    `a K = a 0 + ∑ d < B K, f (o + d)`. -/
theorem acc_blocks_offset (B K o : ℕ) (a : ℕ → M) (f : ℕ → M)
    (h : ∀ k, k < K → a (k + 1) = a k + ∑ d ∈ range B, f (o + B * k + d)) :
    a K = a 0 + ∑ d ∈ range (B * K), f (o + d) := by
  induction K with
  | zero => simp
  | succ K ih =>
    have e : ∀ d, f (o + B * K + d) = f (o + (B * K + d)) := fun d => by rw [Nat.add_assoc]
    rw [h K (Nat.lt_succ_self K), ih (fun k hk => h k (Nat.lt_succ_of_lt hk)), Nat.mul_succ,
      sum_range_add (fun d => f (o + d)) (B * K) B]
    simp only [e, add_assoc]

/-- Block by block from zero: if `a (k + 1) = a k + ∑ d < B, f (B k + d)` for every `k < K`, then
    `a K = a 0 + ∑ d < B K, f d`. -/
theorem acc_blocks (B K : ℕ) (a : ℕ → M) (f : ℕ → M)
    (h : ∀ k, k < K → a (k + 1) = a k + ∑ d ∈ range B, f (B * k + d)) :
    a K = a 0 + ∑ d ∈ range (B * K), f d := by
  have h' : ∀ k, k < K → a (k + 1) = a k + ∑ d ∈ range B, f (0 + B * k + d) := fun k hk => by
    rw [h k hk]; simp only [Nat.zero_add]
  have := acc_blocks_offset B K 0 a f h'
  simpa only [Nat.zero_add] using this

/-- The first `n` terms plus the next `n` terms are the first `n + n` terms. -/
theorem two_halves (n : ℕ) (f : ℕ → M) :
    (∑ d ∈ range n, f d) + (∑ d ∈ range n, f (n + d)) = ∑ d ∈ range (n + n), f d :=
  (sum_range_add f n n).symm

/-- A sum over `Fin n` as a sum over `range n`. -/
theorem sum_fin_eq_range (n : ℕ) (g : Fin n → M) :
    ∑ k : Fin n, g k = ∑ d ∈ range n, (if h : d < n then g ⟨d, h⟩ else 0) := by
  rw [sum_range fun d => if h : d < n then g ⟨d, h⟩ else 0]
  exact Fintype.sum_congr _ _ fun k => by rw [dif_pos k.isLt]

end Cert.LibAccBlocks
-- ==== Proof.Val.Region2Value.lean ====
/- The value of region 2 of @main (the third pallas_call) at the ideal values: the array it leaves in main_v3 is the
   textbook product adj · main_v2 of the arrays it is entered with.

   The grid is 4 × 8, point t = 8·i + k. Each point adds to a carried accumulator the product of the adj block (i, k)
   (rows 2048·i …, columns 1024·k …) with rows 1024·k … 1024·k + 1023 of the resident operand; the accumulator is zeroed
   at k = 0 and stored into output block i at k = 7. So after point 8·i + k the accumulator's entry (r, col) is the sum
   over the first 1024·(k + 1) contracted positions d of adj (2048·i + r, d) · operand (d, col) (induction on the point;
   only associativity of + on the extended reals and 0 + x = x are used), at k = 7 all 8192 terms, which is entry
   (2048·i + r, col) of the product; the four blocks written back at the points with k = 7 cover main_v3. -/
import proofs.«114752_j31224412242681_2_alg».proof.Proof.KernelIdealHand.Region2
import proofs.«114752_j31224412242681_2_alg».proof.Proof.Spec
import proofs.«114752_j31224412242681_2_alg».proof.Proof.LibTileDot
import proofs.«114752_j31224412242681_2_alg».proof.Proof.LibAccBlocks
import proofs.«114752_j31224412242681_2_alg».proof.Proof.LibSumBlocks
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open scoped BigOperators

namespace Cert.KernelIdeal.Val

open Cert.KernelIdeal Cert.KernelIdeal.Gen Cert.KernelIdeal.Hand
open Idealize.ShloMosaic.ValueIdx

variable {F : FTy → Type} [FloatOps F]

theorem hz : (![0, 0] : Fin 2 → Nat) = fun _ => 0 := funext fun a => by fin_cases a <;> rfl

/-- The slab of the resident operand a point reads: 1024 rows from row 1024·k on, k the second grid coordinate. -/
abbrev slab2 (i : grid2.Coords) (x1 : Vec F S8192x128 .bf16) : Vec F S1024x128 .bf16 :=
  View.ld x1 (Rect.unit (s := S8192x128) (k2_off1 i) S1024x128.size (k2_off1_inb i))

/-- A point with k = 0 leaves in the accumulator the zero array plus the point's product. -/
theorem soutA_eq (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : ¬cond2_1 i) (x0 : Vec F S2048x1024 .f32) (x1 : Vec F S8192x128 .bf16) :
    sout2_A_0 c i arg2 harg2 arg3 harg3 arg4 harg4 arg5 harg5 hc0 hc1 x0 x1 = k2_pay2 x0 (slab2 i x1) (k2_pay1 (F := F)) := by
  unfold sout2_A_0
  rw [View.read_writes_eq_canon _ _ _ (scover2_A_0 c i arg2 harg2 arg3 harg3 arg4 harg4 arg5 harg5 hc0 hc1 x0 x1)]
  unfold kernelRun2_A
  dsimp only
  try sl_unfold_run_names
  rw [View.canon_cons_unit_zero hz, View.readCov_unit_zero (S := S2048x128) _ hz]
  simp only [View.readAt_eq_ld, harg2.read_unread, harg3.read_unread, View.ld_unit_zero (S := S2048x1024) hz]

/-- A point with 0 < k < 7 leaves in the accumulator what it held plus the point's product. -/
theorem soutB_eq (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : ¬cond2_1 i) (x0 : Vec F S2048x1024 .f32) (x1 : Vec F S8192x128 .bf16) (xs0 : Vec F S2048x128 .f32) :
    sout2_B_0 c i arg2 harg2 arg3 harg3 arg4 harg4 arg5 harg5 hc0 hc1 x0 x1 xs0 = k2_pay2 x0 (slab2 i x1) xs0 := by
  unfold sout2_B_0
  rw [View.read_writes_eq_canon _ _ _ (scover2_B_0 c i arg2 harg2 arg3 harg3 arg4 harg4 arg5 harg5 hc0 hc1 x0 x1 xs0)]
  unfold kernelRun2_B
  dsimp only
  try sl_unfold_run_names
  rw [View.canon_unit_zero hz]
  simp only [View.readAt_eq_ld, harg2.read_unread, harg3.read_unread, harg5.read_unread, View.ld_unit_zero (S := S2048x1024) hz, View.ld_unit_zero (S := S2048x128) hz]

/-- A point with k = 7 leaves in the accumulator what it held plus the point's product, -/
theorem soutC_eq (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i) (x0 : Vec F S2048x1024 .f32) (x1 : Vec F S8192x128 .bf16) (xs0 : Vec F S2048x128 .f32) :
    sout2_C_0 c i arg2 harg2 arg3 harg3 arg4 harg4 arg5 harg5 hc0 hc1 x0 x1 xs0 = k2_pay2 x0 (slab2 i x1) xs0 := by
  unfold sout2_C_0
  rw [View.read_writes_eq_canon _ _ _ (scover2_C_0 c i arg2 harg2 arg3 harg3 arg4 harg4 arg5 harg5 hc0 hc1 x0 x1 xs0)]
  unfold kernelRun2_C
  dsimp only
  try sl_unfold_run_names
  rw [View.canon_unit_zero hz]
  simp only [View.readAt_eq_ld, harg2.read_unread, harg3.read_unread, harg5.read_unread, View.ld_unit_zero (S := S2048x1024) hz, View.ld_unit_zero (S := S2048x128) hz]

/-- and stores the same array into the output block. -/
theorem outC_eq (c : Dev nD) (i : grid2.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i) (x0 : Vec F S2048x1024 .f32) (x1 : Vec F S8192x128 .bf16) (xs0 : Vec F S2048x128 .f32) :
    out2_C_2 c i arg2 harg2 arg3 harg3 arg4 harg4 arg5 harg5 hc0 hc1 x0 x1 xs0 = k2_pay2 x0 (slab2 i x1) xs0 := by
  unfold out2_C_2
  rw [View.read_writes_eq_canon _ _ _ (cover2_C_2 c i arg2 harg2 arg3 harg3 arg4 harg4 arg5 harg5 hc0 hc1 x0 x1 xs0)]
  unfold kernelRun2_C
  dsimp only
  try sl_unfold_run_names
  rw [View.canon_unit_zero hz, View.readCov_unit_zero (S := S2048x128) _ hz]
  simp only [View.readAt_eq_ld, harg2.read_unread, harg3.read_unread, harg5.read_unread, View.ld_unit_zero (S := S2048x1024) hz, View.ld_unit_zero (S := S2048x128) hz]

/-! ## At the ideal values -/

section AtIdeal

/-- A rank-2 array of extended reals read at two natural numbers: its entry inside the extents, zero outside. -/
def rd2 {n0 n1 : Nat} (X : (⟨2, ![n0, n1]⟩ : Shape).Idx → EReal) (a b : ℕ) : EReal :=
  if h : a < n0 ∧ b < n1 then X (ix2 ⟨a, h.1⟩ ⟨b, h.2⟩) else 0

theorem rd2_of_lt {n0 n1 : Nat} (X : (⟨2, ![n0, n1]⟩ : Shape).Idx → EReal) (a b : ℕ) (ha : a < n0) (hb : b < n1) :
    rd2 X a b = X (ix2 ⟨a, ha⟩ ⟨b, hb⟩) := dif_pos ⟨ha, hb⟩

/-- The zeroing payload is the zero array. -/
theorem pay1_apply (j : S2048x128.Idx) : (k2_pay1 (F := Ideal) j : EReal) = 0 := by
  unfold k2_pay1
  simp only [shapeCast_self]
  exact Ideal.ofBits_zero_f32

/-- The left operand's index of the tile product at output (r, col) and contracted position k is (r, k), -/
theorem lhsIdx_tile (r : Fin 2048) (col : Fin 128) (k : Fin 1024) :
    dot_S2048x1024_S1024x128_S2048x128_1_0_0_1_n_n.lhsIdx (ix2 r col) ((contrEquiv1 dot_S2048x1024_S1024x128_S2048x128_1_0_0_1_n_n 1024 rfl rfl).symm k) = ix2 r k := by
  funext a
  apply Fin.ext
  have hk := contrEquiv1_symm_val dot_S2048x1024_S1024x128_S2048x128_1_0_0_1_n_n 1024 rfl rfl k
  match a with
  | ⟨0, _⟩ => rfl
  | ⟨1, _⟩ => exact (dot_S2048x1024_S1024x128_S2048x128_1_0_0_1_n_n.lhsIdx_val_of_single rfl (ix2 r col) _).trans hk

/-- and the right operand's is (k, col). -/
theorem rhsIdx_tile (r : Fin 2048) (col : Fin 128) (k : Fin 1024) :
    dot_S2048x1024_S1024x128_S2048x128_1_0_0_1_n_n.rhsIdx (ix2 r col) ((contrEquiv1 dot_S2048x1024_S1024x128_S2048x128_1_0_0_1_n_n 1024 rfl rfl).symm k) = ix2 k col := by
  funext a
  apply Fin.ext
  have hk := contrEquiv1_symm_val dot_S2048x1024_S1024x128_S2048x128_1_0_0_1_n_n 1024 rfl rfl k
  match a with
  | ⟨0, _⟩ => exact (dot_S2048x1024_S1024x128_S2048x128_1_0_0_1_n_n.rhsIdx_val_of_single rfl (ix2 r col) _).trans hk
  | ⟨1, _⟩ => rfl

/-- The accumulating payload at an index: the accumulator's entry plus the sum over the tile's 1024 contracted
    positions of the adj block's entry times the slab's. -/
theorem pay2_apply (x0 : FVec Ideal S2048x1024 .f32) (v8 : FVec Ideal S1024x128 .bf16) (acc : FVec Ideal S2048x128 .f32)
    (r : Fin 2048) (col : Fin 128) :
    (k2_pay2 (F := Ideal) x0 v8 acc (ix2 r col) : EReal)
      = (acc (ix2 r col) : EReal) + ∑ k : Fin 1024, (x0 (ix2 r k) : EReal) * (v8 (ix2 k col) : EReal) := by
  unfold k2_pay2
  simp only [shapeCast_self]
  refine congrArg (fun z : EReal => (acc (ix2 r col) : EReal) + z) ?_
  exact Cert.LibTileDot.matmul_zero_at dot_S2048x1024_S1024x128_S2048x128_1_0_0_1_n_n none 1024 rfl rfl (truncf .bf16 x0 bitsLt_bf16_f32) v8 (ix2 r col)
    (fun k => ix2 r k) (fun k => ix2 k col) (lhsIdx_tile r col) (rhsIdx_tile r col)

end AtIdeal

section Blocks
variable (V : (c : Dev nD) → (b : Ref sig .tc) → Buf (Elt Ideal) ((c : Thread nD τ).loc b))

/-- The adjacency matrix and the resident operand as the region finds them. -/
abbrev adjOf (c : Dev nD) : S8192x8192.Idx → EReal := V c main_arg1
abbrev opOf (c : Dev nD) : S8192x128.Idx → EReal := V c main_v2

/-- The windows' block indices at point t = 8·i + k: (i, k) for the adj block, (0, 0) for the resident operand,
    (i, 0) for the output block; the second grid coordinate is k. -/
theorem idx2_0 : ∀ t : Fin cfg2.N, win2_0.index t 0 = t.val / 8 ∧ win2_0.index t 1 = t.val % 8 :=
  (by decide +kernel : ∀ t : Fin grid2.N, win2_0.index t 0 = t.val / 8 ∧ win2_0.index t 1 = t.val % 8)
theorem idx2_1 : ∀ t : Fin cfg2.N, win2_1.index t 0 = 0 ∧ win2_1.index t 1 = 0 :=
  (by decide +kernel : ∀ t : Fin grid2.N, win2_1.index t 0 = 0 ∧ win2_1.index t 1 = 0)
theorem idx2_2 : ∀ t : Fin cfg2.N, win2_2.index t 0 = t.val / 8 ∧ win2_2.index t 1 = 0 :=
  (by decide +kernel : ∀ t : Fin grid2.N, win2_2.index t 0 = t.val / 8 ∧ win2_2.index t 1 = 0)
theorem coord2_1 : ∀ t : Fin cfg2.N, ((grid2.coords t) 1).val = t.val % 8 :=
  (by decide +kernel : ∀ t : Fin grid2.N, ((grid2.coords t) 1).val = t.val % 8)

/-- The adj block at point t = 8·i + k holds rows 2048·i … and columns 1024·k … of the adjacency matrix. -/
theorem iblk0_apply (c : Dev nD) (t : Fin cfg2.N) (r : Fin 2048) (k : Fin 1024) :
    ((iblk2 V c 0 t : Vec Ideal S2048x1024 .f32) (ix2 r k) : EReal)
      = rd2 (adjOf V c) (2048 * (t.val / 8) + r.val) (1024 * (t.val % 8) + k.val) := by
  have hN : t.val < 32 := lt_of_lt_of_eq t.isLt N_2
  have hi := idx2_0 t
  have hr := r.isLt
  have hk := k.isLt
  rw [rd2_of_lt _ _ _ (by omega) (by omega)]
  unfold iblk2
  rw [View.read_apply]
  show (V c main_arg1 : S8192x8192.Idx → EReal) _ = (V c main_arg1 : S8192x8192.Idx → EReal) _
  congr 1
  funext a
  apply Fin.ext
  match a with
  | ⟨0, _⟩ => show win2_0.index t 0 * 2048 + 1 * r.val = 2048 * (t.val / 8) + r.val; rw [hi.1]; omega
  | ⟨1, _⟩ => show win2_0.index t 1 * 1024 + 1 * k.val = 1024 * (t.val % 8) + k.val; rw [hi.2]; omega

/-- The resident operand's block is the whole array at every point. -/
theorem iblk1_apply (c : Dev nD) (t : Fin cfg2.N) (d : Fin 8192) (col : Fin 128) :
    ((iblk2 V c 1 t : Vec Ideal S8192x128 .bf16) (ix2 d col) : EReal) = opOf V c (ix2 d col) := by
  have hi := idx2_1 t
  unfold iblk2
  rw [View.read_apply]
  show (V c main_v2 : S8192x128.Idx → EReal) _ = (V c main_v2 : S8192x128.Idx → EReal) _
  congr 1
  funext a
  apply Fin.ext
  match a with
  | ⟨0, _⟩ => show win2_1.index t 0 * 8192 + 1 * d.val = d.val; rw [hi.1]; omega
  | ⟨1, _⟩ => show win2_1.index t 1 * 128 + 1 * col.val = col.val; rw [hi.2]; omega

/-- The slab a point reads is rows 1024·k … 1024·k + 1023 of the resident operand. -/
theorem slab_apply (c : Dev nD) (t : Fin cfg2.N) (k : Fin 1024) (col : Fin 128) :
    (slab2 (F := Ideal) (grid2.coords t) (iblk2 V c 1 t) (ix2 k col) : EReal)
      = rd2 (opOf V c) (1024 * (t.val % 8) + k.val) col.val := by
  have hN : t.val < 32 := lt_of_lt_of_eq t.isLt N_2
  have hc := coord2_1 t
  have hoff := k2_off1_eq (grid2.coords t)
  have hk := k.isLt
  have hlt : 1024 * (t.val % 8) + k.val < 8192 := by omega
  rw [rd2_of_lt _ _ _ hlt col.isLt]
  have e : (Rect.unit (s := S8192x128) (k2_off1 (grid2.coords t)) S1024x128.size (k2_off1_inb (grid2.coords t))).idx (ix2 k col)
      = ix2 ⟨1024 * (t.val % 8) + k.val, hlt⟩ col := by
    funext a
    apply Fin.ext
    match a with
    | ⟨0, _⟩ =>
      show k2_off1 (grid2.coords t) 0 + 1 * k.val = 1024 * (t.val % 8) + k.val
      rw [hoff]
      show 1024 * ((grid2.coords t) 1).val + 1 * k.val = 1024 * (t.val % 8) + k.val
      rw [hc]; omega
    | ⟨1, _⟩ =>
      show k2_off1 (grid2.coords t) 1 + 1 * col.val = col.val
      rw [hoff]
      show 0 + 1 * col.val = col.val
      omega
  show ((iblk2 V c 1 t : Vec Ideal S8192x128 .bf16) ((Rect.unit (s := S8192x128) (k2_off1 (grid2.coords t)) S1024x128.size (k2_off1_inb (grid2.coords t))).idx (ix2 k col)) : EReal) = _
  rw [e]
  exact iblk1_apply V c t _ col

/-- The term a point adds at contracted position d, for block row i, row r of the block, column col. -/
def G (c : Dev nD) (ib r col d : ℕ) : EReal := rd2 (adjOf V c) (2048 * ib + r) d * rd2 (opOf V c) d col

/-- One point's step at an index: the accumulator's entry plus the 1024 terms of the point's column block. -/
theorem step_apply (c : Dev nD) (t : Fin cfg2.N) (acc : FVec Ideal S2048x128 .f32) (r : Fin 2048) (col : Fin 128) :
    (k2_pay2 (F := Ideal) (iblk2 V c 0 t) (slab2 (F := Ideal) (grid2.coords t) (iblk2 V c 1 t)) acc (ix2 r col) : EReal)
      = (acc (ix2 r col) : EReal) + ∑ d ∈ Finset.range 1024, G V c (t.val / 8) r.val col.val (1024 * (t.val % 8) + d) := by
  refine (pay2_apply (iblk2 V c 0 t) (slab2 (F := Ideal) (grid2.coords t) (iblk2 V c 1 t)) acc r col).trans ?_
  rw [Finset.sum_range]
  refine congrArg (fun z : EReal => (acc (ix2 r col) : EReal) + z) (Finset.sum_congr rfl fun k _ => ?_)
  rw [iblk0_apply V c t r k, slab_apply V c t k col]
  rfl

end Blocks

section Final
variable (V : (c : Dev nD) → (b : Ref sig .tc) → Buf (Elt Ideal) ((c : Thread nD τ).loc b))

/-- THE INVARIANT. After point n = 8·i + k the accumulator holds, at (r, col), the sum over the first 1024·(k + 1)
    contracted positions d of adj (2048·i + r, d) · operand (d, col). -/
theorem acc_inv (c : Dev nD) : ∀ (n : ℕ) (hn : n < cfg2.N) (r : Fin 2048) (col : Fin 128),
    ((outsAt2 V c n hn).2 (ix2 r col) : EReal)
      = ∑ d ∈ Finset.range (1024 * (n % 8 + 1)), G V c (n / 8) r.val col.val d := by
  intro n
  induction n using Nat.strong_induction_on with
  | _ n ih =>
    intro hn r col
    have hN : n < 32 := lt_of_lt_of_eq hn N_2
    by_cases h0 : n % 8 = 0
    · have h1 : ¬n % 8 = 7 := by omega
      rw [show outsAt2 V c n hn = outA2 V c ⟨n, hn⟩ h0 h1 from outsAt2_A V c ⟨n, hn⟩ h0 h1]
      unfold outA2
      dsimp only
      rw [soutA_eq]
      refine (step_apply V c ⟨n, hn⟩ (k2_pay1 (F := Ideal)) r col).trans ?_
      dsimp only
      rw [pay1_apply, zero_add, h0]
      simp only [Nat.mul_zero, Nat.zero_add, Nat.mul_one]
    · by_cases h1 : n % 8 = 7
      · rw [show outsAt2 V c n hn = outC2 V c ⟨n, hn⟩ h0 h1 (outsAt2 V c (n - 1) (Nat.lt_of_le_of_lt (Nat.sub_le _ _) hn)).2 from outsAt2_C V c ⟨n, hn⟩ h0 h1]
        unfold outC2
        dsimp only
        rw [soutC_eq]
        refine (step_apply V c ⟨n, hn⟩ _ r col).trans ?_
        dsimp only
        rw [ih (n - 1) (by omega) _ r col]
        have e1 : (n - 1) / 8 = n / 8 := by omega
        have e2 : (n - 1) % 8 + 1 = n % 8 := by omega
        rw [e1, e2]
        exact Cert.LibSumBlocks.prefix_add_block (fun d => G V c (n / 8) r.val col.val d) 1024 (n % 8)
      · rw [show outsAt2 V c n hn = outB2 V c ⟨n, hn⟩ h0 h1 (outsAt2 V c (n - 1) (Nat.lt_of_le_of_lt (Nat.sub_le _ _) hn)).2 from outsAt2_B V c ⟨n, hn⟩ h0 h1]
        unfold outB2
        dsimp only
        rw [soutB_eq]
        refine (step_apply V c ⟨n, hn⟩ _ r col).trans ?_
        dsimp only
        rw [ih (n - 1) (by omega) _ r col]
        have e1 : (n - 1) / 8 = n / 8 := by omega
        have e2 : (n - 1) % 8 + 1 = n % 8 := by omega
        rw [e1, e2]
        exact Cert.LibSumBlocks.prefix_add_block (fun d => G V c (n / 8) r.val col.val d) 1024 (n % 8)

/-- All 8192 terms of a row are the textbook product's entry. -/
theorem G_sum (c : Dev nD) (ib : ℕ) (hib : ib < 4) (r : Fin 2048) (col : Fin 128) :
    ∑ d ∈ Finset.range 8192, G V c ib r.val col.val d
      = Cert.Spec.zpacked (adjOf V c) (opOf V c) (ix2 ⟨2048 * ib + r.val, by have := r.isLt; omega⟩ col) := by
  have hr := r.isLt
  unfold Cert.Spec.zpacked Idealize.ShloMosaic.PlainDot.mm
  rw [Finset.sum_range]
  refine Finset.sum_congr rfl fun k _ => ?_
  unfold G
  rw [rd2_of_lt _ _ _ (by omega) k.isLt, rd2_of_lt _ _ _ k.isLt col.isLt]

/-- At a point with k = 7 the output block's buffer holds rows 2048·i … of the product. -/
theorem out_at7 (c : Dev nD) (t : Fin cfg2.N) (h1 : t.val % 8 = 7) (r : Fin 2048) (col : Fin 128) :
    ((outsAt2 V c t.val t.isLt).1 (ix2 r col) : EReal)
      = Cert.Spec.zpacked (adjOf V c) (opOf V c) (ix2 ⟨2048 * (t.val / 8) + r.val, by
          have := r.isLt; have : t.val < 32 := lt_of_lt_of_eq t.isLt N_2; omega⟩ col) := by
  have hN : t.val < 32 := lt_of_lt_of_eq t.isLt N_2
  have h0 : ¬t.val % 8 = 0 := by omega
  rw [outsAt2_C V c t h0 h1]
  unfold outC2
  dsimp only
  rw [outC_eq]
  refine (step_apply V c t _ r col).trans ?_
  rw [acc_inv V c (t.val - 1) _ r col]
  have e1 : (t.val - 1) / 8 = t.val / 8 := by omega
  have e2 : (t.val - 1) % 8 + 1 = t.val % 8 := by omega
  rw [e1, e2]
  refine (Cert.LibSumBlocks.prefix_add_block (fun d => G V c (t.val / 8) r.val col.val d) 1024 (t.val % 8)).trans ?_
  rw [h1]
  exact G_sum V c (t.val / 8) (by omega) r col

/-- The array region 2 leaves in main_v3, as one function of the arrays it is entered with. -/
abbrev Z2 (c : Dev nD) : Buf (Elt Ideal) ((c : Thread nD τ).loc main_v3) :=
  Cert.Spec.zpacked (adjOf V c) (opOf V c)

/-- Each write-back (at the points with k = 7) writes its block of the product. -/
theorem flushed_eq2 (c : Dev nD) (t : Fin cfg2.N) (hf : (cfg2.win 2).flush t = true) :
    (dat2 V c).flushed 2 t = ((cfg2.win 2).blk t).view.read (Elt Ideal) (Z2 V c) := by
  have hN : t.val < 32 := lt_of_lt_of_eq t.isLt N_2
  have h1 : t.val % 8 = 7 := (flush2_2 t).mp hf
  have hi := idx2_2 t
  show (cfg2.win 2).cut (grid2.coords t) ((dat2 V c).after 2 t) = _
  rw [after2_2]
  funext y
  show ((outsAt2 V c t.val t.isLt).1 y : EReal) = _
  obtain ⟨r, col, rfl⟩ : ∃ (r : Fin 2048) (col : Fin 128), y = ix2 r col := ⟨y 0, y 1, eq_ix2 y⟩
  rw [out_at7 V c t h1 r col, View.read_apply]
  show Cert.Spec.zpacked (adjOf V c) (opOf V c) _ = Cert.Spec.zpacked (adjOf V c) (opOf V c) _
  congr 1
  funext a
  apply Fin.ext
  match a with
  | ⟨0, _⟩ => show 2048 * (t.val / 8) + r.val = win2_2.index t 0 * 2048 + 1 * r.val; rw [hi.1]; omega
  | ⟨1, _⟩ => show col.val = win2_2.index t 1 * 128 + 1 * col.val; rw [hi.2]; omega

/-- THE VALUE OF REGION 2: main_v3 ends holding adj · main_v2, the textbook product of the arrays the region is
    entered with (the four row blocks written back at the points with k = 7 cover the array). -/
theorem arrAt2_out (c : Dev nD) (i : S8192x128.Idx) :
    ((dat2 (F := Ideal) V c).arrAt 2 cfg2.N : S8192x128.Idx → EReal) i
      = Cert.Spec.zpacked (V c main_arg1) (V c main_v2) i := by
  have h := (dat2 (F := Ideal) V c).arrAt_eq_of_cover 2 (Z2 V c) (flushed_eq2 V c) fun i => by
    have h0 : (i 0 : Nat) < 8192 := (i 0).isLt
    have h1 : (i 1 : Nat) < 128 := (i 1).isLt
    have hlt : 8 * ((i 0 : Nat) / 2048) + 7 < cfg2.N := by rw [show cfg2.N = 32 from N_2]; omega
    refine ⟨⟨8 * ((i 0 : Nat) / 2048) + 7, hlt⟩, (flush2_2 _).mpr (by show (8 * ((i 0 : Nat) / 2048) + 7) % 8 = 7; omega), ?_⟩
    have hi := idx2_2 ⟨8 * ((i 0 : Nat) / 2048) + 7, hlt⟩
    show i ∈ ((View.whole main_v3).slice (win2_2.rect ⟨8 * ((i 0 : Nat) / 2048) + 7, hlt⟩)).set
    rw [View.set_slice_whole, Rect.mem_set_unit]
    intro a
    match a with
    | ⟨0, _⟩ =>
      show win2_2.index ⟨8 * ((i 0 : Nat) / 2048) + 7, hlt⟩ 0 * 2048 ≤ (i 0 : Nat) ∧ (i 0 : Nat) < win2_2.index ⟨8 * ((i 0 : Nat) / 2048) + 7, hlt⟩ 0 * 2048 + 2048
      rw [hi.1]; dsimp only; omega
    | ⟨1, _⟩ =>
      show win2_2.index ⟨8 * ((i 0 : Nat) / 2048) + 7, hlt⟩ 1 * 128 ≤ (i 1 : Nat) ∧ (i 1 : Nat) < win2_2.index ⟨8 * ((i 0 : Nat) / 2048) + 7, hlt⟩ 1 * 128 + 128
      rw [hi.2]; omega
  exact congrFun h i

end Final

end Cert.KernelIdeal.Val

end
-- ==== Proof.Val.Region3Value.lean ====
/-
  The last region's output array: the Gram matrix of the rows of its 8192 x 64 input.

  At grid point t = (p, q) the body multiplies rows 2048 p .. 2048 p + 2047 of the input Z with rows
  1024 q .. 1024 q + 1023 of the same Z, contracting both on their 64 columns, into a zero accumulator: entry (r, c) of
  the 2048 x 1024 tile is the sum over k of Z (2048 p + r, k) * Z (1024 q + c, k), which is entry
  (2048 p + r, 1024 q + c) of the Gram matrix. The 4 x 8 tiles cover the 8192 x 8192 array, so it ends holding the Gram
  matrix of Z. A cast to the same shape and a narrowing to a shorter format are the identity on the extended reals.
-/
import proofs.«114752_j31224412242681_2_alg».proof.Proof.KernelIdealHand.Region3
import proofs.«114752_j31224412242681_2_alg».proof.Proof.Spec
import proofs.«114752_j31224412242681_2_alg».proof.Proof.LibTileDot
import Idealize.ShloMosaic.Lib.Pipeline.Value

noncomputable section

open scoped BigOperators

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat Cfg Window)

/-- The zero offsets of a whole-buffer access, spelt as the constant function. -/
theorem hz3 : (![0, 0] : Fin 2 → Nat) = fun _ => 0 := funext fun a => by fin_cases a <;> rfl

/-- The product of an M x K array with the transpose of an N x K array: entry (r, c) is the sum over k of
    A (r, k) * B (c, k), rows against rows. -/
def mmT {M K N : Nat} (A : (⟨2, ![M, K]⟩ : Shape).Idx → EReal) (B : (⟨2, ![N, K]⟩ : Shape).Idx → EReal) :
    (⟨2, ![M, N]⟩ : Shape).Idx → EReal :=
  fun j => ∑ k : Fin K, A (ix2 (j 0) k) * B (ix2 (j 1) k)

/-- With both operands contracted on their last axis, the left operand's index at output index j and contraction
    index k is (row of j, k). -/
theorem lhsIdx_rows {M K N : Nat} (j : (⟨2, ![M, N]⟩ : Shape).Idx) (k : Fin K) :
    (DotDims.transposedRhs M K N).lhsIdx j ((contrEquiv1 (DotDims.transposedRhs M K N) K rfl rfl).symm k) = ix2 (j 0) k := by
  funext a
  apply Fin.ext
  have hk := contrEquiv1_symm_val (DotDims.transposedRhs M K N) K rfl rfl k
  match a with
  | ⟨0, _⟩ => rfl
  | ⟨1, _⟩ => exact ((DotDims.transposedRhs M K N).lhsIdx_val_of_single rfl j _).trans hk

/-- The right operand's index there is (column of j, k). -/
theorem rhsIdx_rows {M K N : Nat} (j : (⟨2, ![M, N]⟩ : Shape).Idx) (k : Fin K) :
    (DotDims.transposedRhs M K N).rhsIdx j ((contrEquiv1 (DotDims.transposedRhs M K N) K rfl rfl).symm k) = ix2 (j 1) k := by
  funext a
  apply Fin.ext
  have hk := contrEquiv1_symm_val (DotDims.transposedRhs M K N) K rfl rfl k
  match a with
  | ⟨0, _⟩ => rfl
  | ⟨1, _⟩ => exact ((DotDims.transposedRhs M K N).rhsIdx_val_of_single rfl j _).trans hk

/-- The matrix unit's rows-against-rows product into the zero accumulator is that sum. -/
theorem matmul_rows_zero {M K N : Nat} {φ₁ φ₂ : FTy} (prec : Option ContractPrecision)
    (A : FVec Ideal ⟨2, ![M, K]⟩ φ₁) (B : FVec Ideal ⟨2, ![N, K]⟩ φ₂) :
    FloatOps.matmul (DotDims.transposedRhs M K N) prec A B (constant ⟨2, ![M, N]⟩ .f32 0x00000000#32) = mmT A B :=
  funext fun j => Cert.LibTileDot.matmul_zero_at (DotDims.transposedRhs M K N) prec K rfl rfl A B j
    (fun k => ix2 (j 0) k) (fun k => ix2 (j 1) k) (fun k => lhsIdx_rows j k) (fun k => rhsIdx_rows j k)

/-- The body's arithmetic is the rows-against-rows product of its two loaded tiles. -/
theorem pay3_eq (x0 : Vec Ideal S2048x64 .f32) (x1 : Vec Ideal S1024x64 .f32) :
    k3_pay1 (F := Ideal) x0 x1 = mmT (M := 2048) (K := 64) (N := 1024) x0 x1 := by
  unfold k3_pay1
  simp only [shapeCast_self]
  exact matmul_rows_zero (M := 2048) (K := 64) (N := 1024) (φ₁ := .bf16) (φ₂ := .bf16) none x0 x1

/-- A tile's entry as an entry of the Gram matrix: when the tile's left operand is rows 2048 p .. of Z and its right
    operand rows 1024 q .. of Z, entry j of the tile is entry (2048 p + j 0, 1024 q + j 1) of the Gram matrix of Z. -/
theorem tile_entry3 (Z : S8192x64.Idx → EReal) (a : S2048x64.Idx → EReal) (b : S1024x64.Idx → EReal)
    (p q : Nat) (j : S2048x1024.Idx) (i : S8192x8192.Idx)
    (hi0 : (i 0).val = p * 2048 + (j 0).val) (hi1 : (i 1).val = q * 1024 + (j 1).val)
    (ha : ∀ (r : Fin 2048) (k : Fin 64) (y : S8192x64.Idx), (y 0).val = p * 2048 + r.val → (y 1).val = k.val → a (ix2 r k) = Z y)
    (hb : ∀ (r : Fin 1024) (k : Fin 64) (y : S8192x64.Idx), (y 0).val = q * 1024 + r.val → (y 1).val = k.val → b (ix2 r k) = Z y) :
    mmT (M := 2048) (K := 64) (N := 1024) a b j = Cert.Spec.gram Z i := by
  unfold mmT Cert.Spec.gram
  refine Finset.sum_congr rfl fun k _ => ?_
  rw [ha (j 0) k (ix2 (i 0) k) hi0 rfl, hb (j 1) k (ix2 (i 1) k) hi1 rfl]

/-- The printed index maps, decided over the 32 grid points: point t is (t / 8, t % 8); the row block's and the
    output's block row is t / 8, the column block's block row and the output's block column is t % 8. -/
theorem idx_facts3 : ∀ t : Fin cfg3.N, win3_0.index t (0 : Fin 2) = t.val / 8 ∧ win3_0.index t (1 : Fin 2) = 0
    ∧ win3_1.index t (0 : Fin 2) = t.val % 8 ∧ win3_1.index t (1 : Fin 2) = 0
    ∧ win3_2.index t (0 : Fin 2) = t.val / 8 ∧ win3_2.index t (1 : Fin 2) = t.val % 8 :=
  (by decide +kernel : ∀ t : Fin grid3.N, _)

section

variable (V : (c : Dev nD) → (b : Ref sig .tc) → Buf (Elt Ideal) ((c : Thread nD τ).loc b))

/-- What point t writes back is block t of the Gram matrix of Z, Z the input array as the region finds it. -/
theorem flushed3_eq (c : Dev nD) (t : Fin cfg3.N) :
    (dat3 (F := Ideal) V c).flushed 2 t
      = ((cfg3.win 2).blk t).view.read (Elt Ideal) (Cert.Spec.gram (V c main_v4)) := by
  show (cfg3.win 2).cut (grid3.coords t) ((dat3 (F := Ideal) V c).after 2 t) = _
  rw [after3_2]
  unfold out3_2
  rw [View.canon_unit_zero hz3]
  simp only [View.ld_unit_zero (S := S2048x64) hz3, View.ld_unit_zero (S := S1024x64) hz3]
  rw [pay3_eq]
  obtain ⟨e0, e1, e2, e3, e4, e5⟩ := idx_facts3 t
  funext j
  refine tile_entry3 (V c main_v4) _ _ (win3_2.index t (0 : Fin 2)) (win3_2.index t (1 : Fin 2)) j
    (((cfg3.win 2).blk t).view.emb j) ?_ ?_ ?_ ?_
  · show win3_2.index t (0 : Fin 2) * 2048 + 1 * (j 0).val = win3_2.index t (0 : Fin 2) * 2048 + (j 0).val
    omega
  · show win3_2.index t (1 : Fin 2) * 1024 + 1 * (j 1).val = win3_2.index t (1 : Fin 2) * 1024 + (j 1).val
    omega
  · intro r k y hy0 hy1
    show V c main_v4 (((cfg3.win 0).blk t).view.emb (ix2 r k)) = V c main_v4 y
    refine congrArg (V c main_v4) (funext fun a => Fin.ext ?_)
    match a with
    | ⟨0, _⟩ => show win3_0.index t (0 : Fin 2) * 2048 + 1 * r.val = (y 0).val; omega
    | ⟨1, _⟩ => show win3_0.index t (1 : Fin 2) * 64 + 1 * k.val = (y 1).val; omega
  · intro r k y hy0 hy1
    show V c main_v4 (((cfg3.win 1).blk t).view.emb (ix2 r k)) = V c main_v4 y
    refine congrArg (V c main_v4) (funext fun a => Fin.ext ?_)
    match a with
    | ⟨0, _⟩ => show win3_1.index t (0 : Fin 2) * 1024 + 1 * r.val = (y 0).val; omega
    | ⟨1, _⟩ => show win3_1.index t (1 : Fin 2) * 64 + 1 * k.val = (y 1).val; omega

/-- An index of the output array is in point t's block iff each coordinate is in the block's range on its axis. -/
theorem mem_blk3 (t : Fin cfg3.N) (i : S8192x8192.Idx) :
    i ∈ ((cfg3.win 2).blk t).view.set ↔ ∀ a : Fin 2, win3_2.index t a * S2048x1024.size a ≤ (i a).val ∧ (i a).val < win3_2.index t a * S2048x1024.size a + S2048x1024.size a := by
  show i ∈ ((View.whole main_v6).slice (win3_2.rect t)).set ↔ _
  rw [View.set_slice_whole, Rect.mem_set_unit]
  exact Iff.rfl

/-- Every index of the output array is in the block of one point: entry (r, c) is in the block of point
    8 (r / 2048) + c / 1024. -/
theorem cover3 (i : S8192x8192.Idx) : ∃ t : Fin cfg3.N, (cfg3.win 2).flush t = true ∧ i ∈ ((cfg3.win 2).blk t).view.set := by
  have hi0 : (i 0).val < 8192 := (i 0).isLt
  have hi1 : (i 1).val < 8192 := (i 1).isLt
  have hN : cfg3.N = 32 := N_3
  let t : Fin cfg3.N := ⟨8 * ((i 0).val / 2048) + (i 1).val / 1024, by rw [hN]; omega⟩
  obtain ⟨e0, e1, e2, e3, e4, e5⟩ := idx_facts3 t
  have e4' : win3_2.index t (0 : Fin 2) = (8 * ((i 0).val / 2048) + (i 1).val / 1024) / 8 := e4
  have e5' : win3_2.index t (1 : Fin 2) = (8 * ((i 0).val / 2048) + (i 1).val / 1024) % 8 := e5
  refine ⟨t, flush3_2 t, ?_⟩
  rw [mem_blk3]
  intro a
  match a with
  | ⟨0, _⟩ => show win3_2.index t (0 : Fin 2) * 2048 ≤ (i 0).val ∧ (i 0).val < win3_2.index t (0 : Fin 2) * 2048 + 2048; omega
  | ⟨1, _⟩ => show win3_2.index t (1 : Fin 2) * 1024 ≤ (i 1).val ∧ (i 1).val < win3_2.index t (1 : Fin 2) * 1024 + 1024; omega

/-- The output array after the region: the Gram matrix of the input array as the region finds it. -/
theorem arrAt3_eq (c : Dev nD) :
    (dat3 (F := Ideal) V c).arrAt 2 cfg3.N = Cert.Spec.gram (V c main_v4) :=
  (dat3 (F := Ideal) V c).arrAt_eq_of_cover 2 (Cert.Spec.gram (V c main_v4))
    (fun t _ => flushed3_eq V c t) cover3

/-- The same, index by index. -/
theorem arrAt3_out (c : Dev nD) (i : S8192x8192.Idx) :
    (dat3 (F := Ideal) V c).arrAt 2 cfg3.N i = Cert.Spec.gram (V c main_v4) i :=
  congrFun (arrAt3_eq V c) i

end

end Cert.KernelIdeal.Val

end
-- ==== Proof.RefAgree.lean ====
/-
  The reference's run, stated over the arguments of the other program.

  When the reference is launched from a memory whose five argument arrays equal those of another memory m, its three
  results are the Gram matrix of the mean head, the mean head and the log-deviation head of m's arguments: the results
  are functions of the argument arrays alone, so equal arguments give equal results.
-/
import proofs.«114752_j31224412242681_2_alg».proof.KernelIdeal
import proofs.«114752_j31224412242681_2_alg».proof.Proof.RefValue

noncomputable section

namespace Cert.ReferenceIdeal.RefValue

open Idealize.ShloMosaic Idealize.ShloMosaic.TcCoe Idealize.SL.Sem

/-- The reference's run from m', whose arguments agree with those of m: the results are the three functions of m's
    arguments, and the reference's own arguments are unchanged. -/
theorem run_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v8) = Cert.Spec.gram (Cert.Bridge.Zm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      ∧ r.2.mem ((c.tc : Thread Cert.ReferenceIdeal.nD Cert.ReferenceIdeal.τ).loc Cert.ReferenceIdeal.main_v4) = Cert.Bridge.Zm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.ReferenceIdeal.nD Cert.ReferenceIdeal.τ).loc Cert.ReferenceIdeal.main_v6) = Cert.Bridge.Zl (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono (fun _ h c => by
      rw [← (hagree c).1, ← (hagree c).2.1, ← (hagree c).2.2.1, ← (hagree c).2.2.2.1, ← (hagree c).2.2.2.2]
      exact h c)
    (run m' g')

end Cert.ReferenceIdeal.RefValue

end
-- ==== Proof.Val.Chain.lean ====
/-
  The idealized kernel's three results as functions of its arguments, and the algebraic claim.

  At the ideal values the first region leaves X.Wh; the second, entered with it and with the two weight matrices side by
  side, leaves max(A.(X.Wh), 0).[Wm | Wl]; the third leaves A times that; the host slices its two column halves; the last
  region leaves the Gram matrix of the low half. A product against weights side by side is the two products side by
  side, and column c of A.S depends only on column c of S, so the two halves are A.(H.Wm) and A.(H.Wl): the reference's
  latent means and log-deviations; the Gram matrix of the first is the reference's reconstruction.
-/
import proofs.«114752_j31224412242681_2_alg».proof.Defs
import proofs.«114752_j31224412242681_2_alg».proof.Proof.Gen.Pre_finite_inputs
import proofs.«114752_j31224412242681_2_alg».proof.Proof.Gen.ReferenceIdeal
import proofs.«114752_j31224412242681_2_alg».proof.Proof.KernelIdealHand.Reads
import proofs.«114752_j31224412242681_2_alg».proof.Proof.KernelIdealHand.Inst
import proofs.«114752_j31224412242681_2_alg».proof.Proof.Val.Region0Value
import proofs.«114752_j31224412242681_2_alg».proof.Proof.Val.Region1Value
import proofs.«114752_j31224412242681_2_alg».proof.Proof.Val.Region2Value
import proofs.«114752_j31224412242681_2_alg».proof.Proof.Val.Region3Value
import proofs.«114752_j31224412242681_2_alg».proof.Proof.Bridge
import proofs.«114752_j31224412242681_2_alg».proof.Proof.RefAgree

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg)

/-- The two accumulating regions' records at the ideal values. -/
abbrev R1i : Region1Data Ideal := region1Data
abbrev R2i : Region2Data Ideal := region2Data

/-- The arguments, named. -/
abbrev ax (c : Dev nD) := m ((c : Thread nD τ).loc main_arg0)
abbrev aadj (c : Dev nD) := m ((c : Thread nD τ).loc main_arg1)
abbrev awh (c : Dev nD) := m ((c : Thread nD τ).loc main_arg2)
abbrev awm (c : Dev nD) := m ((c : Thread nD τ).loc main_arg3)
abbrev awl (c : Dev nD) := m ((c : Thread nD τ).loc main_arg4)

/-- What the third region leaves: the adjacency matrix times the packed second support. -/
theorem zp_eq (c : Dev nD) : (R2i.dat (V3 R1i m ρ) c).arrAt 2 cfg2.N
    = Cert.Bridge.Zp (ax m c) (aadj m c) (awh m c) (awm m c) (awl m c) concatenates_S256x64_S256x64_S256x128_d1 := by
  funext i
  refine (arrAt2_out (V3 R1i m ρ) c i).trans ?_
  have e1 : V3 R1i m ρ c main_arg1 = aadj m c := W3_main_arg1 R1i m ρ c
  have e2 : V3 R1i m ρ c main_v2 = Cert.Spec.support2 (aadj m c) (Cert.Spec.support1 (ax m c) (awh m c))
      (Cert.Bridge.packed (awm m c) (awl m c) concatenates_S256x64_S256x64_S256x128_d1) := by
    refine (W3_main_v2 R1i m ρ c).trans ?_
    funext j
    refine (arrAt1_out (V2 m ρ) c j).trans ?_
    have f1 : V2 m ρ c main_arg1 = aadj m c := W2_main_arg1 m ρ c
    have f2 : V2 m ρ c main_v0 = Cert.Spec.support1 (ax m c) (awh m c) := (W2_main_v0 m ρ c).trans (arrAt0_eq (V0 m ρ) c)
    have f3 : V2 m ρ c main_v1 = Cert.Bridge.packed (awm m c) (awl m c) concatenates_S256x64_S256x64_S256x128_d1 := W2_main_v1 m ρ c
    rw [f1, f2, f3]
  rw [e1, e2]

/-- THE KERNEL'S RUN at the ideal values: it terminates, nothing faulting, with the reconstruction at the Gram matrix of
    the latent means, the latent means and log-deviations at the adjacency matrix times the hidden layer times each
    weight matrix, and the arguments as launched. -/
theorem kernel_run : θ_run (defs (F := Ideal)) (onTc (τ := τ) (main (F := Ideal))) ⟨m, fun _ => 0, ρ⟩ (fun r => ∀ c : Dev nD,
      r.2.mem ((c.tc : Thread nD τ).loc main_v6) = Cert.Spec.gram (Cert.Bridge.Zm (ax m c) (aadj m c) (awh m c) (awm m c))
      ∧ r.2.mem ((c.tc : Thread nD τ).loc main_v4) = Cert.Bridge.Zm (ax m c) (aadj m c) (awh m c) (awm m c)
      ∧ r.2.mem ((c.tc : Thread nD τ).loc main_v5) = Cert.Bridge.Zl (ax m c) (aadj m c) (awh m c) (awl m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun _ h c => ?_) (run_all R1i R2i m ρ)
  have hlo : W5 R1i R2i m ρ c (Proc.devRef .tc main_v4) = Cert.Bridge.Zm (ax m c) (aadj m c) (awh m c) (awm m c) := by
    rw [W5_main_v4 R1i R2i m ρ c, zp_eq m ρ c]
    exact Cert.Bridge.zpacked_lo _ _ _ _ _ _ _
  have hhi : W5 R1i R2i m ρ c (Proc.devRef .tc main_v5) = Cert.Bridge.Zl (ax m c) (aadj m c) (awh m c) (awl m c) := by
    rw [W5_main_v5 R1i R2i m ρ c, zp_eq m ρ c]
    exact Cert.Bridge.zpacked_hi _ _ _ _ _ _ _
  refine ⟨?_, ?_, ?_, ?_, ?_, ?_, ?_, ?_⟩
  · refine (h c _ (mem_uc main_v6 (by decide))).trans ((W6_v6 R1i R2i m ρ c).trans ?_)
    refine (arrAt3_eq (V5 R1i R2i m ρ) c).trans ?_
    exact congrArg Cert.Spec.gram hlo
  · exact (h c _ (mem_uc main_v4 (by decide))).trans ((W6_main_v4 R1i R2i m ρ c).trans hlo)
  · exact (h c _ (mem_uc main_v5 (by decide))).trans ((W6_main_v5 R1i R2i m ρ c).trans hhi)
  · exact (h c _ (mem_uc main_arg0 (by decide))).trans (W6_main_arg0 R1i R2i m ρ c)
  · exact (h c _ (mem_uc main_arg1 (by decide))).trans (W6_main_arg1 R1i R2i m ρ c)
  · exact (h c _ (mem_uc main_arg2 (by decide))).trans (W6_main_arg2 R1i R2i m ρ c)
  · exact (h c _ (mem_uc main_arg3 (by decide))).trans (W6_main_arg3 R1i R2i m ρ c)
  · exact (h c _ (mem_uc main_arg4 (by decide))).trans (W6_main_arg4 R1i R2i m ρ c)

end Cert.KernelIdeal.Val

/-- The two idealized programs, run from memories agreeing on the arguments, both end, with equal results. -/
theorem Cert.KernelIdeal.Val.algebraic : Cert.algebraic_KernelIdeal_ReferenceIdeal := by
  intro m ρ m' ρ' _ hagree
  exact ⟨_, _, _, Cert.KernelIdeal.Val.kernel_run m ρ, Cert.ReferenceIdeal.RefValue.run_agree m m' ρ' hagree⟩

end
-- ==== Proof.lean ====
/-
  The certificate of a graph-convolutional variational encoder computed by four tiled kernels against its plain
  reference: with X the node features, A the adjacency matrix and Wh, Wm, Wl the weights,
      hidden = max (A . (X . Wh)) 0,   means = A . (hidden . Wm),   log-deviations = A . (hidden . Wl),
      reconstruction = means . transpose means.
  The kernels compute X . Wh in blocks of rows; then A times it accumulated over eight blocks of columns, rectified and
  multiplied by the two second-layer weight matrices side by side; then A times that, again accumulated over eight
  blocks of columns; the two column halves are the means and the log-deviations; the last kernel computes the Gram
  matrix of the means tile by tile, reading the means through two windows. At the ideal values a change of float format
  is the identity and a product into a zero accumulator is the textbook sum, so the two programs differ only in the
  order of finite sums of extended reals and in packing two products side by side: nothing needs an entry to be finite.

  The three frames: each kernel region is run from "every unscoped buffer at known contents", the two accumulating
  regions carrying their accumulator through an invariant, the last region dealing its shared input array's ownership
  between its two windows; the run pins every unscoped buffer at the end, and no item writes an argument. The word-level
  program's frame is the same argument at the word-level instance. The reference's frame is its run with the results
  dropped. The idealization rewrote nothing. The algebraic claim composes the four regions' values with the two
  algebraic facts above and meets the reference's run, stated over the same arguments.
-/
import proofs.«114752_j31224412242681_2_alg».proof.Defs
import proofs.«114752_j31224412242681_2_alg».proof.Proof.Gen.Kernel
import proofs.«114752_j31224412242681_2_alg».proof.Proof.Gen.KernelIdeal
import proofs.«114752_j31224412242681_2_alg».proof.Proof.Gen.ReferenceIdeal
import proofs.«114752_j31224412242681_2_alg».proof.Proof.Gen.Pre_finite_inputs
import proofs.«114752_j31224412242681_2_alg».proof.Proof.KernelHand.Reads
import proofs.«114752_j31224412242681_2_alg».proof.Proof.KernelHand.Inst
import proofs.«114752_j31224412242681_2_alg».proof.Proof.KernelIdealHand.Reads
import proofs.«114752_j31224412242681_2_alg».proof.Proof.KernelIdealHand.Inst
import proofs.«114752_j31224412242681_2_alg».proof.Proof.RefValue
import proofs.«114752_j31224412242681_2_alg».proof.Proof.Val.Chain

noncomputable section

namespace Cert.Proof

open Idealize.ShloMosaic Idealize.SL.Sem

/-- The word-level kernel runs to the end, faults nowhere, and leaves its arguments as launched. -/
theorem frame_kernel : Cert.frame_Kernel := fun m ρ _ =>
  Cert.Kernel.Hand.frame_all Cert.Kernel.Hand.region1Data Cert.Kernel.Hand.region2Data m ρ

/-- So does the kernel read at the ideal values. -/
theorem frame_kernel_ideal : Cert.frame_KernelIdeal := fun m ρ _ =>
  Cert.KernelIdeal.Hand.frame_all Cert.KernelIdeal.Hand.region1Data Cert.KernelIdeal.Hand.region2Data m ρ

/-- The reference's frame is its run with the results dropped. -/
theorem frame_reference : Cert.frame_ReferenceIdeal := fun m ρ _ => Cert.ReferenceIdeal.RefValue.frame m ρ

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, Cert.KernelIdeal.Val.algebraic⟩

end Cert.Proof

end
